-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v417) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S56x56x64 : S_.BroadcastsInDim S56x56x64 (![] : Fin 0 → Fin S56x56x64.rank)
  reducesTo_S56x56x64_S_d0_1_2 : S56x56x64.ReducesTo [0, 1, 2] S_
  bcast_S_S28x28x128 : S_.BroadcastsInDim S28x28x128 (![] : Fin 0 → Fin S28x28x128.rank)
  reducesTo_S28x28x128_S_d0_1_2 : S28x28x128.ReducesTo [0, 1, 2] S_
  bcast_S_S14x14x256 : S_.BroadcastsInDim S14x14x256 (![] : Fin 0 → Fin S14x14x256.rank)
  reducesTo_S14x14x256_S_d0_1_2 : S14x14x256.ReducesTo [0, 1, 2] S_
  bcast_S_S7x7x512 : S_.BroadcastsInDim S7x7x512 (![] : Fin 0 → Fin S7x7x512.rank)
  reducesTo_S7x7x512_S_d0_1_2 : S7x7x512.ReducesTo [0, 1, 2] S_

variable [Facts]

def fn_part1 {F : FTy → Type} [FloatOps F] (main_arg4 : FVec F S7x7x512 .f32) (main_v13 : IVec S_ 1) (main_v16 : IVec S14x14x256 1) : IVec S_ 1 :=
  let main_c_5 : IVec S_ 1 := constantI S_ 1 1#1
  let main_v17 : IVec S_ 1 := (fun x v => Host.reduce IntOp.andi x v reducesTo_S14x14x256_S_d0_1_2 h_S_) main_v16 main_c_5
  let main_v18 : IVec S_ 1 := andi main_v13 main_v17
  let main_v19 : FVec F S7x7x512 .f32 := Host.absf main_arg4
  let main_cst_6 : FVec F S_ .f32 := constant S_ .f32 0x7F800000#32
  let main_v20 : FVec F S7x7x512 .f32 := broadcastInDim S7x7x512 ![] bcast_S_S7x7x512 main_cst_6
  let main_v21 : IVec S7x7x512 1 := cmpf .olt main_v19 main_v20
  let main_c_7 : IVec S_ 1 := constantI S_ 1 1#1
  let main_v22 : IVec S_ 1 := (fun x v => Host.reduce IntOp.andi x v reducesTo_S7x7x512_S_d0_1_2 h_S_) main_v21 main_c_7
  let main_v23 : IVec S_ 1 := andi main_v18 main_v22
  main_v23

def fn {F : FTy → Type} [FloatOps F] (main_arg0 : FVec F S100000x3 .f32) (main_arg1 : FVec F S56x56x64 .f32) (main_arg2 : FVec F S28x28x128 .f32) (main_arg3 : FVec F S14x14x256 .f32) (main_arg4 : FVec F S7x7x512 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S56x56x64 .f32 := Host.absf main_arg1
  let main_cst_0 : FVec F S_ .f32 := constant S_ .f32 0x7F800000#32
  let main_v5 : FVec F S56x56x64 .f32 := broadcastInDim S56x56x64 ![] bcast_S_S56x56x64 main_cst_0
  let main_v6 : IVec S56x56x64 1 := cmpf .olt main_v4 main_v5
  let main_c_1 : IVec S_ 1 := constantI S_ 1 1#1
  let main_v7 : IVec S_ 1 := (fun x v => Host.reduce IntOp.andi x v reducesTo_S56x56x64_S_d0_1_2 h_S_) main_v6 main_c_1
  let main_v8 : IVec S_ 1 := andi main_v3 main_v7
  let main_v9 : FVec F S28x28x128 .f32 := Host.absf main_arg2
  let main_cst_2 : FVec F S_ .f32 := constant S_ .f32 0x7F800000#32
  let main_v10 : FVec F S28x28x128 .f32 := broadcastInDim S28x28x128 ![] bcast_S_S28x28x128 main_cst_2
  let main_v11 : IVec S28x28x128 1 := cmpf .olt main_v9 main_v10
  let main_c_3 : IVec S_ 1 := constantI S_ 1 1#1
  let main_v12 : IVec S_ 1 := (fun x v => Host.reduce IntOp.andi x v reducesTo_S28x28x128_S_d0_1_2 h_S_) main_v11 main_c_3
  let main_v13 : IVec S_ 1 := andi main_v8 main_v12
  let main_v14 : FVec F S14x14x256 .f32 := Host.absf main_arg3
  let main_cst_4 : FVec F S_ .f32 := constant S_ .f32 0x7F800000#32
  let main_v15 : FVec F S14x14x256 .f32 := broadcastInDim S14x14x256 ![] bcast_S_S14x14x256 main_cst_4
  let main_v16 : IVec S14x14x256 1 := cmpf .olt main_v14 main_v15
  fn_part1 (F := F) main_arg4 main_v13 main_v16
-- ==== Kernel.lean ====
abbrev S100000x3 : Shape := ⟨2, ![100000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S3136x64 : Shape := ⟨2, ![3136, 64]⟩
abbrev S784x128 : Shape := ⟨2, ![784, 128]⟩
abbrev S196x256 : Shape := ⟨2, ![196, 256]⟩
abbrev S49x512 : Shape := ⟨2, ![49, 512]⟩
abbrev S100000x963 : Shape := ⟨2, ![100000, 963]⟩
abbrev S1000x3 : Shape := ⟨2, ![1000, 3]⟩
abbrev S1000x963 : Shape := ⟨2, ![1000, 963]⟩
abbrev S1000x1 : Shape := ⟨2, ![1000, 1]⟩
abbrev S1000 : Shape := ⟨1, ![1000]⟩
abbrev S1000x56 : Shape := ⟨2, ![1000, 56]⟩
abbrev S1000x56x1 : Shape := ⟨3, ![1000, 56, 1]⟩
abbrev S1000x1x56 : Shape := ⟨3, ![1000, 1, 56]⟩
abbrev S1000x56x56 : Shape := ⟨3, ![1000, 56, 56]⟩
abbrev S1000x3136 : Shape := ⟨2, ![1000, 3136]⟩
abbrev S1000x64 : Shape := ⟨2, ![1000, 64]⟩
abbrev S1000x28 : Shape := ⟨2, ![1000, 28]⟩
abbrev S1000x28x1 : Shape := ⟨3, ![1000, 28, 1]⟩
abbrev S1000x1x28 : Shape := ⟨3, ![1000, 1, 28]⟩
abbrev S1000x28x28 : Shape := ⟨3, ![1000, 28, 28]⟩
abbrev S1000x784 : Shape := ⟨2, ![1000, 784]⟩
abbrev S1000x128 : Shape := ⟨2, ![1000, 128]⟩
abbrev S1000x14 : Shape := ⟨2, ![1000, 14]⟩
abbrev S1000x14x1 : Shape := ⟨3, ![1000, 14, 1]⟩
abbrev S1000x1x14 : Shape := ⟨3, ![1000, 1, 14]⟩
abbrev S1000x14x14 : Shape := ⟨3, ![1000, 14, 14]⟩
abbrev S1000x196 : Shape := ⟨2, ![1000, 196]⟩
abbrev S1000x256 : Shape := ⟨2, ![1000, 256]⟩
abbrev S1000x7 : Shape := ⟨2, ![1000, 7]⟩
abbrev S1000x7x1 : Shape := ⟨3, ![1000, 7, 1]⟩
abbrev S1000x1x7 : Shape := ⟨3, ![1000, 1, 7]⟩
abbrev S1000x7x7 : Shape := ⟨3, ![1000, 7, 7]⟩
abbrev S1000x49 : Shape := ⟨2, ![1000, 49]⟩
abbrev S1000x512 : Shape := ⟨2, ![1000, 512]⟩

abbrev nBuf : Space → Nat
  | .hbm => 10
  | .vmem => 8
  | .smem => 0
  | _ => 0

abbrev bufTy : (tb : Table) → Fin (tcTables nBuf tb) → BufTy
  | .hbm, ⟨0, _⟩ => ⟨S100000x3, .f32⟩
  | .hbm, ⟨1, _⟩ => ⟨S56x56x64, .f32⟩
  | .hbm, ⟨2, _⟩ => ⟨S28x28x128, .f32⟩
  | .hbm, ⟨3, _⟩ => ⟨S14x14x256, .f32⟩
  | .hbm, ⟨4, _⟩ => ⟨S7x7x512, .f32⟩
  | .hbm, ⟨5, _⟩ => ⟨S3136x64, .f32⟩
  | .hbm, ⟨6, _⟩ => ⟨S784x128, .f32⟩
  | .hbm, ⟨7, _⟩ => ⟨S196x256, .f32⟩
  | .hbm, ⟨8, _⟩ => ⟨S49x512, .f32⟩
  | .hbm, ⟨9, _⟩ => ⟨S100000x963, .f32⟩
  | .local _ .vmem, ⟨0, _⟩ => ⟨S1000x3, .f32⟩
  | .local _ .vmem, ⟨1, _⟩ => ⟨S1000x3, .f32⟩
  | .local _ .vmem, ⟨2, _⟩ => ⟨S3136x64, .f32⟩
  | .local _ .vmem, ⟨3, _⟩ => ⟨S784x128, .f32⟩
  | .local _ .vmem, ⟨4, _⟩ => ⟨S196x256, .f32⟩
  | .local _ .vmem, ⟨5, _⟩ => ⟨S49x512, .f32⟩
  | .local _ .vmem, ⟨6, _⟩ => ⟨S1000x963, .f32⟩
  | .local _ .vmem, ⟨7, _⟩ => ⟨S1000x963, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S49x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x963 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S56x56x64_S3136x64 : S56x56x64.ShapeCasts S3136x64
  shapeCasts_S28x28x128_S784x128 : S28x28x128.ShapeCasts S784x128
  shapeCasts_S14x14x256_S196x256 : S14x14x256.ShapeCasts S196x256
  shapeCasts_S7x7x512_S49x512 : S7x7x512.ShapeCasts S49x512
  inb_S1000x3_S1000x3_0_0 : ∀ a, (![0, 0] : Fin 2 → Nat) a + S1000x3.size a ≤ S1000x3.size a
  h_S1000x3 : 0 < S1000x3.numel
  slices_S1000x3_o0_0_S1000x1 : S1000x3.Slices ![0, 0] S1000x1
  shapeCasts_S1000x1_S1000 : S1000x1.ShapeCasts S1000
  slices_S1000x3_o0_1_S1000x1 : S1000x3.Slices ![0, 1] S1000x1
  slices_S1000x3_o0_2_S1000x1 : S1000x3.Slices ![0, 2] S1000x1
  iota_S1000x56_d1_w32 : S1000x56.Iotas .tc 32 [1]
  shapeCasts_S1000_S1000x1 : S1000.ShapeCasts S1000x1
  broadcasts_S1000x1_S1000x56 : S1000x1.Broadcasts S1000x56
  shapeCasts_S1000x1_S1000x1 : S1000x1.ShapeCasts S1000x1
  shapeCasts_S1000x56_S1000x56x1 : S1000x56.ShapeCasts S1000x56x1
  shapeCasts_S1000x56_S1000x1x56 : S1000x56.ShapeCasts S1000x1x56
  broadcasts_S1000x56x1_S1000x56x56 : S1000x56x1.Broadcasts S1000x56x56
  broadcasts_S1000x1x56_S1000x56x56 : S1000x1x56.Broadcasts S1000x56x56
  shapeCasts_S1000x56x56_S1000x3136 : S1000x56x56.ShapeCasts S1000x3136
  inb_S3136x64_S3136x64_0_0 : ∀ a, (![0, 0] : Fin 2 → Nat) a + S3136x64.size a ≤ S3136x64.size a
  h_S3136x64 : 0 < S3136x64.numel
  shapeCasts_S3136x64_S3136x64 : S3136x64.ShapeCasts S3136x64
  iota_S1000x28_d1_w32 : S1000x28.Iotas .tc 32 [1]
  broadcasts_S1000x1_S1000x28 : S1000x1.Broadcasts S1000x28
  shapeCasts_S1000x28_S1000x28x1 : S1000x28.ShapeCasts S1000x28x1
  shapeCasts_S1000x28_S1000x1x28 : S1000x28.ShapeCasts S1000x1x28
  broadcasts_S1000x28x1_S1000x28x28 : S1000x28x1.Broadcasts S1000x28x28
  broadcasts_S1000x1x28_S1000x28x28 : S1000x1x28.Broadcasts S1000x28x28
  shapeCasts_S1000x28x28_S1000x784 : S1000x28x28.ShapeCasts S1000x784
  inb_S784x128_S784x128_0_0 : ∀ a, (![0, 0] : Fin 2 → Nat) a + S784x128.size a ≤ S784x128.size a
  h_S784x128 : 0 < S784x128.numel
  shapeCasts_S784x128_S784x128 : S784x128.ShapeCasts S784x128
  iota_S1000x14_d1_w32 : S1000x14.Iotas .tc 32 [1]
  broadcasts_S1000x1_S1000x14 : S1000x1.Broadcasts S1000x14
  shapeCasts_S1000x14_S1000x14x1 : S1000x14.ShapeCasts S1000x14x1
  shapeCasts_S1000x14_S1000x1x14 : S1000x14.ShapeCasts S1000x1x14
  broadcasts_S1000x14x1_S1000x14x14 : S1000x14x1.Broadcasts S1000x14x14
  broadcasts_S1000x1x14_S1000x14x14 : S1000x1x14.Broadcasts S1000x14x14
  shapeCasts_S1000x14x14_S1000x196 : S1000x14x14.ShapeCasts S1000x196
  inb_S196x256_S196x256_0_0 : ∀ a, (![0, 0] : Fin 2 → Nat) a + S196x256.size a ≤ S196x256.size a
  h_S196x256 : 0 < S196x256.numel
  shapeCasts_S196x256_S196x256 : S196x256.ShapeCasts S196x256
  iota_S1000x7_d1_w32 : S1000x7.Iotas .tc 32 [1]
  broadcasts_S1000x1_S1000x7 : S1000x1.Broadcasts S1000x7
  shapeCasts_S1000x7_S1000x7x1 : S1000x7.ShapeCasts S1000x7x1
  shapeCasts_S1000x7_S1000x1x7 : S1000x7.ShapeCasts S1000x1x7
  broadcasts_S1000x7x1_S1000x7x7 : S1000x7x1.Broadcasts S1000x7x7
  broadcasts_S1000x1x7_S1000x7x7 : S1000x1x7.Broadcasts S1000x7x7
  shapeCasts_S1000x7x7_S1000x49 : S1000x7x7.ShapeCasts S1000x49
  inb_S49x512_S49x512_0_0 : ∀ a, (![0, 0] : Fin 2 → Nat) a + S49x512.size a ≤ S49x512.size a
  h_S49x512 : 0 < S49x512.numel
  shapeCasts_S49x512_S49x512 : S49x512.ShapeCasts S49x512
  concatenates_S1000x3_S1000x64_S1000x128_S1000x256_S1000x512_S1000x963_d1 : Shape.Concatenates [S1000x3, S1000x64, S1000x128, S1000x256, S1000x512] S1000x963 1
  inb_S1000x963_S1000x963_0_0 : ∀ a, (![0, 0] : Fin 2 → Nat) a + S1000x963.size a ≤ S1000x963.size a
  h_S1000x963 : 0 < S1000x963.numel
  dot_S1000x3136_S3136x64_S1000x64_1_0_0_1_n_n_wf : DotDims.WF S1000x3136 S3136x64 S1000x64 [1] [0] [0] [1] [] []
  dot_S1000x784_S784x128_S1000x128_1_0_0_1_n_n_wf : DotDims.WF S1000x784 S784x128 S1000x128 [1] [0] [0] [1] [] []
  dot_S1000x196_S196x256_S1000x256_1_0_0_1_n_n_wf : DotDims.WF S1000x196 S196x256 S1000x256 [1] [0] [0] [1] [] []
  dot_S1000x49_S49x512_S1000x512_1_0_0_1_n_n_wf : DotDims.WF S1000x49 S49x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S100000x3.size a
  hwx0_0 : ∀ i : grid0.Coords, EltTy.bits .f32 = 32 ∨ (Rect.block (s := S100000x3) S1000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x64.size a ≤ S3136x64.size a
  hwx0_1 : ∀ i : grid0.Coords, EltTy.bits .f32 = 32 ∨ (Rect.block (s := S3136x64) S3136x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x128.size a ≤ S784x128.size a
  hwx0_2 : ∀ i : grid0.Coords, EltTy.bits .f32 = 32 ∨ (Rect.block (s := S784x128) S784x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x256.size a ≤ S196x256.size a
  hwx0_3 : ∀ i : grid0.Coords, EltTy.bits .f32 = 32 ∨ (Rect.block (s := S196x256) S196x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S49x512.size a ≤ S49x512.size a
  hwx0_4 : ∀ i : grid0.Coords, EltTy.bits .f32 = 32 ∨ (Rect.block (s := S49x512) S49x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x963.size a ≤ S100000x963.size a
  hwx0_5 : ∀ i : grid0.Coords, EltTy.bits .f32 = 32 ∨ (Rect.block (s := S100000x963) S1000x963.size (cc0_transform_5 i) (hinb0_5 i)).WholeWords (EltTy.packing .f32)

variable [Facts₀]

def dot_S1000x3136_S3136x64_S1000x64_1_0_0_1_n_n : DotDims S1000x3136 S3136x64 S1000x64 where
  lhsContracting := [1]
  rhsContracting := [0]
  lhsNonContracting := [0]
  rhsNonContracting := [1]
  lhsBatch := []
  rhsBatch := []
  wf := dot_S1000x3136_S3136x64_S1000x64_1_0_0_1_n_n_wf
def dot_S1000x784_S784x128_S1000x128_1_0_0_1_n_n : DotDims S1000x784 S784x128 S1000x128 where
  lhsContracting := [1]
  rhsContracting := [0]
  lhsNonContracting := [0]
  rhsNonContracting := [1]
  lhsBatch := []
  rhsBatch := []
  wf := dot_S1000x784_S784x128_S1000x128_1_0_0_1_n_n_wf
def dot_S1000x196_S196x256_S1000x256_1_0_0_1_n_n : DotDims S1000x196 S196x256 S1000x256 where
  lhsContracting := [1]
  rhsContracting := [0]
  lhsNonContracting := [0]
  rhsNonContracting := [1]
  lhsBatch := []
  rhsBatch := []
  wf := dot_S1000x196_S196x256_S1000x256_1_0_0_1_n_n_wf
def dot_S1000x49_S49x512_S1000x512_1_0_0_1_n_n : DotDims S1000x49 S49x512 S1000x512 where
  lhsContracting := [1]
  rhsContracting := [0]
  lhsNonContracting := [0]
  rhsNonContracting := [1]
  lhsBatch := []
  rhsBatch := []
  wf := dot_S1000x49_S49x512_S1000x512_1_0_0_1_n_n_wf

abbrev win0_0 : Pipeline.Window sig grid0 :=
  Pipeline.Window.ofSpec (Memref.whole main_arg0) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3136x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S784x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S196x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S49x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1000x963.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x3 : Shape := ⟨2, ![100000, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S100000x1 : Shape := ⟨2, ![100000, 1]⟩
abbrev S100000 : Shape := ⟨1, ![100000]⟩
abbrev S_ : Shape := ⟨0, ![]⟩
abbrev S100000x2 : Shape := ⟨2, ![100000, 2]⟩
abbrev S100000x64 : Shape := ⟨2, ![100000, 64]⟩
abbrev S100000x128 : Shape := ⟨2, ![100000, 128]⟩
abbrev S100000x256 : Shape := ⟨2, ![100000, 256]⟩
abbrev S100000x512 : Shape := ⟨2, ![100000, 512]⟩
abbrev S100000x963 : Shape := ⟨2, ![100000, 963]⟩

abbrev nBuf : Space → Nat
  | .hbm => 521
  | .vmem => 0
  | .smem => 0
  | _ => 0

abbrev hbmTy0_0 (i : Nat) : BufTy := match i % 128 with
  | 0 => ⟨S100000x3, .f32⟩
  | 1 => ⟨S56x56x64, .f32⟩
  | 2 => ⟨S28x28x128, .f32⟩
  | 3 => ⟨S14x14x256, .f32⟩
  | 4 => ⟨S7x7x512, .f32⟩
  | 5 => ⟨S100000x1, .f32⟩
  | 6 => ⟨S100000, .f32⟩
  | 7 => ⟨S100000x1, .f32⟩
  | 8 => ⟨S100000, .f32⟩
  | 9 => ⟨S100000x1, .f32⟩
  | 10 => ⟨S100000, .f32⟩
  | 11 => ⟨S100000, .f32⟩
  | 12 => ⟨S_, .f32⟩
  | 13 => ⟨S100000, .f32⟩
  | 14 => ⟨S100000, .f32⟩
  | 15 => ⟨S100000, .f32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S_, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S100000, .f32⟩
  | 51 => ⟨S100000, .f32⟩
  | 52 => ⟨S_, .f32⟩
  | 53 => ⟨S100000, .f32⟩
  | 54 => ⟨S100000, .f32⟩
  | 55 => ⟨S100000, .f32⟩
  | 56 => ⟨S100000, .f32⟩
  | 57 => ⟨S_, .f32⟩
  | 58 => ⟨S100000, .f32⟩
  | 59 => ⟨S100000, .f32⟩
  | 60 => ⟨S100000, .i32⟩
  | 61 => ⟨S100000, .i32⟩
  | 62 => ⟨S100000, .i32⟩
  | 63 => ⟨S100000, .i32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x1, .i32⟩
  | 80 => ⟨S100000x2, .i32⟩
  | 81 => ⟨S100000x64, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x1, .i32⟩
  | 98 => ⟨S100000x2, .i32⟩
  | 99 => ⟨S100000x64, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x1, .i32⟩
  | 116 => ⟨S100000x2, .i32⟩
  | 117 => ⟨S100000x64, .f32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S_, .i32⟩
  | 126 => ⟨S100000, .i32⟩
  | 127 => ⟨S100000, .i1⟩
  | _ => ⟨S100000x3, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x1, .i32⟩
  | 6 => ⟨S100000x2, .i32⟩
  | 7 => ⟨S100000x64, .f32⟩
  | 8 => ⟨S100000, .f32⟩
  | 9 => ⟨S100000, .f32⟩
  | 10 => ⟨S100000, .f32⟩
  | 11 => ⟨S100000x1, .f32⟩
  | 12 => ⟨S100000, .f32⟩
  | 13 => ⟨S100000, .f32⟩
  | 14 => ⟨S100000, .f32⟩
  | 15 => ⟨S100000x1, .f32⟩
  | 16 => ⟨S100000, .f32⟩
  | 17 => ⟨S100000, .f32⟩
  | 18 => ⟨S100000, .f32⟩
  | 19 => ⟨S100000x1, .f32⟩
  | 20 => ⟨S100000, .f32⟩
  | 21 => ⟨S100000, .f32⟩
  | 22 => ⟨S100000, .f32⟩
  | 23 => ⟨S100000x1, .f32⟩
  | 24 => ⟨S100000x64, .f32⟩
  | 25 => ⟨S100000x64, .f32⟩
  | 26 => ⟨S100000x64, .f32⟩
  | 27 => ⟨S100000x64, .f32⟩
  | 28 => ⟨S100000x64, .f32⟩
  | 29 => ⟨S100000x64, .f32⟩
  | 30 => ⟨S100000x64, .f32⟩
  | 31 => ⟨S100000x64, .f32⟩
  | 32 => ⟨S100000x64, .f32⟩
  | 33 => ⟨S100000x64, .f32⟩
  | 34 => ⟨S100000x64, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000, .f32⟩
  | 47 => ⟨S100000, .f32⟩
  | 48 => ⟨S_, .f32⟩
  | 49 => ⟨S100000, .f32⟩
  | 50 => ⟨S100000, .f32⟩
  | 51 => ⟨S100000, .i32⟩
  | 52 => ⟨S100000, .i32⟩
  | 53 => ⟨S100000, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x1, .i32⟩
  | 71 => ⟨S100000x2, .i32⟩
  | 72 => ⟨S100000x128, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x1, .i32⟩
  | 89 => ⟨S100000x2, .i32⟩
  | 90 => ⟨S100000x128, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x1, .i32⟩
  | 107 => ⟨S100000x2, .i32⟩
  | 108 => ⟨S100000x128, .f32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x1, .i32⟩
  | 125 => ⟨S100000x2, .i32⟩
  | 126 => ⟨S100000x128, .f32⟩
  | 127 => ⟨S100000, .f32⟩
  | _ => ⟨S100000x3, .f32⟩

abbrev hbmTy0_2 (i : Nat) : BufTy := match i % 128 with
  | 0 => ⟨S100000, .f32⟩
  | 1 => ⟨S100000, .f32⟩
  | 2 => ⟨S100000x1, .f32⟩
  | 3 => ⟨S100000, .f32⟩
  | 4 => ⟨S100000, .f32⟩
  | 5 => ⟨S100000, .f32⟩
  | 6 => ⟨S100000x1, .f32⟩
  | 7 => ⟨S100000, .f32⟩
  | 8 => ⟨S100000, .f32⟩
  | 9 => ⟨S100000, .f32⟩
  | 10 => ⟨S100000x1, .f32⟩
  | 11 => ⟨S100000, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S100000x128, .f32⟩
  | 18 => ⟨S100000x128, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000, .i32⟩
  | 43 => ⟨S100000, .i32⟩
  | 44 => ⟨S100000, .i32⟩
  | 45 => ⟨S100000, .i32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x1, .i32⟩
  | 62 => ⟨S100000x2, .i32⟩
  | 63 => ⟨S100000x256, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x1, .i32⟩
  | 80 => ⟨S100000x2, .i32⟩
  | 81 => ⟨S100000x256, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x1, .i32⟩
  | 98 => ⟨S100000x2, .i32⟩
  | 99 => ⟨S100000x256, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x1, .i32⟩
  | 116 => ⟨S100000x2, .i32⟩
  | 117 => ⟨S100000x256, .f32⟩
  | 118 => ⟨S100000, .f32⟩
  | 119 => ⟨S100000, .f32⟩
  | 120 => ⟨S100000, .f32⟩
  | 121 => ⟨S100000x1, .f32⟩
  | 122 => ⟨S100000, .f32⟩
  | 123 => ⟨S100000, .f32⟩
  | 124 => ⟨S100000, .f32⟩
  | 125 => ⟨S100000x1, .f32⟩
  | 126 => ⟨S100000, .f32⟩
  | 127 => ⟨S100000, .f32⟩
  | _ => ⟨S100000x3, .f32⟩

abbrev hbmTy0_3 (i : Nat) : BufTy := match i % 128 with
  | 0 => ⟨S100000, .f32⟩
  | 1 => ⟨S100000x1, .f32⟩
  | 2 => ⟨S100000, .f32⟩
  | 3 => ⟨S100000, .f32⟩
  | 4 => ⟨S100000, .f32⟩
  | 5 => ⟨S100000x1, .f32⟩
  | 6 => ⟨S100000x256, .f32⟩
  | 7 => ⟨S100000x256, .f32⟩
  | 8 => ⟨S100000x256, .f32⟩
  | 9 => ⟨S100000x256, .f32⟩
  | 10 => ⟨S100000x256, .f32⟩
  | 11 => ⟨S100000x256, .f32⟩
  | 12 => ⟨S100000x256, .f32⟩
  | 13 => ⟨S100000x256, .f32⟩
  | 14 => ⟨S100000x256, .f32⟩
  | 15 => ⟨S100000x256, .f32⟩
  | 16 => ⟨S100000x256, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000, .i32⟩
  | 34 => ⟨S100000, .i32⟩
  | 35 => ⟨S100000, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000x1, .i32⟩
  | 53 => ⟨S100000x2, .i32⟩
  | 54 => ⟨S100000x512, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x1, .i32⟩
  | 71 => ⟨S100000x2, .i32⟩
  | 72 => ⟨S100000x512, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x1, .i32⟩
  | 89 => ⟨S100000x2, .i32⟩
  | 90 => ⟨S100000x512, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x1, .i32⟩
  | 107 => ⟨S100000x2, .i32⟩
  | 108 => ⟨S100000x512, .f32⟩
  | 109 => ⟨S100000, .f32⟩
  | 110 => ⟨S100000, .f32⟩
  | 111 => ⟨S100000, .f32⟩
  | 112 => ⟨S100000x1, .f32⟩
  | 113 => ⟨S100000, .f32⟩
  | 114 => ⟨S100000, .f32⟩
  | 115 => ⟨S100000, .f32⟩
  | 116 => ⟨S100000x1, .f32⟩
  | 117 => ⟨S100000, .f32⟩
  | 118 => ⟨S100000, .f32⟩
  | 119 => ⟨S100000, .f32⟩
  | 120 => ⟨S100000x1, .f32⟩
  | 121 => ⟨S100000, .f32⟩
  | 122 => ⟨S100000, .f32⟩
  | 123 => ⟨S100000, .f32⟩
  | 124 => ⟨S100000x1, .f32⟩
  | 125 => ⟨S100000x512, .f32⟩
  | 126 => ⟨S100000x512, .f32⟩
  | 127 => ⟨S100000x512, .f32⟩
  | _ => ⟨S100000x3, .f32⟩

abbrev hbmTy0_4 (i : Nat) : BufTy := match i % 128 with
  | 0 => ⟨S100000x512, .f32⟩
  | 1 => ⟨S100000x512, .f32⟩
  | 2 => ⟨S100000x512, .f32⟩
  | 3 => ⟨S100000x512, .f32⟩
  | 4 => ⟨S100000x512, .f32⟩
  | 5 => ⟨S100000x512, .f32⟩
  | 6 => ⟨S100000x512, .f32⟩
  | 7 => ⟨S100000x512, .f32⟩
  | 8 => ⟨S100000x963, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_v42 : Ref sig .tc := ⟨.hbm, 72, rfl⟩
abbrev main_v43 : Ref sig .tc := ⟨.hbm, 73, rfl⟩
abbrev main_c_13 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_14 : Ref sig .tc := ⟨.hbm, 82, rfl⟩
abbrev main_v51 : Ref sig .tc := ⟨.hbm, 83, rfl⟩
abbrev main_v52 : Ref sig .tc := ⟨.hbm, 84, rfl⟩
abbrev main_c_15 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_16 : Ref sig .tc := ⟨.hbm, 89, rfl⟩
abbrev main_v56 : Ref sig .tc := ⟨.hbm, 90, rfl⟩
abbrev main_v57 : Ref sig .tc := ⟨.hbm, 91, rfl⟩
abbrev main_c_17 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_18 : Ref sig .tc := ⟨.hbm, 100, rfl⟩
abbrev main_v65 : Ref sig .tc := ⟨.hbm, 101, rfl⟩
abbrev main_v66 : Ref sig .tc := ⟨.hbm, 102, rfl⟩
abbrev main_c_19 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_20 : Ref sig .tc := ⟨.hbm, 107, rfl⟩
abbrev main_v70 : Ref sig .tc := ⟨.hbm, 108, rfl⟩
abbrev main_v71 : Ref sig .tc := ⟨.hbm, 109, rfl⟩
abbrev main_c_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_22 : Ref sig .tc := ⟨.hbm, 118, rfl⟩
abbrev main_v79 : Ref sig .tc := ⟨.hbm, 119, rfl⟩
abbrev main_v80 : Ref sig .tc := ⟨.hbm, 120, rfl⟩
abbrev main_c_23 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_24 : Ref sig .tc := ⟨.hbm, 125, rfl⟩
abbrev main_v84 : Ref sig .tc := ⟨.hbm, 126, rfl⟩
abbrev main_v85 : Ref sig .tc := ⟨.hbm, 127, rfl⟩
abbrev main_c_25 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_26 : Ref sig .tc := ⟨.hbm, 163, rfl⟩
abbrev main_v120 : Ref sig .tc := ⟨.hbm, 164, rfl⟩
abbrev main_v121 : Ref sig .tc := ⟨.hbm, 165, rfl⟩
abbrev main_cst_27 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_28 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_29 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_30 : Ref sig .tc := ⟨.hbm, 183, rfl⟩
abbrev main_v136 : Ref sig .tc := ⟨.hbm, 184, rfl⟩
abbrev main_v137 : Ref sig .tc := ⟨.hbm, 185, rfl⟩
abbrev main_c_31 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_32 : Ref sig .tc := ⟨.hbm, 190, rfl⟩
abbrev main_v141 : Ref sig .tc := ⟨.hbm, 191, rfl⟩
abbrev main_v142 : Ref sig .tc := ⟨.hbm, 192, rfl⟩
abbrev main_c_33 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_34 : Ref sig .tc := ⟨.hbm, 201, rfl⟩
abbrev main_v150 : Ref sig .tc := ⟨.hbm, 202, rfl⟩
abbrev main_v151 : Ref sig .tc := ⟨.hbm, 203, rfl⟩
abbrev main_c_35 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_36 : Ref sig .tc := ⟨.hbm, 208, rfl⟩
abbrev main_v155 : Ref sig .tc := ⟨.hbm, 209, rfl⟩
abbrev main_v156 : Ref sig .tc := ⟨.hbm, 210, rfl⟩
abbrev main_c_37 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_c_38 : Ref sig .tc := ⟨.hbm, 219, rfl⟩
abbrev main_v164 : Ref sig .tc := ⟨.hbm, 220, rfl⟩
abbrev main_v165 : Ref sig .tc := ⟨.hbm, 221, rfl⟩
abbrev main_c_39 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_c_40 : Ref sig .tc := ⟨.hbm, 226, rfl⟩
abbrev main_v169 : Ref sig .tc := ⟨.hbm, 227, rfl⟩
abbrev main_v170 : Ref sig .tc := ⟨.hbm, 228, rfl⟩
abbrev main_c_41 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_c_42 : Ref sig .tc := ⟨.hbm, 237, rfl⟩
abbrev main_v178 : Ref sig .tc := ⟨.hbm, 238, rfl⟩
abbrev main_v179 : Ref sig .tc := ⟨.hbm, 239, rfl⟩
abbrev main_c_43 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_44 : Ref sig .tc := ⟨.hbm, 244, rfl⟩
abbrev main_v183 : Ref sig .tc := ⟨.hbm, 245, rfl⟩
abbrev main_v184 : Ref sig .tc := ⟨.hbm, 246, rfl⟩
abbrev main_c_45 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_cst_46 : Ref sig .tc := ⟨.hbm, 282, rfl⟩
abbrev main_v219 : Ref sig .tc := ⟨.hbm, 283, rfl⟩
abbrev main_v220 : Ref sig .tc := ⟨.hbm, 284, rfl⟩
abbrev main_cst_47 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_cst_48 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_cst_49 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_c_50 : Ref sig .tc := ⟨.hbm, 302, rfl⟩
abbrev main_v235 : Ref sig .tc := ⟨.hbm, 303, rfl⟩
abbrev main_v236 : Ref sig .tc := ⟨.hbm, 304, rfl⟩
abbrev main_c_51 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_c_52 : Ref sig .tc := ⟨.hbm, 309, rfl⟩
abbrev main_v240 : Ref sig .tc := ⟨.hbm, 310, rfl⟩
abbrev main_v241 : Ref sig .tc := ⟨.hbm, 311, rfl⟩
abbrev main_c_53 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_c_54 : Ref sig .tc := ⟨.hbm, 320, rfl⟩
abbrev main_v249 : Ref sig .tc := ⟨.hbm, 321, rfl⟩
abbrev main_v250 : Ref sig .tc := ⟨.hbm, 322, rfl⟩
abbrev main_c_55 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_c_56 : Ref sig .tc := ⟨.hbm, 327, rfl⟩
abbrev main_v254 : Ref sig .tc := ⟨.hbm, 328, rfl⟩
abbrev main_v255 : Ref sig .tc := ⟨.hbm, 329, rfl⟩
abbrev main_c_57 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_c_58 : Ref sig .tc := ⟨.hbm, 338, rfl⟩
abbrev main_v263 : Ref sig .tc := ⟨.hbm, 339, rfl⟩
abbrev main_v264 : Ref sig .tc := ⟨.hbm, 340, rfl⟩
abbrev main_c_59 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_c_60 : Ref sig .tc := ⟨.hbm, 345, rfl⟩
abbrev main_v268 : Ref sig .tc := ⟨.hbm, 346, rfl⟩
abbrev main_v269 : Ref sig .tc := ⟨.hbm, 347, rfl⟩
abbrev main_c_61 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_c_62 : Ref sig .tc := ⟨.hbm, 356, rfl⟩
abbrev main_v277 : Ref sig .tc := ⟨.hbm, 357, rfl⟩
abbrev main_v278 : Ref sig .tc := ⟨.hbm, 358, rfl⟩
abbrev main_c_63 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_c_64 : Ref sig .tc := ⟨.hbm, 363, rfl⟩
abbrev main_v282 : Ref sig .tc := ⟨.hbm, 364, rfl⟩
abbrev main_v283 : Ref sig .tc := ⟨.hbm, 365, rfl⟩
abbrev main_c_65 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_cst_66 : Ref sig .tc := ⟨.hbm, 401, rfl⟩
abbrev main_v318 : Ref sig .tc := ⟨.hbm, 402, rfl⟩
abbrev main_v319 : Ref sig .tc := ⟨.hbm, 403, rfl⟩
abbrev main_cst_67 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_cst_68 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_cst_69 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_c_70 : Ref sig .tc := ⟨.hbm, 421, rfl⟩
abbrev main_v334 : Ref sig .tc := ⟨.hbm, 422, rfl⟩
abbrev main_v335 : Ref sig .tc := ⟨.hbm, 423, rfl⟩
abbrev main_c_71 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_c_72 : Ref sig .tc := ⟨.hbm, 428, rfl⟩
abbrev main_v339 : Ref sig .tc := ⟨.hbm, 429, rfl⟩
abbrev main_v340 : Ref sig .tc := ⟨.hbm, 430, rfl⟩
abbrev main_c_73 : Ref sig .tc := ⟨.hbm, 431, rfl⟩
abbrev main_v341 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_c_74 : Ref sig .tc := ⟨.hbm, 439, rfl⟩
abbrev main_v348 : Ref sig .tc := ⟨.hbm, 440, rfl⟩
abbrev main_v349 : Ref sig .tc := ⟨.hbm, 441, rfl⟩
abbrev main_c_75 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_c_76 : Ref sig .tc := ⟨.hbm, 446, rfl⟩
abbrev main_v353 : Ref sig .tc := ⟨.hbm, 447, rfl⟩
abbrev main_v354 : Ref sig .tc := ⟨.hbm, 448, rfl⟩
abbrev main_c_77 : Ref sig .tc := ⟨.hbm, 449, rfl⟩
abbrev main_v355 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_v360 : Ref sig .tc := ⟨.hbm, 455, rfl⟩
abbrev main_v361 : Ref sig .tc := ⟨.hbm, 456, rfl⟩
abbrev main_c_78 : Ref sig .tc := ⟨.hbm, 457, rfl⟩
abbrev main_v362 : Ref sig .tc := ⟨.hbm, 458, rfl⟩
abbrev main_v363 : Ref sig .tc := ⟨.hbm, 459, rfl⟩
abbrev main_c_79 : Ref sig .tc := ⟨.hbm, 460, rfl⟩
abbrev main_v364 : Ref sig .tc := ⟨.hbm, 461, rfl⟩
abbrev main_v365 : Ref sig .tc := ⟨.hbm, 462, rfl⟩
abbrev main_v366 : Ref sig .tc := ⟨.hbm, 463, rfl⟩
abbrev main_c_80 : Ref sig .tc := ⟨.hbm, 464, rfl⟩
abbrev main_v367 : Ref sig .tc := ⟨.hbm, 465, rfl⟩
abbrev main_v368 : Ref sig .tc := ⟨.hbm, 466, rfl⟩
abbrev main_c_81 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_c_82 : Ref sig .tc := ⟨.hbm, 475, rfl⟩
abbrev main_v376 : Ref sig .tc := ⟨.hbm, 476, rfl⟩
abbrev main_v377 : Ref sig .tc := ⟨.hbm, 477, rfl⟩
abbrev main_c_83 : Ref sig .tc := ⟨.hbm, 478, rfl⟩
abbrev main_v378 : Ref sig .tc := ⟨.hbm, 479, rfl⟩
abbrev main_v379 : Ref sig .tc := ⟨.hbm, 480, rfl⟩
abbrev main_v380 : Ref sig .tc := ⟨.hbm, 481, rfl⟩
abbrev main_c_84 : Ref sig .tc := ⟨.hbm, 482, rfl⟩
abbrev main_v381 : Ref sig .tc := ⟨.hbm, 483, rfl⟩
abbrev main_v382 : Ref sig .tc := ⟨.hbm, 484, rfl⟩
abbrev main_c_85 : Ref sig .tc := ⟨.hbm, 485, rfl⟩
abbrev main_v383 : Ref sig .tc := ⟨.hbm, 486, rfl⟩
abbrev main_v384 : Ref sig .tc := ⟨.hbm, 487, rfl⟩
abbrev main_v385 : Ref sig .tc := ⟨.hbm, 488, rfl⟩
abbrev main_v386 : Ref sig .tc := ⟨.hbm, 489, rfl⟩
abbrev main_v387 : Ref sig .tc := ⟨.hbm, 490, rfl⟩
abbrev main_v388 : Ref sig .tc := ⟨.hbm, 491, rfl⟩
abbrev main_v389 : Ref sig .tc := ⟨.hbm, 492, rfl⟩
abbrev main_v390 : Ref sig .tc := ⟨.hbm, 493, rfl⟩
abbrev main_v391 : Ref sig .tc := ⟨.hbm, 494, rfl⟩
abbrev main_v392 : Ref sig .tc := ⟨.hbm, 495, rfl⟩
abbrev main_v393 : Ref sig .tc := ⟨.hbm, 496, rfl⟩
abbrev main_v394 : Ref sig .tc := ⟨.hbm, 497, rfl⟩
abbrev main_v395 : Ref sig .tc := ⟨.hbm, 498, rfl⟩
abbrev main_v396 : Ref sig .tc := ⟨.hbm, 499, rfl⟩
abbrev main_v397 : Ref sig .tc := ⟨.hbm, 500, rfl⟩
abbrev main_v398 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_v409 : Ref sig .tc := ⟨.hbm, 512, rfl⟩
abbrev main_v410 : Ref sig .tc := ⟨.hbm, 513, rfl⟩
abbrev main_v411 : Ref sig .tc := ⟨.hbm, 514, rfl⟩
abbrev main_v412 : Ref sig .tc := ⟨.hbm, 515, rfl⟩
abbrev main_v413 : Ref sig .tc := ⟨.hbm, 516, rfl⟩
abbrev main_v414 : Ref sig .tc := ⟨.hbm, 517, rfl⟩
abbrev main_v415 : Ref sig .tc := ⟨.hbm, 518, rfl⟩
abbrev main_v416 : Ref sig .tc := ⟨.hbm, 519, rfl⟩
abbrev main_v417 : Ref sig .tc := ⟨.hbm, 520, rfl⟩

abbrev nD : Nat := 1
abbrev τ : Topo := Topo.v7x

variable {F : FTy → Type} [FloatOps F]

class Facts₀ : Prop where
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S100000x1_S100000x64_0_1 : S100000x1.BroadcastsInDim S100000x64 (![0, 1] : Fin 2 → Fin S100000x64.rank)
  bcast_S100000x1_S100000x128_0_1 : S100000x1.BroadcastsInDim S100000x128 (![0, 1] : Fin 2 → Fin S100000x128.rank)
  bcast_S100000x1_S100000x256_0_1 : S100000x1.BroadcastsInDim S100000x256 (![0, 1] : Fin 2 → Fin S100000x256.rank)
  bcast_S100000x1_S100000x512_0_1 : S100000x1.BroadcastsInDim S100000x512 (![0, 1] : Fin 2 → Fin S100000x512.rank)
  concatenates_S100000x3_S100000x64_S100000x128_S100000x256_S100000x512_S100000x963_d1 : Shape.Concatenates [S100000x3, S100000x64, S100000x128, S100000x256, S100000x512] S100000x963 1
  gather_S56x56x64_S100000x2_S100000x64_1_01_n_n_01_1_1164_wf : GatherDims.WF S56x56x64 S100000x2 S100000x64 [1] [0, 1] [] [0, 1] [] 1 ![1, 1, 64]
  gather_S28x28x128_S100000x2_S100000x128_1_01_n_n_01_1_11128_wf : GatherDims.WF S28x28x128 S100000x2 S100000x128 [1] [0, 1] [] [0, 1] [] 1 ![1, 1, 128]
  gather_S14x14x256_S100000x2_S100000x256_1_01_n_n_01_1_11256_wf : GatherDims.WF S14x14x256 S100000x2 S100000x256 [1] [0, 1] [] [0, 1] [] 1 ![1, 1, 256]
  gather_S7x7x512_S100000x2_S100000x512_1_01_n_n_01_1_11512_wf : GatherDims.WF S7x7x512 S100000x2 S100000x512 [1] [0, 1] [] [0, 1] [] 1 ![1, 1, 512]

variable [Facts₀]

def gather_S56x56x64_S100000x2_S100000x64_1_01_n_n_01_1_1164 : GatherDims S56x56x64 S100000x2 S100000x64 where
  offsetDims := [1]
  collapsedSliceDims := [0, 1]
  operandBatchingDims := []
  startIndicesBatchingDims := []
  startIndexMap := [0, 1]
  indexVectorDim := 1
  sliceSizes := ![1, 1, 64]
  wf := gather_S56x56x64_S100000x2_S100000x64_1_01_n_n_01_1_1164_wf
def gather_S28x28x128_S100000x2_S100000x128_1_01_n_n_01_1_11128 : GatherDims S28x28x128 S100000x2 S100000x128 where
  offsetDims := [1]
  collapsedSliceDims := [0, 1]
  operandBatchingDims := []
  startIndicesBatchingDims := []
  startIndexMap := [0, 1]
  indexVectorDim := 1
  sliceSizes := ![1, 1, 128]
  wf := gather_S28x28x128_S100000x2_S100000x128_1_01_n_n_01_1_11128_wf
def gather_S14x14x256_S100000x2_S100000x256_1_01_n_n_01_1_11256 : GatherDims S14x14x256 S100000x2 S100000x256 where
  offsetDims := [1]
  collapsedSliceDims := [0, 1]
  operandBatchingDims := []
  startIndicesBatchingDims := []
  startIndexMap := [0, 1]
  indexVectorDim := 1
  sliceSizes := ![1, 1, 256]
  wf := gather_S14x14x256_S100000x2_S100000x256_1_01_n_n_01_1_11256_wf
def gather_S7x7x512_S100000x2_S100000x512_1_01_n_n_01_1_11512 : GatherDims S7x7x512 S100000x2 S100000x512 where
  offsetDims := [1]
  collapsedSliceDims := [0, 1]
  operandBatchingDims := []
  startIndicesBatchingDims := []
  startIndexMap := [0, 1]
  indexVectorDim := 1
  sliceSizes := ![1, 1, 512]
  wf := gather_S7x7x512_S100000x2_S100000x512_1_01_n_n_01_1_11512_wf

class Facts : Prop extends Facts₀ where

variable [Facts]
-- ==== Proof.RefRun.lean ====
/-
  The reference program's run, read back list by list.

  The program is a straight line of 516 operations, each writing one buffer from buffers written before it. The contents
  after a line are the contents after its last operation from the contents after the rest (`after`), so the contents
  after two lines end to end are the second line's from the first line's (`after_append`). The line is cut where its data
  flow is narrow: a first stretch computes the two clipped pixel coordinates from the points' coordinates; for each
  feature map a stretch of 119 operations reads only those two buffers and its own map and leaves the map's samples in
  one buffer; the last operation concatenates the coordinates and the four sample buffers.

  For each list we record the buffers it writes (`w…`); a buffer outside that set holds after the list what it held
  before (`…_keeps`). A stretch's result is then read from ANY contents that hold the pixel coordinates — so nothing is
  ever composed across stretches —: each operation's result is its function applied to its operands' contents, an operand
  is read where it was written, and the lists between its writer and its reader are jumped over by `…_keeps`. The value
  obtained is, by definition, the stage of the reference read at an index in Proof/ReadQ.lean (`val_main_vN`).

  `run` puts the stretches together: on every device the result buffer ends at `val_main_v417` of the launch's five
  arguments, and the arguments are unchanged.
-/
import proofs.«178287_j74071005986926_2_alg».proof.Proof.RunQ
import proofs.«178287_j74071005986926_2_alg».proof.Proof.ReadQ

noncomputable section

namespace Cert.ReferenceIdeal.RefRun

open Cert.ReferenceIdeal Cert.ReferenceIdeal.Gen Cert.ReferenceIdeal.ValueQ Cert.ReferenceIdeal.ReadQ
open Idealize.ShloMosaic Idealize.ShloMosaic.TcCoe Idealize.SL.Sem Idealize.ShloMosaic.StableHlo

variable {F : FTy → Type} [FloatOps F]

/-! ### Lines of operations, end to end -/

/-- The contents after two lines run one after the other: the second line's, from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- An operation whose one written buffer is among a list of references writes inside that list. -/
theorem writes_sub_of_mem {op : HloOp τ sig (Elt F)} {y : Ref sig .tc} {L : List (Ref sig .tc)}
    (hw : op.writes = {Proc.devRef .tc y}) (hy : y ∈ L) :
    op.writes ⊆ (L.map (Proc.devRef (τ := τ) .tc)).toFinset := by
  rw [hw]
  exact Finset.singleton_subset_iff.mpr (List.mem_toFinset.mpr (List.mem_map_of_mem hy))

/-- No operation of two lines end to end allocates when none of either does. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.1 h).elim (h₁ op) (h₂ op)

/-- Outside two lists end to end is outside the first … -/
theorem nm_left {r : Ref sig .tc} {l₁ l₂ : List (Ref sig .tc)} (h : r ∉ l₁ ++ l₂) : r ∉ l₁ :=
  fun h' => h (List.mem_append_left _ h')
/-- … and outside the second. -/
theorem nm_right {r : Ref sig .tc} {l₁ l₂ : List (Ref sig .tc)} (h : r ∉ l₁ ++ l₂) : r ∉ l₂ :=
  fun h' => h (List.mem_append_right _ h')

/-- The contents after a line, under a second name: reading a buffer that a list writes opens the list under this
    name, so that a list is opened only where one of its own results is read. -/
def afterU (l : List (HloOp τ sig (Elt F))) (V : Valuation τ sig (Elt F)) : Valuation τ sig (Elt F) := after l V
theorem afterU_cons (op : HloOp τ sig (Elt F)) (ops : List (HloOp τ sig (Elt F))) (V : Valuation τ sig (Elt F)) :
    afterU (op :: ops) V = afterU ops (op.result V) := rfl
theorem afterU_nil (V : Valuation τ sig (Elt F)) : afterU [] V = V := rfl

/-- Two arrays joined along an axis, as a function of the two arrays: the shape condition does not mention them, so
    each can be rewritten in place. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h
theorem cat2_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-! ### What each list writes, and so what it keeps -/

/-- The buffers `opsA` writes, in order. -/
noncomputable def wA : List (Ref sig .tc) :=
  [main_v0, main_v1, main_v2, main_v3, main_v4, main_v5, main_v6, main_cst, main_v7, main_v8, main_v9, main_v10, main_cst_0, main_v11, main_v12, main_cst_1, main_v13, main_v14, main_v15, main_v16, main_cst_2, main_v17, main_v18, main_cst_3, main_cst_4, main_call0_v0, main_call0_v1, main_call0_v2, main_call0_v3, main_call0_v4, main_v19, main_cst_5, main_cst_6, main_call1_v0, main_call1_v1, main_call1_v2, main_call1_v3, main_call1_v4, main_v20]
/-- Every operation of `opsA` writes among them. -/
theorem opsA_writes : (opsA : List (HloOp τ sig (Elt F))).Forall fun op =>
    op.writes ⊆ (wA.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_v4) rfl (by decide),
   writes_sub_of_mem (y := main_v5) rfl (by decide),
   writes_sub_of_mem (y := main_v6) rfl (by decide),
   writes_sub_of_mem (y := main_cst) rfl (by decide),
   writes_sub_of_mem (y := main_v7) rfl (by decide),
   writes_sub_of_mem (y := main_v8) rfl (by decide),
   writes_sub_of_mem (y := main_v9) rfl (by decide),
   writes_sub_of_mem (y := main_v10) rfl (by decide),
   writes_sub_of_mem (y := main_cst_0) rfl (by decide),
   writes_sub_of_mem (y := main_v11) rfl (by decide),
   writes_sub_of_mem (y := main_v12) rfl (by decide),
   writes_sub_of_mem (y := main_cst_1) rfl (by decide),
   writes_sub_of_mem (y := main_v13) rfl (by decide),
   writes_sub_of_mem (y := main_v14) rfl (by decide),
   writes_sub_of_mem (y := main_v15) rfl (by decide),
   writes_sub_of_mem (y := main_v16) rfl (by decide),
   writes_sub_of_mem (y := main_cst_2) rfl (by decide),
   writes_sub_of_mem (y := main_v17) rfl (by decide),
   writes_sub_of_mem (y := main_v18) rfl (by decide),
   writes_sub_of_mem (y := main_cst_3) rfl (by decide),
   writes_sub_of_mem (y := main_cst_4) rfl (by decide),
   writes_sub_of_mem (y := main_call0_v0) rfl (by decide),
   writes_sub_of_mem (y := main_call0_v1) rfl (by decide),
   writes_sub_of_mem (y := main_call0_v2) rfl (by decide),
   writes_sub_of_mem (y := main_call0_v3) rfl (by decide),
   writes_sub_of_mem (y := main_call0_v4) rfl (by decide),
   writes_sub_of_mem (y := main_v19) rfl (by decide),
   writes_sub_of_mem (y := main_cst_5) rfl (by decide),
   writes_sub_of_mem (y := main_cst_6) rfl (by decide),
   writes_sub_of_mem (y := main_call1_v0) rfl (by decide),
   writes_sub_of_mem (y := main_call1_v1) rfl (by decide),
   writes_sub_of_mem (y := main_call1_v2) rfl (by decide),
   writes_sub_of_mem (y := main_call1_v3) rfl (by decide),
   writes_sub_of_mem (y := main_call1_v4) rfl (by decide),
   writes_sub_of_mem (y := main_v20) rfl (by decide)⟩
/-- A buffer `opsA` does not write keeps its contents. -/
theorem opsA_keeps (W : Valuation τ sig (Elt F)) {r : Ref sig .tc} (hr : r ∉ wA) :
    after opsA W (no_index (Proc.devRef .tc r)) = W (Proc.devRef .tc r) :=
  after_of_writes_sub opsA W opsA_writes hr
/-- Reading a buffer `opsA` writes opens the list. -/
theorem opsA_enter (W : Valuation τ sig (Elt F)) {r : Ref sig .tc} (hr : r ∈ wA) :
    after opsA W (no_index (Proc.devRef .tc r)) = afterU opsA W (Proc.devRef .tc r) := rfl
/-- No operation of `opsA` allocates. -/
theorem opsA_fresh : ∀ op ∈ (opsA : List (HloOp τ sig (Elt F))), op.fresh = ∅ := by
  intro _ h
  repeat (cases h with | head => rfl | tail _ h => ?_)
  exact nomatch h

/-- The buffers `opsL1a` writes, in order. -/
noncomputable def wL1a : List (Ref sig .tc) :=
  [main_cst_7, main_v21, main_v22, main_cst_8, main_v23, main_v24, main_v25, main_v26, main_cst_9, main_v27, main_v28, main_v29, main_v30, main_cst_10, main_v31, main_v32, main_v33, main_v34, main_v35, main_v36]
/-- Every operation of `opsL1a` writes among them. -/
theorem opsL1a_writes : (opsL1a : List (HloOp τ sig (Elt F))).Forall fun op =>
    op.writes ⊆ (wL1a.map (Proc.devRef (τ := τ) .tc)).toFinset :=
  ⟨writes_sub_of_mem (y := main_cst_7) rfl (by decide),
   writes_sub_of_mem (y := main_v21) rfl (by decide),
   writes_sub_of_mem (y := main_v22) rfl (by decide),
   writes_sub_of_mem (y := main_cst_8) rfl (by decide),
   writes_sub_of_mem (y := main_v23) rfl (by decide),
   writes_sub_of_mem (y := main_v24) rfl (by decide),
   writes_sub_of_mem (y := main_v25) rfl (by decide),
   writes_sub_of_mem (y := main_v26) rfl (by decide),
   writes_sub_of_mem (y := main_cst_9) rfl (by decide),
   writes_sub_of_mem (y := main_v27) rfl (by decide),
   writes_sub_of_mem (y := main_v28) rfl (by decide),
   writes_sub_of_mem (y := main_v29) rfl (by decide),
   writes_sub_of_mem (y := main_v30) rfl (by decide),
   writes_sub_of_mem (y := main_cst_10) rfl (by decide),
   writes_sub_of_mem (y := main_v31) rfl (by decide),
   writes_sub_of_mem (y := main_v32) rfl (by decide),
   writes_sub_of_mem (y := main_v33) rfl (by decide),
   writes_sub_of_mem (y := main_v34) rfl (by decide),
   writes_sub_of_mem (y := main_v35) rfl (by decide),
   writes_sub_of_mem (y := main_v36) rfl (by decide)⟩
/-- A buffer `opsL1a` does not write keeps its contents. -/
theorem opsL1a_keeps (W : Valuation τ sig (Elt F)) {r : Ref sig .tc} (hr : r ∉ wL1a) :
    after opsL1a W (no_index (Proc.devRef .tc r)) = W (Proc.devRef .tc r) :=
  after_of_writes_sub opsL1a W opsL1a_writes hr
/-- Reading a buffer `opsL1a` writes opens the list. -/
theorem opsL1a_enter (W : Valuation τ sig (Elt F)) {r : Ref sig .tc} (hr : r ∈ wL1a) :
    after opsL1a W (no_index (Proc.devRef .tc r)) = afterU opsL1a W (Proc.devRef .tc r) := rfl
/-- No operation of `opsL1a` allocates. -/
theorem opsL1a_fresh : ∀ op ∈ (opsL1a : List (HloOp τ sig (Elt F))), op.fresh = ∅ := by
  intro _ h
  repeat (cases h with | head => rfl | tail _ h => ?_)
  exact nomatch h

/-- The buffers `opsL1b` writes, in order. -/
noncomputable def wL1b : List (Ref sig .tc) :=
  [main_c, main_v37, main_v38, main_c_11, main_v39, main_v40, main_v41, main_c_12, main_v42, main_v43, main_c_13, main_v44, main_v45, main_v46, main_v47, main_v48, main_v49, main_v50]
/-- Every operation of `opsL1b` writes among them. -/
theorem opsL1b_writes : (opsL1b : List (HloOp τ sig (Elt F))).Forall fun op =>
    op.writes ⊆ (wL1b.map (Proc.devRef (τ := τ) .tc)).toFinset :=
  ⟨writes_sub_of_mem (y := main_c) rfl (by decide),
   writes_sub_of_mem (y := main_v37) rfl (by decide),
   writes_sub_of_mem (y := main_v38) rfl (by decide),
   writes_sub_of_mem (y := main_c_11) rfl (by decide),
   writes_sub_of_mem (y := main_v39) rfl (by decide),
   writes_sub_of_mem (y := main_v40) rfl (by decide),
   writes_sub_of_mem (y := main_v41) rfl (by decide),
   writes_sub_of_mem (y := main_c_12) rfl (by decide),
   writes_sub_of_mem (y := main_v42) rfl (by decide),
   writes_sub_of_mem (y := main_v43) rfl (by decide),
   writes_sub_of_mem (y := main_c_13) rfl (by decide),
   writes_sub_of_mem (y := main_v44) rfl (by decide),
   writes_sub_of_mem (y := main_v45) rfl (by decide),
   writes_sub_of_mem (y := main_v46) rfl (by decide),
   writes_sub_of_mem (y := main_v47) rfl (by decide),
   writes_sub_of_mem (y := main_v48) rfl (by decide),
   writes_sub_of_mem (y := main_v49) rfl (by decide),
   writes_sub_of_mem (y := main_v50) rfl (by decide)⟩
/-- A buffer `opsL1b` does not write keeps its contents. -/
theorem opsL1b_keeps (W : Valuation τ sig (Elt F)) {r : Ref sig .tc} (hr : r ∉ wL1b) :
    after opsL1b W (no_index (Proc.devRef .tc r)) = W (Proc.devRef .tc r) :=
  after_of_writes_sub opsL1b W opsL1b_writes hr
/-- Reading a buffer `opsL1b` writes opens the list. -/
theorem opsL1b_enter (W : Valuation τ sig (Elt F)) {r : Ref sig .tc} (hr : r ∈ wL1b) :
    after opsL1b W (no_index (Proc.devRef .tc r)) = afterU opsL1b W (Proc.devRef .tc r) := rfl
/-- No operation of `opsL1b` allocates. -/
theorem opsL1b_fresh : ∀ op ∈ (opsL1b : List (HloOp τ sig (Elt F))), op.fresh = ∅ := by
  intro _ h
  repeat (cases h with | head => rfl | tail _ h => ?_)
  exact nomatch h

/-- The buffers `opsL1c` writes, in order. -/
noncomputable def wL1c : List (Ref sig .tc) :=
  [main_c_14, main_v51, main_v52, main_c_15, main_v53, main_v54, main_v55, main_c_16, main_v56, main_v57, main_c_17, main_v58, main_v59, main_v60, main_v61, main_v62, main_v63, main_v64]
/-- Every operation of `opsL1c` writes among them. -/
theorem opsL1c_writes : (opsL1c : List (HloOp τ sig (Elt F))).Forall fun op =>
    op.writes ⊆ (wL1c.map (Proc.devRef (τ := τ) .tc)).toFinset :=
  ⟨writes_sub_of_mem (y := main_c_14) rfl (by decide),
   writes_sub_of_mem (y := main_v51) rfl (by decide),
   writes_sub_of_mem (y := main_v52) rfl (by decide),
   writes_sub_of_mem (y := main_c_15) rfl (by decide),
   writes_sub_of_mem (y := main_v53) rfl (by decide),
   writes_sub_of_mem (y := main_v54) rfl (by decide),
   writes_sub_of_mem (y := main_v55) rfl (by decide),
   writes_sub_of_mem (y := main_c_16) rfl (by decide),
   writes_sub_of_mem (y := main_v56) rfl (by decide),
   writes_sub_of_mem (y := main_v57) rfl (by decide),
   writes_sub_of_mem (y := main_c_17) rfl (by decide),
   writes_sub_of_mem (y := main_v58) rfl (by decide),
   writes_sub_of_mem (y := main_v59) rfl (by decide),
   writes_sub_of_mem (y := main_v60) rfl (by decide),
   writes_sub_of_mem (y := main_v61) rfl (by decide),
   writes_sub_of_mem (y := main_v62) rfl (by decide),
   writes_sub_of_mem (y := main_v63) rfl (by decide),
   writes_sub_of_mem (y := main_v64) rfl (by decide)⟩
/-- A buffer `opsL1c` does not write keeps its contents. -/
theorem opsL1c_keeps (W : Valuation τ sig (Elt F)) {r : Ref sig .tc} (hr : r ∉ wL1c) :
    after opsL1c W (no_index (Proc.devRef .tc r)) = W (Proc.devRef .tc r) :=
  after_of_writes_sub opsL1c W opsL1c_writes hr
/-- Reading a buffer `opsL1c` writes opens the list. -/
theorem opsL1c_enter (W : Valuation τ sig (Elt F)) {r : Ref sig .tc} (hr : r ∈ wL1c) :
    after opsL1c W (no_index (Proc.devRef .tc r)) = afterU opsL1c W (Proc.devRef .tc r) := rfl
/-- No operation of `opsL1c` allocates. -/
theorem opsL1c_fresh : ∀ op ∈ (opsL1c : List (HloOp τ sig (Elt F))), op.fresh = ∅ := by
  intro _ h
  repeat (cases h with | head => rfl | tail _ h => ?_)
  exact nomatch h

/-- The buffers `opsL1d` writes, in order. -/
noncomputable def wL1d : List (Ref sig .tc) :=
  [main_c_18, main_v65, main_v66, main_c_19, main_v67, main_v68, main_v69, main_c_20, main_v70, main_v71, main_c_21, main_v72, main_v73, main_v74, main_v75, main_v76, main_v77, main_v78]
/-- Every operation of `opsL1d` writes among them. -/
theorem opsL1d_writes : (opsL1d : List (HloOp τ sig (Elt F))).Forall fun op =>
    op.writes ⊆ (wL1d.map (Proc.devRef (τ := τ) .tc)).toFinset :=
  ⟨writes_sub_of_mem (y := main_c_18) rfl (by decide),
   writes_sub_of_mem (y := main_v65) rfl (by decide),
   writes_sub_of_mem (y := main_v66) rfl (by decide),
   writes_sub_of_mem (y := main_c_19) rfl (by decide),
   writes_sub_of_mem (y := main_v67) rfl (by decide),
   writes_sub_of_mem (y := main_v68) rfl (by decide),
   writes_sub_of_mem (y := main_v69) rfl (by decide),
   writes_sub_of_mem (y := main_c_20) rfl (by decide),
   writes_sub_of_mem (y := main_v70) rfl (by decide),
   writes_sub_of_mem (y := main_v71) rfl (by decide),
   writes_sub_of_mem (y := main_c_21) rfl (by decide),
   writes_sub_of_mem (y := main_v72) rfl (by decide),
   writes_sub_of_mem (y := main_v73) rfl (by decide),
   writes_sub_of_mem (y := main_v74) rfl (by decide),
   writes_sub_of_mem (y := main_v75) rfl (by decide),
   writes_sub_of_mem (y := main_v76) rfl (by decide),
   writes_sub_of_mem (y := main_v77) rfl (by decide),
   writes_sub_of_mem (y := main_v78) rfl (by decide)⟩
/-- A buffer `opsL1d` does not write keeps its contents. -/
theorem opsL1d_keeps (W : Valuation τ sig (Elt F)) {r : Ref sig .tc} (hr : r ∉ wL1d) :
    after opsL1d W (no_index (Proc.devRef .tc r)) = W (Proc.devRef .tc r) :=
  after_of_writes_sub opsL1d W opsL1d_writes hr
/-- Reading a buffer `opsL1d` writes opens the list. -/
theorem opsL1d_enter (W : Valuation τ sig (Elt F)) {r : Ref sig .tc} (hr : r ∈ wL1d) :
    after opsL1d W (no_index (Proc.devRef .tc r)) = afterU opsL1d W (Proc.devRef .tc r) := rfl
/-- No operation of `opsL1d` allocates. -/
theorem opsL1d_fresh : ∀ op ∈ (opsL1d : List (HloOp τ sig (Elt F))), op.fresh = ∅ := by
  intro _ h
  repeat (cases h with | head => rfl | tail _ h => ?_)
  exact nomatch h

/-- The buffers `opsL1e` writes, in order. -/
noncomputable def wL1e : List (Ref sig .tc) :=
  [main_c_22, main_v79, main_v80, main_c_23, main_v81, main_v82, main_v83, main_c_24, main_v84, main_v85, main_c_25, main_v86, main_v87, main_v88, main_v89, main_v90, main_v91, main_v92]
/-- Every operation of `opsL1e` writes among them. -/
theorem opsL1e_writes : (opsL1e : List (HloOp τ sig (Elt F))).Forall fun op =>
    op.writes ⊆ (wL1e.map (Proc.devRef (τ := τ) .tc)).toFinset :=
  ⟨writes_sub_of_mem (y := main_c_22) rfl (by decide),
   writes_sub_of_mem (y := main_v79) rfl (by decide),
   writes_sub_of_mem (y := main_v80) rfl (by decide),
   writes_sub_of_mem (y := main_c_23) rfl (by decide),
   writes_sub_of_mem (y := main_v81) rfl (by decide),
   writes_sub_of_mem (y := main_v82) rfl (by decide),
   writes_sub_of_mem (y := main_v83) rfl (by decide),
   writes_sub_of_mem (y := main_c_24) rfl (by decide),
   writes_sub_of_mem (y := main_v84) rfl (by decide),
   writes_sub_of_mem (y := main_v85) rfl (by decide),
   writes_sub_of_mem (y := main_c_25) rfl (by decide),
   writes_sub_of_mem (y := main_v86) rfl (by decide),
   writes_sub_of_mem (y := main_v87) rfl (by decide),
   writes_sub_of_mem (y := main_v88) rfl (by decide),
   writes_sub_of_mem (y := main_v89) rfl (by decide),
   writes_sub_of_mem (y := main_v90) rfl (by decide),
   writes_sub_of_mem (y := main_v91) rfl (by decide),
   writes_sub_of_mem (y := main_v92) rfl (by decide)⟩
/-- A buffer `opsL1e` does not write keeps its contents. -/
theorem opsL1e_keeps (W : Valuation τ sig (Elt F)) {r : Ref sig .tc} (hr : r ∉ wL1e) :
    after opsL1e W (no_index (Proc.devRef .tc r)) = W (Proc.devRef .tc r) :=
  after_of_writes_sub opsL1e W opsL1e_writes hr
/-- Reading a buffer `opsL1e` writes opens the list. -/
theorem opsL1e_enter (W : Valuation τ sig (Elt F)) {r : Ref sig .tc} (hr : r ∈ wL1e) :
    after opsL1e W (no_index (Proc.devRef .tc r)) = afterU opsL1e W (Proc.devRef .tc r) := rfl
/-- No operation of `opsL1e` allocates. -/
theorem opsL1e_fresh : ∀ op ∈ (opsL1e : List (HloOp τ sig (Elt F))), op.fresh = ∅ := by
  intro _ h
  repeat (cases h with | head => rfl | tail _ h => ?_)
  exact nomatch h

/-- The buffers `opsL1f` writes, in order. -/
noncomputable def wL1f : List (Ref sig .tc) :=
  [main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119]
/-- Every operation of `opsL1f` writes among them. -/
theorem opsL1f_writes : (opsL1f : List (HloOp τ sig (Elt F))).Forall fun op =>
    op.writes ⊆ (wL1f.map (Proc.devRef (τ := τ) .tc)).toFinset :=
  ⟨writes_sub_of_mem (y := main_v93) rfl (by decide),
   writes_sub_of_mem (y := main_v94) rfl (by decide),
   writes_sub_of_mem (y := main_v95) rfl (by decide),
   writes_sub_of_mem (y := main_v96) rfl (by decide),
   writes_sub_of_mem (y := main_v97) rfl (by decide),
   writes_sub_of_mem (y := main_v98) rfl (by decide),
   writes_sub_of_mem (y := main_v99) rfl (by decide),
   writes_sub_of_mem (y := main_v100) rfl (by decide),
   writes_sub_of_mem (y := main_v101) rfl (by decide),
   writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_v106) rfl (by decide),
   writes_sub_of_mem (y := main_v107) rfl (by decide),
   writes_sub_of_mem (y := main_v108) rfl (by decide),
   writes_sub_of_mem (y := main_v109) rfl (by decide),
   writes_sub_of_mem (y := main_v110) rfl (by decide),
   writes_sub_of_mem (y := main_v111) rfl (by decide),
   writes_sub_of_mem (y := main_v112) rfl (by decide),
   writes_sub_of_mem (y := main_v113) rfl (by decide),
   writes_sub_of_mem (y := main_v114) rfl (by decide),
   writes_sub_of_mem (y := main_v115) rfl (by decide),
   writes_sub_of_mem (y := main_v116) rfl (by decide),
   writes_sub_of_mem (y := main_v117) rfl (by decide),
   writes_sub_of_mem (y := main_v118) rfl (by decide),
   writes_sub_of_mem (y := main_v119) rfl (by decide)⟩
/-- A buffer `opsL1f` does not write keeps its contents. -/
theorem opsL1f_keeps (W : Valuation τ sig (Elt F)) {r : Ref sig .tc} (hr : r ∉ wL1f) :
    after opsL1f W (no_index (Proc.devRef .tc r)) = W (Proc.devRef .tc r) :=
  after_of_writes_sub opsL1f W opsL1f_writes hr
/-- Reading a buffer `opsL1f` writes opens the list. -/
theorem opsL1f_enter (W : Valuation τ sig (Elt F)) {r : Ref sig .tc} (hr : r ∈ wL1f) :
    after opsL1f W (no_index (Proc.devRef .tc r)) = afterU opsL1f W (Proc.devRef .tc r) := rfl
/-- No operation of `opsL1f` allocates. -/
theorem opsL1f_fresh : ∀ op ∈ (opsL1f : List (HloOp τ sig (Elt F))), op.fresh = ∅ := by
  intro _ h
  repeat (cases h with | head => rfl | tail _ h => ?_)
  exact nomatch h

/-- The buffers `opsL2a` writes, in order. -/
noncomputable def wL2a : List (Ref sig .tc) :=
  [main_cst_26, main_v120, main_v121, main_cst_27, main_v122, main_v123, main_v124, main_v125, main_cst_28, main_v126, main_v127, main_v128, main_v129, main_cst_29, main_v130, main_v131, main_v132, main_v133, main_v134, main_v135]
/-- Every operation of `opsL2a` writes among them. -/
theorem opsL2a_writes : (opsL2a : List (HloOp τ sig (Elt F))).Forall fun op =>
    op.writes ⊆ (wL2a.map (Proc.devRef (τ := τ) .tc)).toFinset :=
  ⟨writes_sub_of_mem (y := main_cst_26) rfl (by decide),
   writes_sub_of_mem (y := main_v120) rfl (by decide),
   writes_sub_of_mem (y := main_v121) rfl (by decide),
   writes_sub_of_mem (y := main_cst_27) rfl (by decide),
   writes_sub_of_mem (y := main_v122) rfl (by decide),
   writes_sub_of_mem (y := main_v123) rfl (by decide),
   writes_sub_of_mem (y := main_v124) rfl (by decide),
   writes_sub_of_mem (y := main_v125) rfl (by decide),
   writes_sub_of_mem (y := main_cst_28) rfl (by decide),
   writes_sub_of_mem (y := main_v126) rfl (by decide),
   writes_sub_of_mem (y := main_v127) rfl (by decide),
   writes_sub_of_mem (y := main_v128) rfl (by decide),
   writes_sub_of_mem (y := main_v129) rfl (by decide),
   writes_sub_of_mem (y := main_cst_29) rfl (by decide),
   writes_sub_of_mem (y := main_v130) rfl (by decide),
   writes_sub_of_mem (y := main_v131) rfl (by decide),
   writes_sub_of_mem (y := main_v132) rfl (by decide),
   writes_sub_of_mem (y := main_v133) rfl (by decide),
   writes_sub_of_mem (y := main_v134) rfl (by decide),
   writes_sub_of_mem (y := main_v135) rfl (by decide)⟩
/-- A buffer `opsL2a` does not write keeps its contents. -/
theorem opsL2a_keeps (W : Valuation τ sig (Elt F)) {r : Ref sig .tc} (hr : r ∉ wL2a) :
    after opsL2a W (no_index (Proc.devRef .tc r)) = W (Proc.devRef .tc r) :=
  after_of_writes_sub opsL2a W opsL2a_writes hr
/-- Reading a buffer `opsL2a` writes opens the list. -/
theorem opsL2a_enter (W : Valuation τ sig (Elt F)) {r : Ref sig .tc} (hr : r ∈ wL2a) :
    after opsL2a W (no_index (Proc.devRef .tc r)) = afterU opsL2a W (Proc.devRef .tc r) := rfl
/-- No operation of `opsL2a` allocates. -/
theorem opsL2a_fresh : ∀ op ∈ (opsL2a : List (HloOp τ sig (Elt F))), op.fresh = ∅ := by
  intro _ h
  repeat (cases h with | head => rfl | tail _ h => ?_)
  exact nomatch h

/-- The buffers `opsL2b` writes, in order. -/
noncomputable def wL2b : List (Ref sig .tc) :=
  [main_c_30, main_v136, main_v137, main_c_31, main_v138, main_v139, main_v140, main_c_32, main_v141, main_v142, main_c_33, main_v143, main_v144, main_v145, main_v146, main_v147, main_v148, main_v149]
/-- Every operation of `opsL2b` writes among them. -/
theorem opsL2b_writes : (opsL2b : List (HloOp τ sig (Elt F))).Forall fun op =>
    op.writes ⊆ (wL2b.map (Proc.devRef (τ := τ) .tc)).toFinset :=
  ⟨writes_sub_of_mem (y := main_c_30) rfl (by decide),
   writes_sub_of_mem (y := main_v136) rfl (by decide),
   writes_sub_of_mem (y := main_v137) rfl (by decide),
   writes_sub_of_mem (y := main_c_31) rfl (by decide),
   writes_sub_of_mem (y := main_v138) rfl (by decide),
   writes_sub_of_mem (y := main_v139) rfl (by decide),
   writes_sub_of_mem (y := main_v140) rfl (by decide),
   writes_sub_of_mem (y := main_c_32) rfl (by decide),
   writes_sub_of_mem (y := main_v141) rfl (by decide),
   writes_sub_of_mem (y := main_v142) rfl (by decide),
   writes_sub_of_mem (y := main_c_33) rfl (by decide),
   writes_sub_of_mem (y := main_v143) rfl (by decide),
   writes_sub_of_mem (y := main_v144) rfl (by decide),
   writes_sub_of_mem (y := main_v145) rfl (by decide),
   writes_sub_of_mem (y := main_v146) rfl (by decide),
   writes_sub_of_mem (y := main_v147) rfl (by decide),
   writes_sub_of_mem (y := main_v148) rfl (by decide),
   writes_sub_of_mem (y := main_v149) rfl (by decide)⟩
/-- A buffer `opsL2b` does not write keeps its contents. -/
theorem opsL2b_keeps (W : Valuation τ sig (Elt F)) {r : Ref sig .tc} (hr : r ∉ wL2b) :
    after opsL2b W (no_index (Proc.devRef .tc r)) = W (Proc.devRef .tc r) :=
  after_of_writes_sub opsL2b W opsL2b_writes hr
/-- Reading a buffer `opsL2b` writes opens the list. -/
theorem opsL2b_enter (W : Valuation τ sig (Elt F)) {r : Ref sig .tc} (hr : r ∈ wL2b) :
    after opsL2b W (no_index (Proc.devRef .tc r)) = afterU opsL2b W (Proc.devRef .tc r) := rfl
/-- No operation of `opsL2b` allocates. -/
theorem opsL2b_fresh : ∀ op ∈ (opsL2b : List (HloOp τ sig (Elt F))), op.fresh = ∅ := by
  intro _ h
  repeat (cases h with | head => rfl | tail _ h => ?_)
  exact nomatch h

/-- The buffers `opsL2c` writes, in order. -/
noncomputable def wL2c : List (Ref sig .tc) :=
  [main_c_34, main_v150, main_v151, main_c_35, main_v152, main_v153, main_v154, main_c_36, main_v155, main_v156, main_c_37, main_v157, main_v158, main_v159, main_v160, main_v161, main_v162, main_v163]
/-- Every operation of `opsL2c` writes among them. -/
theorem opsL2c_writes : (opsL2c : List (HloOp τ sig (Elt F))).Forall fun op =>
    op.writes ⊆ (wL2c.map (Proc.devRef (τ := τ) .tc)).toFinset :=
  ⟨writes_sub_of_mem (y := main_c_34) rfl (by decide),
   writes_sub_of_mem (y := main_v150) rfl (by decide),
   writes_sub_of_mem (y := main_v151) rfl (by decide),
   writes_sub_of_mem (y := main_c_35) rfl (by decide),
   writes_sub_of_mem (y := main_v152) rfl (by decide),
   writes_sub_of_mem (y := main_v153) rfl (by decide),
   writes_sub_of_mem (y := main_v154) rfl (by decide),
   writes_sub_of_mem (y := main_c_36) rfl (by decide),
   writes_sub_of_mem (y := main_v155) rfl (by decide),
   writes_sub_of_mem (y := main_v156) rfl (by decide),
   writes_sub_of_mem (y := main_c_37) rfl (by decide),
   writes_sub_of_mem (y := main_v157) rfl (by decide),
   writes_sub_of_mem (y := main_v158) rfl (by decide),
   writes_sub_of_mem (y := main_v159) rfl (by decide),
   writes_sub_of_mem (y := main_v160) rfl (by decide),
   writes_sub_of_mem (y := main_v161) rfl (by decide),
   writes_sub_of_mem (y := main_v162) rfl (by decide),
   writes_sub_of_mem (y := main_v163) rfl (by decide)⟩
/-- A buffer `opsL2c` does not write keeps its contents. -/
theorem opsL2c_keeps (W : Valuation τ sig (Elt F)) {r : Ref sig .tc} (hr : r ∉ wL2c) :
    after opsL2c W (no_index (Proc.devRef .tc r)) = W (Proc.devRef .tc r) :=
  after_of_writes_sub opsL2c W opsL2c_writes hr
/-- Reading a buffer `opsL2c` writes opens the list. -/
theorem opsL2c_enter (W : Valuation τ sig (Elt F)) {r : Ref sig .tc} (hr : r ∈ wL2c) :
    after opsL2c W (no_index (Proc.devRef .tc r)) = afterU opsL2c W (Proc.devRef .tc r) := rfl
/-- No operation of `opsL2c` allocates. -/
theorem opsL2c_fresh : ∀ op ∈ (opsL2c : List (HloOp τ sig (Elt F))), op.fresh = ∅ := by
  intro _ h
  repeat (cases h with | head => rfl | tail _ h => ?_)
  exact nomatch h

/-- The buffers `opsL2d` writes, in order. -/
noncomputable def wL2d : List (Ref sig .tc) :=
  [main_c_38, main_v164, main_v165, main_c_39, main_v166, main_v167, main_v168, main_c_40, main_v169, main_v170, main_c_41, main_v171, main_v172, main_v173, main_v174, main_v175, main_v176, main_v177]
/-- Every operation of `opsL2d` writes among them. -/
theorem opsL2d_writes : (opsL2d : List (HloOp τ sig (Elt F))).Forall fun op =>
    op.writes ⊆ (wL2d.map (Proc.devRef (τ := τ) .tc)).toFinset :=
  ⟨writes_sub_of_mem (y := main_c_38) rfl (by decide),
   writes_sub_of_mem (y := main_v164) rfl (by decide),
   writes_sub_of_mem (y := main_v165) rfl (by decide),
   writes_sub_of_mem (y := main_c_39) rfl (by decide),
   writes_sub_of_mem (y := main_v166) rfl (by decide),
   writes_sub_of_mem (y := main_v167) rfl (by decide),
   writes_sub_of_mem (y := main_v168) rfl (by decide),
   writes_sub_of_mem (y := main_c_40) rfl (by decide),
   writes_sub_of_mem (y := main_v169) rfl (by decide),
   writes_sub_of_mem (y := main_v170) rfl (by decide),
   writes_sub_of_mem (y := main_c_41) rfl (by decide),
   writes_sub_of_mem (y := main_v171) rfl (by decide),
   writes_sub_of_mem (y := main_v172) rfl (by decide),
   writes_sub_of_mem (y := main_v173) rfl (by decide),
   writes_sub_of_mem (y := main_v174) rfl (by decide),
   writes_sub_of_mem (y := main_v175) rfl (by decide),
   writes_sub_of_mem (y := main_v176) rfl (by decide),
   writes_sub_of_mem (y := main_v177) rfl (by decide)⟩
/-- A buffer `opsL2d` does not write keeps its contents. -/
theorem opsL2d_keeps (W : Valuation τ sig (Elt F)) {r : Ref sig .tc} (hr : r ∉ wL2d) :
    after opsL2d W (no_index (Proc.devRef .tc r)) = W (Proc.devRef .tc r) :=
  after_of_writes_sub opsL2d W opsL2d_writes hr
/-- Reading a buffer `opsL2d` writes opens the list. -/
theorem opsL2d_enter (W : Valuation τ sig (Elt F)) {r : Ref sig .tc} (hr : r ∈ wL2d) :
    after opsL2d W (no_index (Proc.devRef .tc r)) = afterU opsL2d W (Proc.devRef .tc r) := rfl
/-- No operation of `opsL2d` allocates. -/
theorem opsL2d_fresh : ∀ op ∈ (opsL2d : List (HloOp τ sig (Elt F))), op.fresh = ∅ := by
  intro _ h
  repeat (cases h with | head => rfl | tail _ h => ?_)
  exact nomatch h

/-- The buffers `opsL2e` writes, in order. -/
noncomputable def wL2e : List (Ref sig .tc) :=
  [main_c_42, main_v178, main_v179, main_c_43, main_v180, main_v181, main_v182, main_c_44, main_v183, main_v184, main_c_45, main_v185, main_v186, main_v187, main_v188, main_v189, main_v190, main_v191]
/-- Every operation of `opsL2e` writes among them. -/
theorem opsL2e_writes : (opsL2e : List (HloOp τ sig (Elt F))).Forall fun op =>
    op.writes ⊆ (wL2e.map (Proc.devRef (τ := τ) .tc)).toFinset :=
  ⟨writes_sub_of_mem (y := main_c_42) rfl (by decide),
   writes_sub_of_mem (y := main_v178) rfl (by decide),
   writes_sub_of_mem (y := main_v179) rfl (by decide),
   writes_sub_of_mem (y := main_c_43) rfl (by decide),
   writes_sub_of_mem (y := main_v180) rfl (by decide),
   writes_sub_of_mem (y := main_v181) rfl (by decide),
   writes_sub_of_mem (y := main_v182) rfl (by decide),
   writes_sub_of_mem (y := main_c_44) rfl (by decide),
   writes_sub_of_mem (y := main_v183) rfl (by decide),
   writes_sub_of_mem (y := main_v184) rfl (by decide),
   writes_sub_of_mem (y := main_c_45) rfl (by decide),
   writes_sub_of_mem (y := main_v185) rfl (by decide),
   writes_sub_of_mem (y := main_v186) rfl (by decide),
   writes_sub_of_mem (y := main_v187) rfl (by decide),
   writes_sub_of_mem (y := main_v188) rfl (by decide),
   writes_sub_of_mem (y := main_v189) rfl (by decide),
   writes_sub_of_mem (y := main_v190) rfl (by decide),
   writes_sub_of_mem (y := main_v191) rfl (by decide)⟩
/-- A buffer `opsL2e` does not write keeps its contents. -/
theorem opsL2e_keeps (W : Valuation τ sig (Elt F)) {r : Ref sig .tc} (hr : r ∉ wL2e) :
    after opsL2e W (no_index (Proc.devRef .tc r)) = W (Proc.devRef .tc r) :=
  after_of_writes_sub opsL2e W opsL2e_writes hr
/-- Reading a buffer `opsL2e` writes opens the list. -/
theorem opsL2e_enter (W : Valuation τ sig (Elt F)) {r : Ref sig .tc} (hr : r ∈ wL2e) :
    after opsL2e W (no_index (Proc.devRef .tc r)) = afterU opsL2e W (Proc.devRef .tc r) := rfl
/-- No operation of `opsL2e` allocates. -/
theorem opsL2e_fresh : ∀ op ∈ (opsL2e : List (HloOp τ sig (Elt F))), op.fresh = ∅ := by
  intro _ h
  repeat (cases h with | head => rfl | tail _ h => ?_)
  exact nomatch h

/-- The buffers `opsL2f` writes, in order. -/
noncomputable def wL2f : List (Ref sig .tc) :=
  [main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218]
/-- Every operation of `opsL2f` writes among them. -/
theorem opsL2f_writes : (opsL2f : List (HloOp τ sig (Elt F))).Forall fun op =>
    op.writes ⊆ (wL2f.map (Proc.devRef (τ := τ) .tc)).toFinset :=
  ⟨writes_sub_of_mem (y := main_v192) rfl (by decide),
   writes_sub_of_mem (y := main_v193) rfl (by decide),
   writes_sub_of_mem (y := main_v194) rfl (by decide),
   writes_sub_of_mem (y := main_v195) rfl (by decide),
   writes_sub_of_mem (y := main_v196) rfl (by decide),
   writes_sub_of_mem (y := main_v197) rfl (by decide),
   writes_sub_of_mem (y := main_v198) rfl (by decide),
   writes_sub_of_mem (y := main_v199) rfl (by decide),
   writes_sub_of_mem (y := main_v200) rfl (by decide),
   writes_sub_of_mem (y := main_v201) rfl (by decide),
   writes_sub_of_mem (y := main_v202) rfl (by decide),
   writes_sub_of_mem (y := main_v203) rfl (by decide),
   writes_sub_of_mem (y := main_v204) rfl (by decide),
   writes_sub_of_mem (y := main_v205) rfl (by decide),
   writes_sub_of_mem (y := main_v206) rfl (by decide),
   writes_sub_of_mem (y := main_v207) rfl (by decide),
   writes_sub_of_mem (y := main_v208) rfl (by decide),
   writes_sub_of_mem (y := main_v209) rfl (by decide),
   writes_sub_of_mem (y := main_v210) rfl (by decide),
   writes_sub_of_mem (y := main_v211) rfl (by decide),
   writes_sub_of_mem (y := main_v212) rfl (by decide),
   writes_sub_of_mem (y := main_v213) rfl (by decide),
   writes_sub_of_mem (y := main_v214) rfl (by decide),
   writes_sub_of_mem (y := main_v215) rfl (by decide),
   writes_sub_of_mem (y := main_v216) rfl (by decide),
   writes_sub_of_mem (y := main_v217) rfl (by decide),
   writes_sub_of_mem (y := main_v218) rfl (by decide)⟩
/-- A buffer `opsL2f` does not write keeps its contents. -/
theorem opsL2f_keeps (W : Valuation τ sig (Elt F)) {r : Ref sig .tc} (hr : r ∉ wL2f) :
    after opsL2f W (no_index (Proc.devRef .tc r)) = W (Proc.devRef .tc r) :=
  after_of_writes_sub opsL2f W opsL2f_writes hr
/-- Reading a buffer `opsL2f` writes opens the list. -/
theorem opsL2f_enter (W : Valuation τ sig (Elt F)) {r : Ref sig .tc} (hr : r ∈ wL2f) :
    after opsL2f W (no_index (Proc.devRef .tc r)) = afterU opsL2f W (Proc.devRef .tc r) := rfl
/-- No operation of `opsL2f` allocates. -/
theorem opsL2f_fresh : ∀ op ∈ (opsL2f : List (HloOp τ sig (Elt F))), op.fresh = ∅ := by
  intro _ h
  repeat (cases h with | head => rfl | tail _ h => ?_)
  exact nomatch h

/-- The buffers `opsL3a` writes, in order. -/
noncomputable def wL3a : List (Ref sig .tc) :=
  [main_cst_46, main_v219, main_v220, main_cst_47, main_v221, main_v222, main_v223, main_v224, main_cst_48, main_v225, main_v226, main_v227, main_v228, main_cst_49, main_v229, main_v230, main_v231, main_v232, main_v233, main_v234]
/-- Every operation of `opsL3a` writes among them. -/
theorem opsL3a_writes : (opsL3a : List (HloOp τ sig (Elt F))).Forall fun op =>
    op.writes ⊆ (wL3a.map (Proc.devRef (τ := τ) .tc)).toFinset :=
  ⟨writes_sub_of_mem (y := main_cst_46) rfl (by decide),
   writes_sub_of_mem (y := main_v219) rfl (by decide),
   writes_sub_of_mem (y := main_v220) rfl (by decide),
   writes_sub_of_mem (y := main_cst_47) rfl (by decide),
   writes_sub_of_mem (y := main_v221) rfl (by decide),
   writes_sub_of_mem (y := main_v222) rfl (by decide),
   writes_sub_of_mem (y := main_v223) rfl (by decide),
   writes_sub_of_mem (y := main_v224) rfl (by decide),
   writes_sub_of_mem (y := main_cst_48) rfl (by decide),
   writes_sub_of_mem (y := main_v225) rfl (by decide),
   writes_sub_of_mem (y := main_v226) rfl (by decide),
   writes_sub_of_mem (y := main_v227) rfl (by decide),
   writes_sub_of_mem (y := main_v228) rfl (by decide),
   writes_sub_of_mem (y := main_cst_49) rfl (by decide),
   writes_sub_of_mem (y := main_v229) rfl (by decide),
   writes_sub_of_mem (y := main_v230) rfl (by decide),
   writes_sub_of_mem (y := main_v231) rfl (by decide),
   writes_sub_of_mem (y := main_v232) rfl (by decide),
   writes_sub_of_mem (y := main_v233) rfl (by decide),
   writes_sub_of_mem (y := main_v234) rfl (by decide)⟩
/-- A buffer `opsL3a` does not write keeps its contents. -/
theorem opsL3a_keeps (W : Valuation τ sig (Elt F)) {r : Ref sig .tc} (hr : r ∉ wL3a) :
    after opsL3a W (no_index (Proc.devRef .tc r)) = W (Proc.devRef .tc r) :=
  after_of_writes_sub opsL3a W opsL3a_writes hr
/-- Reading a buffer `opsL3a` writes opens the list. -/
theorem opsL3a_enter (W : Valuation τ sig (Elt F)) {r : Ref sig .tc} (hr : r ∈ wL3a) :
    after opsL3a W (no_index (Proc.devRef .tc r)) = afterU opsL3a W (Proc.devRef .tc r) := rfl
/-- No operation of `opsL3a` allocates. -/
theorem opsL3a_fresh : ∀ op ∈ (opsL3a : List (HloOp τ sig (Elt F))), op.fresh = ∅ := by
  intro _ h
  repeat (cases h with | head => rfl | tail _ h => ?_)
  exact nomatch h

/-- The buffers `opsL3b` writes, in order. -/
noncomputable def wL3b : List (Ref sig .tc) :=
  [main_c_50, main_v235, main_v236, main_c_51, main_v237, main_v238, main_v239, main_c_52, main_v240, main_v241, main_c_53, main_v242, main_v243, main_v244, main_v245, main_v246, main_v247, main_v248]
/-- Every operation of `opsL3b` writes among them. -/
theorem opsL3b_writes : (opsL3b : List (HloOp τ sig (Elt F))).Forall fun op =>
    op.writes ⊆ (wL3b.map (Proc.devRef (τ := τ) .tc)).toFinset :=
  ⟨writes_sub_of_mem (y := main_c_50) rfl (by decide),
   writes_sub_of_mem (y := main_v235) rfl (by decide),
   writes_sub_of_mem (y := main_v236) rfl (by decide),
   writes_sub_of_mem (y := main_c_51) rfl (by decide),
   writes_sub_of_mem (y := main_v237) rfl (by decide),
   writes_sub_of_mem (y := main_v238) rfl (by decide),
   writes_sub_of_mem (y := main_v239) rfl (by decide),
   writes_sub_of_mem (y := main_c_52) rfl (by decide),
   writes_sub_of_mem (y := main_v240) rfl (by decide),
   writes_sub_of_mem (y := main_v241) rfl (by decide),
   writes_sub_of_mem (y := main_c_53) rfl (by decide),
   writes_sub_of_mem (y := main_v242) rfl (by decide),
   writes_sub_of_mem (y := main_v243) rfl (by decide),
   writes_sub_of_mem (y := main_v244) rfl (by decide),
   writes_sub_of_mem (y := main_v245) rfl (by decide),
   writes_sub_of_mem (y := main_v246) rfl (by decide),
   writes_sub_of_mem (y := main_v247) rfl (by decide),
   writes_sub_of_mem (y := main_v248) rfl (by decide)⟩
/-- A buffer `opsL3b` does not write keeps its contents. -/
theorem opsL3b_keeps (W : Valuation τ sig (Elt F)) {r : Ref sig .tc} (hr : r ∉ wL3b) :
    after opsL3b W (no_index (Proc.devRef .tc r)) = W (Proc.devRef .tc r) :=
  after_of_writes_sub opsL3b W opsL3b_writes hr
/-- Reading a buffer `opsL3b` writes opens the list. -/
theorem opsL3b_enter (W : Valuation τ sig (Elt F)) {r : Ref sig .tc} (hr : r ∈ wL3b) :
    after opsL3b W (no_index (Proc.devRef .tc r)) = afterU opsL3b W (Proc.devRef .tc r) := rfl
/-- No operation of `opsL3b` allocates. -/
theorem opsL3b_fresh : ∀ op ∈ (opsL3b : List (HloOp τ sig (Elt F))), op.fresh = ∅ := by
  intro _ h
  repeat (cases h with | head => rfl | tail _ h => ?_)
  exact nomatch h

/-- The buffers `opsL3c` writes, in order. -/
noncomputable def wL3c : List (Ref sig .tc) :=
  [main_c_54, main_v249, main_v250, main_c_55, main_v251, main_v252, main_v253, main_c_56, main_v254, main_v255, main_c_57, main_v256, main_v257, main_v258, main_v259, main_v260, main_v261, main_v262]
/-- Every operation of `opsL3c` writes among them. -/
theorem opsL3c_writes : (opsL3c : List (HloOp τ sig (Elt F))).Forall fun op =>
    op.writes ⊆ (wL3c.map (Proc.devRef (τ := τ) .tc)).toFinset :=
  ⟨writes_sub_of_mem (y := main_c_54) rfl (by decide),
   writes_sub_of_mem (y := main_v249) rfl (by decide),
   writes_sub_of_mem (y := main_v250) rfl (by decide),
   writes_sub_of_mem (y := main_c_55) rfl (by decide),
   writes_sub_of_mem (y := main_v251) rfl (by decide),
   writes_sub_of_mem (y := main_v252) rfl (by decide),
   writes_sub_of_mem (y := main_v253) rfl (by decide),
   writes_sub_of_mem (y := main_c_56) rfl (by decide),
   writes_sub_of_mem (y := main_v254) rfl (by decide),
   writes_sub_of_mem (y := main_v255) rfl (by decide),
   writes_sub_of_mem (y := main_c_57) rfl (by decide),
   writes_sub_of_mem (y := main_v256) rfl (by decide),
   writes_sub_of_mem (y := main_v257) rfl (by decide),
   writes_sub_of_mem (y := main_v258) rfl (by decide),
   writes_sub_of_mem (y := main_v259) rfl (by decide),
   writes_sub_of_mem (y := main_v260) rfl (by decide),
   writes_sub_of_mem (y := main_v261) rfl (by decide),
   writes_sub_of_mem (y := main_v262) rfl (by decide)⟩
/-- A buffer `opsL3c` does not write keeps its contents. -/
theorem opsL3c_keeps (W : Valuation τ sig (Elt F)) {r : Ref sig .tc} (hr : r ∉ wL3c) :
    after opsL3c W (no_index (Proc.devRef .tc r)) = W (Proc.devRef .tc r) :=
  after_of_writes_sub opsL3c W opsL3c_writes hr
/-- Reading a buffer `opsL3c` writes opens the list. -/
theorem opsL3c_enter (W : Valuation τ sig (Elt F)) {r : Ref sig .tc} (hr : r ∈ wL3c) :
    after opsL3c W (no_index (Proc.devRef .tc r)) = afterU opsL3c W (Proc.devRef .tc r) := rfl
/-- No operation of `opsL3c` allocates. -/
theorem opsL3c_fresh : ∀ op ∈ (opsL3c : List (HloOp τ sig (Elt F))), op.fresh = ∅ := by
  intro _ h
  repeat (cases h with | head => rfl | tail _ h => ?_)
  exact nomatch h

/-- The buffers `opsL3d` writes, in order. -/
noncomputable def wL3d : List (Ref sig .tc) :=
  [main_c_58, main_v263, main_v264, main_c_59, main_v265, main_v266, main_v267, main_c_60, main_v268, main_v269, main_c_61, main_v270, main_v271, main_v272, main_v273, main_v274, main_v275, main_v276]
/-- Every operation of `opsL3d` writes among them. -/
theorem opsL3d_writes : (opsL3d : List (HloOp τ sig (Elt F))).Forall fun op =>
    op.writes ⊆ (wL3d.map (Proc.devRef (τ := τ) .tc)).toFinset :=
  ⟨writes_sub_of_mem (y := main_c_58) rfl (by decide),
   writes_sub_of_mem (y := main_v263) rfl (by decide),
   writes_sub_of_mem (y := main_v264) rfl (by decide),
   writes_sub_of_mem (y := main_c_59) rfl (by decide),
   writes_sub_of_mem (y := main_v265) rfl (by decide),
   writes_sub_of_mem (y := main_v266) rfl (by decide),
   writes_sub_of_mem (y := main_v267) rfl (by decide),
   writes_sub_of_mem (y := main_c_60) rfl (by decide),
   writes_sub_of_mem (y := main_v268) rfl (by decide),
   writes_sub_of_mem (y := main_v269) rfl (by decide),
   writes_sub_of_mem (y := main_c_61) rfl (by decide),
   writes_sub_of_mem (y := main_v270) rfl (by decide),
   writes_sub_of_mem (y := main_v271) rfl (by decide),
   writes_sub_of_mem (y := main_v272) rfl (by decide),
   writes_sub_of_mem (y := main_v273) rfl (by decide),
   writes_sub_of_mem (y := main_v274) rfl (by decide),
   writes_sub_of_mem (y := main_v275) rfl (by decide),
   writes_sub_of_mem (y := main_v276) rfl (by decide)⟩
/-- A buffer `opsL3d` does not write keeps its contents. -/
theorem opsL3d_keeps (W : Valuation τ sig (Elt F)) {r : Ref sig .tc} (hr : r ∉ wL3d) :
    after opsL3d W (no_index (Proc.devRef .tc r)) = W (Proc.devRef .tc r) :=
  after_of_writes_sub opsL3d W opsL3d_writes hr
/-- Reading a buffer `opsL3d` writes opens the list. -/
theorem opsL3d_enter (W : Valuation τ sig (Elt F)) {r : Ref sig .tc} (hr : r ∈ wL3d) :
    after opsL3d W (no_index (Proc.devRef .tc r)) = afterU opsL3d W (Proc.devRef .tc r) := rfl
/-- No operation of `opsL3d` allocates. -/
theorem opsL3d_fresh : ∀ op ∈ (opsL3d : List (HloOp τ sig (Elt F))), op.fresh = ∅ := by
  intro _ h
  repeat (cases h with | head => rfl | tail _ h => ?_)
  exact nomatch h

/-- The buffers `opsL3e` writes, in order. -/
noncomputable def wL3e : List (Ref sig .tc) :=
  [main_c_62, main_v277, main_v278, main_c_63, main_v279, main_v280, main_v281, main_c_64, main_v282, main_v283, main_c_65, main_v284, main_v285, main_v286, main_v287, main_v288, main_v289, main_v290]
/-- Every operation of `opsL3e` writes among them. -/
theorem opsL3e_writes : (opsL3e : List (HloOp τ sig (Elt F))).Forall fun op =>
    op.writes ⊆ (wL3e.map (Proc.devRef (τ := τ) .tc)).toFinset :=
  ⟨writes_sub_of_mem (y := main_c_62) rfl (by decide),
   writes_sub_of_mem (y := main_v277) rfl (by decide),
   writes_sub_of_mem (y := main_v278) rfl (by decide),
   writes_sub_of_mem (y := main_c_63) rfl (by decide),
   writes_sub_of_mem (y := main_v279) rfl (by decide),
   writes_sub_of_mem (y := main_v280) rfl (by decide),
   writes_sub_of_mem (y := main_v281) rfl (by decide),
   writes_sub_of_mem (y := main_c_64) rfl (by decide),
   writes_sub_of_mem (y := main_v282) rfl (by decide),
   writes_sub_of_mem (y := main_v283) rfl (by decide),
   writes_sub_of_mem (y := main_c_65) rfl (by decide),
   writes_sub_of_mem (y := main_v284) rfl (by decide),
   writes_sub_of_mem (y := main_v285) rfl (by decide),
   writes_sub_of_mem (y := main_v286) rfl (by decide),
   writes_sub_of_mem (y := main_v287) rfl (by decide),
   writes_sub_of_mem (y := main_v288) rfl (by decide),
   writes_sub_of_mem (y := main_v289) rfl (by decide),
   writes_sub_of_mem (y := main_v290) rfl (by decide)⟩
/-- A buffer `opsL3e` does not write keeps its contents. -/
theorem opsL3e_keeps (W : Valuation τ sig (Elt F)) {r : Ref sig .tc} (hr : r ∉ wL3e) :
    after opsL3e W (no_index (Proc.devRef .tc r)) = W (Proc.devRef .tc r) :=
  after_of_writes_sub opsL3e W opsL3e_writes hr
/-- Reading a buffer `opsL3e` writes opens the list. -/
theorem opsL3e_enter (W : Valuation τ sig (Elt F)) {r : Ref sig .tc} (hr : r ∈ wL3e) :
    after opsL3e W (no_index (Proc.devRef .tc r)) = afterU opsL3e W (Proc.devRef .tc r) := rfl
/-- No operation of `opsL3e` allocates. -/
theorem opsL3e_fresh : ∀ op ∈ (opsL3e : List (HloOp τ sig (Elt F))), op.fresh = ∅ := by
  intro _ h
  repeat (cases h with | head => rfl | tail _ h => ?_)
  exact nomatch h

/-- The buffers `opsL3f` writes, in order. -/
noncomputable def wL3f : List (Ref sig .tc) :=
  [main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317]
/-- Every operation of `opsL3f` writes among them. -/
theorem opsL3f_writes : (opsL3f : List (HloOp τ sig (Elt F))).Forall fun op =>
    op.writes ⊆ (wL3f.map (Proc.devRef (τ := τ) .tc)).toFinset :=
  ⟨writes_sub_of_mem (y := main_v291) rfl (by decide),
   writes_sub_of_mem (y := main_v292) rfl (by decide),
   writes_sub_of_mem (y := main_v293) rfl (by decide),
   writes_sub_of_mem (y := main_v294) rfl (by decide),
   writes_sub_of_mem (y := main_v295) rfl (by decide),
   writes_sub_of_mem (y := main_v296) rfl (by decide),
   writes_sub_of_mem (y := main_v297) rfl (by decide),
   writes_sub_of_mem (y := main_v298) rfl (by decide),
   writes_sub_of_mem (y := main_v299) rfl (by decide),
   writes_sub_of_mem (y := main_v300) rfl (by decide),
   writes_sub_of_mem (y := main_v301) rfl (by decide),
   writes_sub_of_mem (y := main_v302) rfl (by decide),
   writes_sub_of_mem (y := main_v303) rfl (by decide),
   writes_sub_of_mem (y := main_v304) rfl (by decide),
   writes_sub_of_mem (y := main_v305) rfl (by decide),
   writes_sub_of_mem (y := main_v306) rfl (by decide),
   writes_sub_of_mem (y := main_v307) rfl (by decide),
   writes_sub_of_mem (y := main_v308) rfl (by decide),
   writes_sub_of_mem (y := main_v309) rfl (by decide),
   writes_sub_of_mem (y := main_v310) rfl (by decide),
   writes_sub_of_mem (y := main_v311) rfl (by decide),
   writes_sub_of_mem (y := main_v312) rfl (by decide),
   writes_sub_of_mem (y := main_v313) rfl (by decide),
   writes_sub_of_mem (y := main_v314) rfl (by decide),
   writes_sub_of_mem (y := main_v315) rfl (by decide),
   writes_sub_of_mem (y := main_v316) rfl (by decide),
   writes_sub_of_mem (y := main_v317) rfl (by decide)⟩
/-- A buffer `opsL3f` does not write keeps its contents. -/
theorem opsL3f_keeps (W : Valuation τ sig (Elt F)) {r : Ref sig .tc} (hr : r ∉ wL3f) :
    after opsL3f W (no_index (Proc.devRef .tc r)) = W (Proc.devRef .tc r) :=
  after_of_writes_sub opsL3f W opsL3f_writes hr
/-- Reading a buffer `opsL3f` writes opens the list. -/
theorem opsL3f_enter (W : Valuation τ sig (Elt F)) {r : Ref sig .tc} (hr : r ∈ wL3f) :
    after opsL3f W (no_index (Proc.devRef .tc r)) = afterU opsL3f W (Proc.devRef .tc r) := rfl
/-- No operation of `opsL3f` allocates. -/
theorem opsL3f_fresh : ∀ op ∈ (opsL3f : List (HloOp τ sig (Elt F))), op.fresh = ∅ := by
  intro _ h
  repeat (cases h with | head => rfl | tail _ h => ?_)
  exact nomatch h

/-- The buffers `opsL4a` writes, in order. -/
noncomputable def wL4a : List (Ref sig .tc) :=
  [main_cst_66, main_v318, main_v319, main_cst_67, main_v320, main_v321, main_v322, main_v323, main_cst_68, main_v324, main_v325, main_v326, main_v327, main_cst_69, main_v328, main_v329, main_v330, main_v331, main_v332, main_v333]
/-- Every operation of `opsL4a` writes among them. -/
theorem opsL4a_writes : (opsL4a : List (HloOp τ sig (Elt F))).Forall fun op =>
    op.writes ⊆ (wL4a.map (Proc.devRef (τ := τ) .tc)).toFinset :=
  ⟨writes_sub_of_mem (y := main_cst_66) rfl (by decide),
   writes_sub_of_mem (y := main_v318) rfl (by decide),
   writes_sub_of_mem (y := main_v319) rfl (by decide),
   writes_sub_of_mem (y := main_cst_67) rfl (by decide),
   writes_sub_of_mem (y := main_v320) rfl (by decide),
   writes_sub_of_mem (y := main_v321) rfl (by decide),
   writes_sub_of_mem (y := main_v322) rfl (by decide),
   writes_sub_of_mem (y := main_v323) rfl (by decide),
   writes_sub_of_mem (y := main_cst_68) rfl (by decide),
   writes_sub_of_mem (y := main_v324) rfl (by decide),
   writes_sub_of_mem (y := main_v325) rfl (by decide),
   writes_sub_of_mem (y := main_v326) rfl (by decide),
   writes_sub_of_mem (y := main_v327) rfl (by decide),
   writes_sub_of_mem (y := main_cst_69) rfl (by decide),
   writes_sub_of_mem (y := main_v328) rfl (by decide),
   writes_sub_of_mem (y := main_v329) rfl (by decide),
   writes_sub_of_mem (y := main_v330) rfl (by decide),
   writes_sub_of_mem (y := main_v331) rfl (by decide),
   writes_sub_of_mem (y := main_v332) rfl (by decide),
   writes_sub_of_mem (y := main_v333) rfl (by decide)⟩
/-- A buffer `opsL4a` does not write keeps its contents. -/
theorem opsL4a_keeps (W : Valuation τ sig (Elt F)) {r : Ref sig .tc} (hr : r ∉ wL4a) :
    after opsL4a W (no_index (Proc.devRef .tc r)) = W (Proc.devRef .tc r) :=
  after_of_writes_sub opsL4a W opsL4a_writes hr
/-- Reading a buffer `opsL4a` writes opens the list. -/
theorem opsL4a_enter (W : Valuation τ sig (Elt F)) {r : Ref sig .tc} (hr : r ∈ wL4a) :
    after opsL4a W (no_index (Proc.devRef .tc r)) = afterU opsL4a W (Proc.devRef .tc r) := rfl
/-- No operation of `opsL4a` allocates. -/
theorem opsL4a_fresh : ∀ op ∈ (opsL4a : List (HloOp τ sig (Elt F))), op.fresh = ∅ := by
  intro _ h
  repeat (cases h with | head => rfl | tail _ h => ?_)
  exact nomatch h

/-- The buffers `opsL4b` writes, in order. -/
noncomputable def wL4b : List (Ref sig .tc) :=
  [main_c_70, main_v334, main_v335, main_c_71, main_v336, main_v337, main_v338, main_c_72, main_v339, main_v340, main_c_73, main_v341, main_v342, main_v343, main_v344, main_v345, main_v346, main_v347]
/-- Every operation of `opsL4b` writes among them. -/
theorem opsL4b_writes : (opsL4b : List (HloOp τ sig (Elt F))).Forall fun op =>
    op.writes ⊆ (wL4b.map (Proc.devRef (τ := τ) .tc)).toFinset :=
  ⟨writes_sub_of_mem (y := main_c_70) rfl (by decide),
   writes_sub_of_mem (y := main_v334) rfl (by decide),
   writes_sub_of_mem (y := main_v335) rfl (by decide),
   writes_sub_of_mem (y := main_c_71) rfl (by decide),
   writes_sub_of_mem (y := main_v336) rfl (by decide),
   writes_sub_of_mem (y := main_v337) rfl (by decide),
   writes_sub_of_mem (y := main_v338) rfl (by decide),
   writes_sub_of_mem (y := main_c_72) rfl (by decide),
   writes_sub_of_mem (y := main_v339) rfl (by decide),
   writes_sub_of_mem (y := main_v340) rfl (by decide),
   writes_sub_of_mem (y := main_c_73) rfl (by decide),
   writes_sub_of_mem (y := main_v341) rfl (by decide),
   writes_sub_of_mem (y := main_v342) rfl (by decide),
   writes_sub_of_mem (y := main_v343) rfl (by decide),
   writes_sub_of_mem (y := main_v344) rfl (by decide),
   writes_sub_of_mem (y := main_v345) rfl (by decide),
   writes_sub_of_mem (y := main_v346) rfl (by decide),
   writes_sub_of_mem (y := main_v347) rfl (by decide)⟩
/-- A buffer `opsL4b` does not write keeps its contents. -/
theorem opsL4b_keeps (W : Valuation τ sig (Elt F)) {r : Ref sig .tc} (hr : r ∉ wL4b) :
    after opsL4b W (no_index (Proc.devRef .tc r)) = W (Proc.devRef .tc r) :=
  after_of_writes_sub opsL4b W opsL4b_writes hr
/-- Reading a buffer `opsL4b` writes opens the list. -/
theorem opsL4b_enter (W : Valuation τ sig (Elt F)) {r : Ref sig .tc} (hr : r ∈ wL4b) :
    after opsL4b W (no_index (Proc.devRef .tc r)) = afterU opsL4b W (Proc.devRef .tc r) := rfl
/-- No operation of `opsL4b` allocates. -/
theorem opsL4b_fresh : ∀ op ∈ (opsL4b : List (HloOp τ sig (Elt F))), op.fresh = ∅ := by
  intro _ h
  repeat (cases h with | head => rfl | tail _ h => ?_)
  exact nomatch h

/-- The buffers `opsL4c` writes, in order. -/
noncomputable def wL4c : List (Ref sig .tc) :=
  [main_c_74, main_v348, main_v349, main_c_75, main_v350, main_v351, main_v352, main_c_76, main_v353, main_v354, main_c_77, main_v355, main_v356, main_v357, main_v358, main_v359, main_v360, main_v361]
/-- Every operation of `opsL4c` writes among them. -/
theorem opsL4c_writes : (opsL4c : List (HloOp τ sig (Elt F))).Forall fun op =>
    op.writes ⊆ (wL4c.map (Proc.devRef (τ := τ) .tc)).toFinset :=
  ⟨writes_sub_of_mem (y := main_c_74) rfl (by decide),
   writes_sub_of_mem (y := main_v348) rfl (by decide),
   writes_sub_of_mem (y := main_v349) rfl (by decide),
   writes_sub_of_mem (y := main_c_75) rfl (by decide),
   writes_sub_of_mem (y := main_v350) rfl (by decide),
   writes_sub_of_mem (y := main_v351) rfl (by decide),
   writes_sub_of_mem (y := main_v352) rfl (by decide),
   writes_sub_of_mem (y := main_c_76) rfl (by decide),
   writes_sub_of_mem (y := main_v353) rfl (by decide),
   writes_sub_of_mem (y := main_v354) rfl (by decide),
   writes_sub_of_mem (y := main_c_77) rfl (by decide),
   writes_sub_of_mem (y := main_v355) rfl (by decide),
   writes_sub_of_mem (y := main_v356) rfl (by decide),
   writes_sub_of_mem (y := main_v357) rfl (by decide),
   writes_sub_of_mem (y := main_v358) rfl (by decide),
   writes_sub_of_mem (y := main_v359) rfl (by decide),
   writes_sub_of_mem (y := main_v360) rfl (by decide),
   writes_sub_of_mem (y := main_v361) rfl (by decide)⟩
/-- A buffer `opsL4c` does not write keeps its contents. -/
theorem opsL4c_keeps (W : Valuation τ sig (Elt F)) {r : Ref sig .tc} (hr : r ∉ wL4c) :
    after opsL4c W (no_index (Proc.devRef .tc r)) = W (Proc.devRef .tc r) :=
  after_of_writes_sub opsL4c W opsL4c_writes hr
/-- Reading a buffer `opsL4c` writes opens the list. -/
theorem opsL4c_enter (W : Valuation τ sig (Elt F)) {r : Ref sig .tc} (hr : r ∈ wL4c) :
    after opsL4c W (no_index (Proc.devRef .tc r)) = afterU opsL4c W (Proc.devRef .tc r) := rfl
/-- No operation of `opsL4c` allocates. -/
theorem opsL4c_fresh : ∀ op ∈ (opsL4c : List (HloOp τ sig (Elt F))), op.fresh = ∅ := by
  intro _ h
  repeat (cases h with | head => rfl | tail _ h => ?_)
  exact nomatch h

/-- The buffers `opsL4d` writes, in order. -/
noncomputable def wL4d : List (Ref sig .tc) :=
  [main_c_78, main_v362, main_v363, main_c_79, main_v364, main_v365, main_v366, main_c_80, main_v367, main_v368, main_c_81, main_v369, main_v370, main_v371, main_v372, main_v373, main_v374, main_v375]
/-- Every operation of `opsL4d` writes among them. -/
theorem opsL4d_writes : (opsL4d : List (HloOp τ sig (Elt F))).Forall fun op =>
    op.writes ⊆ (wL4d.map (Proc.devRef (τ := τ) .tc)).toFinset :=
  ⟨writes_sub_of_mem (y := main_c_78) rfl (by decide),
   writes_sub_of_mem (y := main_v362) rfl (by decide),
   writes_sub_of_mem (y := main_v363) rfl (by decide),
   writes_sub_of_mem (y := main_c_79) rfl (by decide),
   writes_sub_of_mem (y := main_v364) rfl (by decide),
   writes_sub_of_mem (y := main_v365) rfl (by decide),
   writes_sub_of_mem (y := main_v366) rfl (by decide),
   writes_sub_of_mem (y := main_c_80) rfl (by decide),
   writes_sub_of_mem (y := main_v367) rfl (by decide),
   writes_sub_of_mem (y := main_v368) rfl (by decide),
   writes_sub_of_mem (y := main_c_81) rfl (by decide),
   writes_sub_of_mem (y := main_v369) rfl (by decide),
   writes_sub_of_mem (y := main_v370) rfl (by decide),
   writes_sub_of_mem (y := main_v371) rfl (by decide),
   writes_sub_of_mem (y := main_v372) rfl (by decide),
   writes_sub_of_mem (y := main_v373) rfl (by decide),
   writes_sub_of_mem (y := main_v374) rfl (by decide),
   writes_sub_of_mem (y := main_v375) rfl (by decide)⟩
/-- A buffer `opsL4d` does not write keeps its contents. -/
theorem opsL4d_keeps (W : Valuation τ sig (Elt F)) {r : Ref sig .tc} (hr : r ∉ wL4d) :
    after opsL4d W (no_index (Proc.devRef .tc r)) = W (Proc.devRef .tc r) :=
  after_of_writes_sub opsL4d W opsL4d_writes hr
/-- Reading a buffer `opsL4d` writes opens the list. -/
theorem opsL4d_enter (W : Valuation τ sig (Elt F)) {r : Ref sig .tc} (hr : r ∈ wL4d) :
    after opsL4d W (no_index (Proc.devRef .tc r)) = afterU opsL4d W (Proc.devRef .tc r) := rfl
/-- No operation of `opsL4d` allocates. -/
theorem opsL4d_fresh : ∀ op ∈ (opsL4d : List (HloOp τ sig (Elt F))), op.fresh = ∅ := by
  intro _ h
  repeat (cases h with | head => rfl | tail _ h => ?_)
  exact nomatch h

/-- The buffers `opsL4e` writes, in order. -/
noncomputable def wL4e : List (Ref sig .tc) :=
  [main_c_82, main_v376, main_v377, main_c_83, main_v378, main_v379, main_v380, main_c_84, main_v381, main_v382, main_c_85, main_v383, main_v384, main_v385, main_v386, main_v387, main_v388, main_v389]
/-- Every operation of `opsL4e` writes among them. -/
theorem opsL4e_writes : (opsL4e : List (HloOp τ sig (Elt F))).Forall fun op =>
    op.writes ⊆ (wL4e.map (Proc.devRef (τ := τ) .tc)).toFinset :=
  ⟨writes_sub_of_mem (y := main_c_82) rfl (by decide),
   writes_sub_of_mem (y := main_v376) rfl (by decide),
   writes_sub_of_mem (y := main_v377) rfl (by decide),
   writes_sub_of_mem (y := main_c_83) rfl (by decide),
   writes_sub_of_mem (y := main_v378) rfl (by decide),
   writes_sub_of_mem (y := main_v379) rfl (by decide),
   writes_sub_of_mem (y := main_v380) rfl (by decide),
   writes_sub_of_mem (y := main_c_84) rfl (by decide),
   writes_sub_of_mem (y := main_v381) rfl (by decide),
   writes_sub_of_mem (y := main_v382) rfl (by decide),
   writes_sub_of_mem (y := main_c_85) rfl (by decide),
   writes_sub_of_mem (y := main_v383) rfl (by decide),
   writes_sub_of_mem (y := main_v384) rfl (by decide),
   writes_sub_of_mem (y := main_v385) rfl (by decide),
   writes_sub_of_mem (y := main_v386) rfl (by decide),
   writes_sub_of_mem (y := main_v387) rfl (by decide),
   writes_sub_of_mem (y := main_v388) rfl (by decide),
   writes_sub_of_mem (y := main_v389) rfl (by decide)⟩
/-- A buffer `opsL4e` does not write keeps its contents. -/
theorem opsL4e_keeps (W : Valuation τ sig (Elt F)) {r : Ref sig .tc} (hr : r ∉ wL4e) :
    after opsL4e W (no_index (Proc.devRef .tc r)) = W (Proc.devRef .tc r) :=
  after_of_writes_sub opsL4e W opsL4e_writes hr
/-- Reading a buffer `opsL4e` writes opens the list. -/
theorem opsL4e_enter (W : Valuation τ sig (Elt F)) {r : Ref sig .tc} (hr : r ∈ wL4e) :
    after opsL4e W (no_index (Proc.devRef .tc r)) = afterU opsL4e W (Proc.devRef .tc r) := rfl
/-- No operation of `opsL4e` allocates. -/
theorem opsL4e_fresh : ∀ op ∈ (opsL4e : List (HloOp τ sig (Elt F))), op.fresh = ∅ := by
  intro _ h
  repeat (cases h with | head => rfl | tail _ h => ?_)
  exact nomatch h

/-- The buffers `opsL4f` writes, in order. -/
noncomputable def wL4f : List (Ref sig .tc) :=
  [main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416]
/-- Every operation of `opsL4f` writes among them. -/
theorem opsL4f_writes : (opsL4f : List (HloOp τ sig (Elt F))).Forall fun op =>
    op.writes ⊆ (wL4f.map (Proc.devRef (τ := τ) .tc)).toFinset :=
  ⟨writes_sub_of_mem (y := main_v390) rfl (by decide),
   writes_sub_of_mem (y := main_v391) rfl (by decide),
   writes_sub_of_mem (y := main_v392) rfl (by decide),
   writes_sub_of_mem (y := main_v393) rfl (by decide),
   writes_sub_of_mem (y := main_v394) rfl (by decide),
   writes_sub_of_mem (y := main_v395) rfl (by decide),
   writes_sub_of_mem (y := main_v396) rfl (by decide),
   writes_sub_of_mem (y := main_v397) rfl (by decide),
   writes_sub_of_mem (y := main_v398) rfl (by decide),
   writes_sub_of_mem (y := main_v399) rfl (by decide),
   writes_sub_of_mem (y := main_v400) rfl (by decide),
   writes_sub_of_mem (y := main_v401) rfl (by decide),
   writes_sub_of_mem (y := main_v402) rfl (by decide),
   writes_sub_of_mem (y := main_v403) rfl (by decide),
   writes_sub_of_mem (y := main_v404) rfl (by decide),
   writes_sub_of_mem (y := main_v405) rfl (by decide),
   writes_sub_of_mem (y := main_v406) rfl (by decide),
   writes_sub_of_mem (y := main_v407) rfl (by decide),
   writes_sub_of_mem (y := main_v408) rfl (by decide),
   writes_sub_of_mem (y := main_v409) rfl (by decide),
   writes_sub_of_mem (y := main_v410) rfl (by decide),
   writes_sub_of_mem (y := main_v411) rfl (by decide),
   writes_sub_of_mem (y := main_v412) rfl (by decide),
   writes_sub_of_mem (y := main_v413) rfl (by decide),
   writes_sub_of_mem (y := main_v414) rfl (by decide),
   writes_sub_of_mem (y := main_v415) rfl (by decide),
   writes_sub_of_mem (y := main_v416) rfl (by decide)⟩
/-- A buffer `opsL4f` does not write keeps its contents. -/
theorem opsL4f_keeps (W : Valuation τ sig (Elt F)) {r : Ref sig .tc} (hr : r ∉ wL4f) :
    after opsL4f W (no_index (Proc.devRef .tc r)) = W (Proc.devRef .tc r) :=
  after_of_writes_sub opsL4f W opsL4f_writes hr
/-- Reading a buffer `opsL4f` writes opens the list. -/
theorem opsL4f_enter (W : Valuation τ sig (Elt F)) {r : Ref sig .tc} (hr : r ∈ wL4f) :
    after opsL4f W (no_index (Proc.devRef .tc r)) = afterU opsL4f W (Proc.devRef .tc r) := rfl
/-- No operation of `opsL4f` allocates. -/
theorem opsL4f_fresh : ∀ op ∈ (opsL4f : List (HloOp τ sig (Elt F))), op.fresh = ∅ := by
  intro _ h
  repeat (cases h with | head => rfl | tail _ h => ?_)
  exact nomatch h

/-- The buffers `opsCat` writes, in order. -/
noncomputable def wCat : List (Ref sig .tc) :=
  [main_v417]
/-- Every operation of `opsCat` writes among them. -/
theorem opsCat_writes : (opsCat : List (HloOp τ sig (Elt F))).Forall fun op =>
    op.writes ⊆ (wCat.map (Proc.devRef (τ := τ) .tc)).toFinset :=
  writes_sub_of_mem (y := main_v417) rfl (by decide)
/-- A buffer `opsCat` does not write keeps its contents. -/
theorem opsCat_keeps (W : Valuation τ sig (Elt F)) {r : Ref sig .tc} (hr : r ∉ wCat) :
    after opsCat W (no_index (Proc.devRef .tc r)) = W (Proc.devRef .tc r) :=
  after_of_writes_sub opsCat W opsCat_writes hr
/-- Reading a buffer `opsCat` writes opens the list. -/
theorem opsCat_enter (W : Valuation τ sig (Elt F)) {r : Ref sig .tc} (hr : r ∈ wCat) :
    after opsCat W (no_index (Proc.devRef .tc r)) = afterU opsCat W (Proc.devRef .tc r) := rfl
/-- No operation of `opsCat` allocates. -/
theorem opsCat_fresh : ∀ op ∈ (opsCat : List (HloOp τ sig (Elt F))), op.fresh = ∅ := by
  intro _ h
  repeat (cases h with | head => rfl | tail _ h => ?_)
  exact nomatch h

/-- The buffers the stretch for feature map 1 writes. -/
noncomputable def wL1 : List (Ref sig .tc) := wL1a ++ (wL1b ++ (wL1c ++ (wL1d ++ (wL1e ++ (wL1f)))))
/-- A buffer the stretch for feature map 1 does not write keeps its contents. -/
theorem opsL1_keeps (W : Valuation τ sig (Elt F)) {r : Ref sig .tc} (hr : r ∉ wL1) :
    after opsL1 W (Proc.devRef .tc r) = W (Proc.devRef .tc r) := by
  have ha := nm_left hr
  have hr := nm_right hr
  have hb := nm_left hr
  have hr := nm_right hr
  have hc := nm_left hr
  have hr := nm_right hr
  have hd := nm_left hr
  have hr := nm_right hr
  have he := nm_left hr
  have hf := nm_right hr
  show after (opsL1a ++ (opsL1b ++ (opsL1c ++ (opsL1d ++ (opsL1e ++ (opsL1f)))))) W _ = _
  rw [after_append, after_append, after_append, after_append, after_append]
  exact (opsL1f_keeps _ hf).trans ((opsL1e_keeps _ he).trans ((opsL1d_keeps _ hd).trans ((opsL1c_keeps _ hc).trans
    ((opsL1b_keeps _ hb).trans (opsL1a_keeps _ ha)))))
/-- No operation of the stretch for feature map 1 allocates. -/
theorem opsL1_fresh : ∀ op ∈ (opsL1 : List (HloOp τ sig (Elt F))), op.fresh = ∅ :=
  fresh_append opsL1a_fresh (fresh_append opsL1b_fresh (fresh_append opsL1c_fresh (fresh_append opsL1d_fresh (fresh_append opsL1e_fresh (opsL1f_fresh)))))

/-- The buffers the stretch for feature map 2 writes. -/
noncomputable def wL2 : List (Ref sig .tc) := wL2a ++ (wL2b ++ (wL2c ++ (wL2d ++ (wL2e ++ (wL2f)))))
/-- A buffer the stretch for feature map 2 does not write keeps its contents. -/
theorem opsL2_keeps (W : Valuation τ sig (Elt F)) {r : Ref sig .tc} (hr : r ∉ wL2) :
    after opsL2 W (Proc.devRef .tc r) = W (Proc.devRef .tc r) := by
  have ha := nm_left hr
  have hr := nm_right hr
  have hb := nm_left hr
  have hr := nm_right hr
  have hc := nm_left hr
  have hr := nm_right hr
  have hd := nm_left hr
  have hr := nm_right hr
  have he := nm_left hr
  have hf := nm_right hr
  show after (opsL2a ++ (opsL2b ++ (opsL2c ++ (opsL2d ++ (opsL2e ++ (opsL2f)))))) W _ = _
  rw [after_append, after_append, after_append, after_append, after_append]
  exact (opsL2f_keeps _ hf).trans ((opsL2e_keeps _ he).trans ((opsL2d_keeps _ hd).trans ((opsL2c_keeps _ hc).trans
    ((opsL2b_keeps _ hb).trans (opsL2a_keeps _ ha)))))
/-- No operation of the stretch for feature map 2 allocates. -/
theorem opsL2_fresh : ∀ op ∈ (opsL2 : List (HloOp τ sig (Elt F))), op.fresh = ∅ :=
  fresh_append opsL2a_fresh (fresh_append opsL2b_fresh (fresh_append opsL2c_fresh (fresh_append opsL2d_fresh (fresh_append opsL2e_fresh (opsL2f_fresh)))))

/-- The buffers the stretch for feature map 3 writes. -/
noncomputable def wL3 : List (Ref sig .tc) := wL3a ++ (wL3b ++ (wL3c ++ (wL3d ++ (wL3e ++ (wL3f)))))
/-- A buffer the stretch for feature map 3 does not write keeps its contents. -/
theorem opsL3_keeps (W : Valuation τ sig (Elt F)) {r : Ref sig .tc} (hr : r ∉ wL3) :
    after opsL3 W (Proc.devRef .tc r) = W (Proc.devRef .tc r) := by
  have ha := nm_left hr
  have hr := nm_right hr
  have hb := nm_left hr
  have hr := nm_right hr
  have hc := nm_left hr
  have hr := nm_right hr
  have hd := nm_left hr
  have hr := nm_right hr
  have he := nm_left hr
  have hf := nm_right hr
  show after (opsL3a ++ (opsL3b ++ (opsL3c ++ (opsL3d ++ (opsL3e ++ (opsL3f)))))) W _ = _
  rw [after_append, after_append, after_append, after_append, after_append]
  exact (opsL3f_keeps _ hf).trans ((opsL3e_keeps _ he).trans ((opsL3d_keeps _ hd).trans ((opsL3c_keeps _ hc).trans
    ((opsL3b_keeps _ hb).trans (opsL3a_keeps _ ha)))))
/-- No operation of the stretch for feature map 3 allocates. -/
theorem opsL3_fresh : ∀ op ∈ (opsL3 : List (HloOp τ sig (Elt F))), op.fresh = ∅ :=
  fresh_append opsL3a_fresh (fresh_append opsL3b_fresh (fresh_append opsL3c_fresh (fresh_append opsL3d_fresh (fresh_append opsL3e_fresh (opsL3f_fresh)))))

/-- The buffers the stretch for feature map 4 writes. -/
noncomputable def wL4 : List (Ref sig .tc) := wL4a ++ (wL4b ++ (wL4c ++ (wL4d ++ (wL4e ++ (wL4f)))))
/-- A buffer the stretch for feature map 4 does not write keeps its contents. -/
theorem opsL4_keeps (W : Valuation τ sig (Elt F)) {r : Ref sig .tc} (hr : r ∉ wL4) :
    after opsL4 W (Proc.devRef .tc r) = W (Proc.devRef .tc r) := by
  have ha := nm_left hr
  have hr := nm_right hr
  have hb := nm_left hr
  have hr := nm_right hr
  have hc := nm_left hr
  have hr := nm_right hr
  have hd := nm_left hr
  have hr := nm_right hr
  have he := nm_left hr
  have hf := nm_right hr
  show after (opsL4a ++ (opsL4b ++ (opsL4c ++ (opsL4d ++ (opsL4e ++ (opsL4f)))))) W _ = _
  rw [after_append, after_append, after_append, after_append, after_append]
  exact (opsL4f_keeps _ hf).trans ((opsL4e_keeps _ he).trans ((opsL4d_keeps _ hd).trans ((opsL4c_keeps _ hc).trans
    ((opsL4b_keeps _ hb).trans (opsL4a_keeps _ ha)))))
/-- No operation of the stretch for feature map 4 allocates. -/
theorem opsL4_fresh : ∀ op ∈ (opsL4 : List (HloOp τ sig (Elt F))), op.fresh = ∅ :=
  fresh_append opsL4a_fresh (fresh_append opsL4b_fresh (fresh_append opsL4c_fresh (fresh_append opsL4d_fresh (fresh_append opsL4e_fresh (opsL4f_fresh)))))

/-- No operation of the whole line allocates. -/
theorem ops_fresh : ∀ op ∈ (ops : List (HloOp τ sig (Elt F))), op.fresh = ∅ :=
  fresh_append opsA_fresh (fresh_append opsL1_fresh (fresh_append opsL2_fresh (fresh_append opsL3_fresh (fresh_append opsL4_fresh (opsCat_fresh)))))

/-! ### What each stretch computes -/

/-- The first stretch leaves the row pixel coordinates in `main_v19` … -/
theorem opsA_h (W : Valuation τ sig (Elt F)) :
    after opsA W (Proc.devRef .tc main_v19) = val_main_v19 (F := F) (W (Proc.devRef .tc main_arg0)) := by
  after_results_simp <;> rfl
/-- … and the column pixel coordinates in `main_v20`. -/
theorem opsA_w (W : Valuation τ sig (Elt F)) :
    after opsA W (Proc.devRef .tc main_v20) = val_main_v20 (F := F) (W (Proc.devRef .tc main_arg0)) := by
  after_results_simp <;> rfl
set_option maxHeartbeats 4000000 in
/-- From contents holding the pixel coordinates, the stretch for feature map 1 leaves that map's samples in `main_v119`:
    each operation's result is read where it was written, jumping over the lists that do not write it. -/
theorem opsL1_val (W : Valuation τ sig (Elt F))
    (h19 : W (Proc.devRef .tc main_v19) = val_main_v19 (F := F) (W (Proc.devRef .tc main_arg0)))
    (h20 : W (Proc.devRef .tc main_v20) = val_main_v20 (F := F) (W (Proc.devRef .tc main_arg0))) :
    after opsL1 W (Proc.devRef .tc main_v119) = val_main_v119 (F := F) (W (Proc.devRef .tc main_arg0)) (W (Proc.devRef .tc main_arg1)) := by
  show after (opsL1a ++ (opsL1b ++ (opsL1c ++ (opsL1d ++ (opsL1e ++ (opsL1f)))))) W _ = _
  rw [after_append, after_append, after_append, after_append, after_append]
  simp (disch := decide) only [↓opsL1a_keeps, ↓opsL1b_keeps, ↓opsL1c_keeps, ↓opsL1d_keeps, ↓opsL1e_keeps, ↓opsL1f_keeps,
    ↓opsL1a_enter, ↓opsL1b_enter, ↓opsL1c_enter, ↓opsL1d_enter, ↓opsL1e_enter, ↓opsL1f_enter,
    ↓afterU_cons, ↓afterU_nil, ↓cat2_eq, ↓nullary_result', ↓unary_result', ↓binary_result', ↓ternary_result', ↓reshape_result',
    ↓nullary_result_ne', ↓unary_result_ne', ↓binary_result_ne', ↓ternary_result_ne', ↓reshape_result_ne']
  rw [h19, h20]
  rfl
set_option maxHeartbeats 4000000 in
/-- From contents holding the pixel coordinates, the stretch for feature map 2 leaves that map's samples in `main_v218`:
    each operation's result is read where it was written, jumping over the lists that do not write it. -/
theorem opsL2_val (W : Valuation τ sig (Elt F))
    (h19 : W (Proc.devRef .tc main_v19) = val_main_v19 (F := F) (W (Proc.devRef .tc main_arg0)))
    (h20 : W (Proc.devRef .tc main_v20) = val_main_v20 (F := F) (W (Proc.devRef .tc main_arg0))) :
    after opsL2 W (Proc.devRef .tc main_v218) = val_main_v218 (F := F) (W (Proc.devRef .tc main_arg0)) (W (Proc.devRef .tc main_arg2)) := by
  show after (opsL2a ++ (opsL2b ++ (opsL2c ++ (opsL2d ++ (opsL2e ++ (opsL2f)))))) W _ = _
  rw [after_append, after_append, after_append, after_append, after_append]
  simp (disch := decide) only [↓opsL2a_keeps, ↓opsL2b_keeps, ↓opsL2c_keeps, ↓opsL2d_keeps, ↓opsL2e_keeps, ↓opsL2f_keeps,
    ↓opsL2a_enter, ↓opsL2b_enter, ↓opsL2c_enter, ↓opsL2d_enter, ↓opsL2e_enter, ↓opsL2f_enter,
    ↓afterU_cons, ↓afterU_nil, ↓cat2_eq, ↓nullary_result', ↓unary_result', ↓binary_result', ↓ternary_result', ↓reshape_result',
    ↓nullary_result_ne', ↓unary_result_ne', ↓binary_result_ne', ↓ternary_result_ne', ↓reshape_result_ne']
  rw [h19, h20]
  rfl
set_option maxHeartbeats 4000000 in
/-- From contents holding the pixel coordinates, the stretch for feature map 3 leaves that map's samples in `main_v317`:
    each operation's result is read where it was written, jumping over the lists that do not write it. -/
theorem opsL3_val (W : Valuation τ sig (Elt F))
    (h19 : W (Proc.devRef .tc main_v19) = val_main_v19 (F := F) (W (Proc.devRef .tc main_arg0)))
    (h20 : W (Proc.devRef .tc main_v20) = val_main_v20 (F := F) (W (Proc.devRef .tc main_arg0))) :
    after opsL3 W (Proc.devRef .tc main_v317) = val_main_v317 (F := F) (W (Proc.devRef .tc main_arg0)) (W (Proc.devRef .tc main_arg3)) := by
  show after (opsL3a ++ (opsL3b ++ (opsL3c ++ (opsL3d ++ (opsL3e ++ (opsL3f)))))) W _ = _
  rw [after_append, after_append, after_append, after_append, after_append]
  simp (disch := decide) only [↓opsL3a_keeps, ↓opsL3b_keeps, ↓opsL3c_keeps, ↓opsL3d_keeps, ↓opsL3e_keeps, ↓opsL3f_keeps,
    ↓opsL3a_enter, ↓opsL3b_enter, ↓opsL3c_enter, ↓opsL3d_enter, ↓opsL3e_enter, ↓opsL3f_enter,
    ↓afterU_cons, ↓afterU_nil, ↓cat2_eq, ↓nullary_result', ↓unary_result', ↓binary_result', ↓ternary_result', ↓reshape_result',
    ↓nullary_result_ne', ↓unary_result_ne', ↓binary_result_ne', ↓ternary_result_ne', ↓reshape_result_ne']
  rw [h19, h20]
  rfl
set_option maxHeartbeats 4000000 in
/-- From contents holding the pixel coordinates, the stretch for feature map 4 leaves that map's samples in `main_v416`:
    each operation's result is read where it was written, jumping over the lists that do not write it. -/
theorem opsL4_val (W : Valuation τ sig (Elt F))
    (h19 : W (Proc.devRef .tc main_v19) = val_main_v19 (F := F) (W (Proc.devRef .tc main_arg0)))
    (h20 : W (Proc.devRef .tc main_v20) = val_main_v20 (F := F) (W (Proc.devRef .tc main_arg0))) :
    after opsL4 W (Proc.devRef .tc main_v416) = val_main_v416 (F := F) (W (Proc.devRef .tc main_arg0)) (W (Proc.devRef .tc main_arg4)) := by
  show after (opsL4a ++ (opsL4b ++ (opsL4c ++ (opsL4d ++ (opsL4e ++ (opsL4f)))))) W _ = _
  rw [after_append, after_append, after_append, after_append, after_append]
  simp (disch := decide) only [↓opsL4a_keeps, ↓opsL4b_keeps, ↓opsL4c_keeps, ↓opsL4d_keeps, ↓opsL4e_keeps, ↓opsL4f_keeps,
    ↓opsL4a_enter, ↓opsL4b_enter, ↓opsL4c_enter, ↓opsL4d_enter, ↓opsL4e_enter, ↓opsL4f_enter,
    ↓afterU_cons, ↓afterU_nil, ↓cat2_eq, ↓nullary_result', ↓unary_result', ↓binary_result', ↓ternary_result', ↓reshape_result',
    ↓nullary_result_ne', ↓unary_result_ne', ↓binary_result_ne', ↓ternary_result_ne', ↓reshape_result_ne']
  rw [h19, h20]
  rfl
/-- The last operation joins the coordinates and the four maps' samples. -/
theorem opsCat_val (W : Valuation τ sig (Elt F)) :
    after opsCat W (Proc.devRef .tc main_v417) = concatenate S100000x963 1 [⟨S100000x3, W (Proc.devRef .tc main_arg0)⟩, ⟨S100000x64, W (Proc.devRef .tc main_v119)⟩,
      ⟨S100000x128, W (Proc.devRef .tc main_v218)⟩, ⟨S100000x256, W (Proc.devRef .tc main_v317)⟩, ⟨S100000x512, W (Proc.devRef .tc main_v416)⟩]
      concatenates_S100000x3_S100000x64_S100000x128_S100000x256_S100000x512_S100000x963_d1 := by
  after_results_simp <;> rfl

/-! ### The whole line -/

section Whole
variable (V : Valuation τ sig (Elt F))

/-- The arguments' contents at the entry of each stretch, and after the whole line, are the launch's. -/
theorem args_kept (r : Ref sig .tc) (hA : r ∉ wA) (h1 : r ∉ wL1) (h2 : r ∉ wL2) (h3 : r ∉ wL3) (h4 : r ∉ wL4) :
    after opsA V (Proc.devRef .tc r) = V (Proc.devRef .tc r)
    ∧ after opsL1 (after opsA V) (Proc.devRef .tc r) = V (Proc.devRef .tc r)
    ∧ after opsL2 (after opsL1 (after opsA V)) (Proc.devRef .tc r) = V (Proc.devRef .tc r)
    ∧ after opsL3 (after opsL2 (after opsL1 (after opsA V))) (Proc.devRef .tc r) = V (Proc.devRef .tc r)
    ∧ after opsL4 (after opsL3 (after opsL2 (after opsL1 (after opsA V)))) (Proc.devRef .tc r) = V (Proc.devRef .tc r) := by
  have e0 := opsA_keeps V hA
  have e1 := (opsL1_keeps (after opsA V) h1).trans e0
  have e2 := (opsL2_keeps (after opsL1 (after opsA V)) h2).trans e1
  have e3 := (opsL3_keeps (after opsL2 (after opsL1 (after opsA V))) h3).trans e2
  have e4 := (opsL4_keeps (after opsL3 (after opsL2 (after opsL1 (after opsA V)))) h4).trans e3
  exact ⟨e0, e1, e2, e3, e4⟩

/-- The whole line is its six stretches in turn. -/
theorem after_ops : after ops V
    = after opsCat (after opsL4 (after opsL3 (after opsL2 (after opsL1 (after opsA V))))) := by
  show after (opsA ++ (opsL1 ++ (opsL2 ++ (opsL3 ++ (opsL4 ++ opsCat))))) V = _
  rw [after_append, after_append, after_append, after_append, after_append]

/-- After the whole line the result buffer holds the reference's value of the launch's arguments. -/
theorem after_ops_result : after ops V (Proc.devRef .tc main_v417)
    = val_main_v417 (F := F) (V (Proc.devRef .tc main_arg0)) (V (Proc.devRef .tc main_arg1)) (V (Proc.devRef .tc main_arg2)) (V (Proc.devRef .tc main_arg3)) (V (Proc.devRef .tc main_arg4)) := by
  obtain ⟨a0A, a01, a02, a03, a04⟩ := args_kept V main_arg0 (by decide) (by decide) (by decide) (by decide) (by decide)
  obtain ⟨a1A, -, -, -, -⟩ := args_kept V main_arg1 (by decide) (by decide) (by decide) (by decide) (by decide)
  obtain ⟨-, a21, -, -, -⟩ := args_kept V main_arg2 (by decide) (by decide) (by decide) (by decide) (by decide)
  obtain ⟨-, -, a32, -, -⟩ := args_kept V main_arg3 (by decide) (by decide) (by decide) (by decide) (by decide)
  obtain ⟨-, -, -, a43, -⟩ := args_kept V main_arg4 (by decide) (by decide) (by decide) (by decide) (by decide)
  -- the pixel coordinates at the entry of each level's stretch
  have h1 : after opsA V (Proc.devRef .tc main_v19) = val_main_v19 (F := F) (V (Proc.devRef .tc main_arg0)) := opsA_h V
  have w1 : after opsA V (Proc.devRef .tc main_v20) = val_main_v20 (F := F) (V (Proc.devRef .tc main_arg0)) := opsA_w V
  have h2 := (opsL1_keeps (after opsA V) (r := main_v19) (by decide)).trans h1
  have w2 := (opsL1_keeps (after opsA V) (r := main_v20) (by decide)).trans w1
  have h3 := (opsL2_keeps (after opsL1 (after opsA V)) (r := main_v19) (by decide)).trans h2
  have w3 := (opsL2_keeps (after opsL1 (after opsA V)) (r := main_v20) (by decide)).trans w2
  have h4 := (opsL3_keeps (after opsL2 (after opsL1 (after opsA V))) (r := main_v19) (by decide)).trans h3
  have w4 := (opsL3_keeps (after opsL2 (after opsL1 (after opsA V))) (r := main_v20) (by decide)).trans w3
  -- each level's sample where its stretch leaves it
  have s1 := opsL1_val (after opsA V) (by rw [a0A]; exact h1) (by rw [a0A]; exact w1)
  rw [a0A, a1A] at s1
  have s2 := opsL2_val (after opsL1 (after opsA V)) (by rw [a01]; exact h2) (by rw [a01]; exact w2)
  rw [a01, a21] at s2
  have s3 := opsL3_val (after opsL2 (after opsL1 (after opsA V))) (by rw [a02]; exact h3) (by rw [a02]; exact w3)
  rw [a02, a32] at s3
  have s4 := opsL4_val (after opsL3 (after opsL2 (after opsL1 (after opsA V)))) (by rw [a03]; exact h4) (by rw [a03]; exact w4)
  rw [a03, a43] at s4
  -- … and at the entry of the concatenation
  have t1 := ((opsL4_keeps (after opsL3 (after opsL2 (after opsL1 (after opsA V)))) (r := main_v119) (by decide)).trans
    ((opsL3_keeps (after opsL2 (after opsL1 (after opsA V))) (r := main_v119) (by decide)).trans
    ((opsL2_keeps (after opsL1 (after opsA V)) (r := main_v119) (by decide)).trans s1)))
  have t2 := ((opsL4_keeps (after opsL3 (after opsL2 (after opsL1 (after opsA V)))) (r := main_v218) (by decide)).trans
    ((opsL3_keeps (after opsL2 (after opsL1 (after opsA V))) (r := main_v218) (by decide)).trans s2))
  have t3 := ((opsL4_keeps (after opsL3 (after opsL2 (after opsL1 (after opsA V)))) (r := main_v317) (by decide)).trans s3)
  rw [after_ops, opsCat_val, a04, t1, t2, t3, s4]
  rfl

/-- After the whole line an argument buffer holds what it held at the launch. -/
theorem after_ops_arg (r : Ref sig .tc) (hA : r ∉ wA) (h1 : r ∉ wL1) (h2 : r ∉ wL2) (h3 : r ∉ wL3) (h4 : r ∉ wL4)
    (hC : r ∉ wCat) : after ops V (Proc.devRef .tc r) = V (Proc.devRef .tc r) := by
  rw [after_ops]
  exact (opsCat_keeps _ hC).trans (args_kept V r hA h1 h2 h3 h4).2.2.2.2

end Whole

/-- On every device, for any float values, from any memory with zero counters: every weakly fair execution of
    @main terminates with the result buffer at the reference's value of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v417) = val_main_v417 (F := F) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v417).trans (after_ops_result (launchContents m c)),
      (h c main_arg0).trans (after_ops_arg (launchContents m c) main_arg0 (by decide) (by decide) (by decide) (by decide) (by decide) (by decide)),
      (h c main_arg1).trans (after_ops_arg (launchContents m c) main_arg1 (by decide) (by decide) (by decide) (by decide) (by decide) (by decide)),
      (h c main_arg2).trans (after_ops_arg (launchContents m c) main_arg2 (by decide) (by decide) (by decide) (by decide) (by decide) (by decide)),
      (h c main_arg3).trans (after_ops_arg (launchContents m c) main_arg3 (by decide) (by decide) (by decide) (by decide) (by decide) (by decide)),
      (h c main_arg4).trans (after_ops_arg (launchContents m c) main_arg4 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.KernelBlocks.lean ====
/-
  How the kernel's windows carve its arrays, and what the host operations before the launch hand it.

  The launch has one grid axis of 100 points. At point t the coordinate window holds rows 1000·t … 1000·t + 999 of the
  [100000, 3] coordinate array, and the output window rows 1000·t … 1000·t + 999 of the [100000, 963] result; the four
  feature windows hold their whole arrays at every point. The four feature arrays the launch sees are the maps flattened
  from [H, W, C] to [H·W, C]: row i·W + j of the flattened array is position (i, j) of the map. The 100 output blocks tile
  the result: row n lies in the block of point n / 1000.
-/
import proofs.«178287_j74071005986926_2_alg».proof.Proof.Gen.KernelIdeal.Value
import Idealize.ShloMosaic.Lib.ValueIdx
import Idealize.ShloMosaic.Lib.Pipeline.Value

set_option maxRecDepth 16384

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem N_eq : cfg0.N = 100 := rfl

/-- The index maps over the grid: the coordinate and output windows are at block (t, 0), the feature windows at block
    (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The input blocks at a point -/

/-- Row r of the coordinate block at point t is row 1000·t + r of the coordinate array. -/
theorem iblk0_apply (c : Dev nD) (t : Fin cfg0.N) (r : Fin 1000) (j : Fin 3) (hn : t.val * 1000 + r.val < 100000) :
    iblk m c 0 t (ix2 r j) = V m c main_arg0 (ix2 (⟨t.val * 1000 + r.val, hn⟩ : Fin 100000) j) := by
  obtain ⟨e0, e1, -⟩ := idx_facts t
  show V m c main_arg0 (((cfg0.win 0).blk t).view.emb (ix2 r j)) = _
  congr 1
  funext a; apply Fin.ext
  match a with
  | ⟨0, _⟩ => show win0_0.index t (0 : Fin 2) * 1000 + 1 * r.val = t.val * 1000 + r.val; omega
  | ⟨1, _⟩ => show win0_0.index t (1 : Fin 2) * 3 + 1 * j.val = j.val; omega

/-- The first feature window's block is its whole flattened array. -/
theorem iblk1_apply (c : Dev nD) (t : Fin cfg0.N) (k : Fin 3136) (q : Fin 64) :
    iblk m c 1 t (ix2 k q) = V m c main_v0 (ix2 k q) := by
  obtain ⟨-, -, -, -, e0, e1, -⟩ := idx_facts t
  show V m c main_v0 (((cfg0.win 1).blk t).view.emb (ix2 k q)) = _
  congr 1
  funext a; apply Fin.ext
  match a with
  | ⟨0, _⟩ => show win0_1.index t (0 : Fin 2) * 3136 + 1 * k.val = k.val; omega
  | ⟨1, _⟩ => show win0_1.index t (1 : Fin 2) * 64 + 1 * q.val = q.val; omega

theorem iblk2_apply (c : Dev nD) (t : Fin cfg0.N) (k : Fin 784) (q : Fin 128) :
    iblk m c 2 t (ix2 k q) = V m c main_v1 (ix2 k q) := by
  obtain ⟨-, -, -, -, -, -, e0, e1, -⟩ := idx_facts t
  show V m c main_v1 (((cfg0.win 2).blk t).view.emb (ix2 k q)) = _
  congr 1
  funext a; apply Fin.ext
  match a with
  | ⟨0, _⟩ => show win0_2.index t (0 : Fin 2) * 784 + 1 * k.val = k.val; omega
  | ⟨1, _⟩ => show win0_2.index t (1 : Fin 2) * 128 + 1 * q.val = q.val; omega

theorem iblk3_apply (c : Dev nD) (t : Fin cfg0.N) (k : Fin 196) (q : Fin 256) :
    iblk m c 3 t (ix2 k q) = V m c main_v2 (ix2 k q) := by
  obtain ⟨-, -, -, -, -, -, -, -, e0, e1, -⟩ := idx_facts t
  show V m c main_v2 (((cfg0.win 3).blk t).view.emb (ix2 k q)) = _
  congr 1
  funext a; apply Fin.ext
  match a with
  | ⟨0, _⟩ => show win0_3.index t (0 : Fin 2) * 196 + 1 * k.val = k.val; omega
  | ⟨1, _⟩ => show win0_3.index t (1 : Fin 2) * 256 + 1 * q.val = q.val; omega

theorem iblk4_apply (c : Dev nD) (t : Fin cfg0.N) (k : Fin 49) (q : Fin 512) :
    iblk m c 4 t (ix2 k q) = V m c main_v3 (ix2 k q) := by
  obtain ⟨-, -, -, -, -, -, -, -, -, -, e0, e1⟩ := idx_facts t
  show V m c main_v3 (((cfg0.win 4).blk t).view.emb (ix2 k q)) = _
  congr 1
  funext a; apply Fin.ext
  match a with
  | ⟨0, _⟩ => show win0_4.index t (0 : Fin 2) * 49 + 1 * k.val = k.val; omega
  | ⟨1, _⟩ => show win0_4.index t (1 : Fin 2) * 512 + 1 * q.val = q.val; omega

/-- Row r, column q of the output block at point t is row 1000·t + r, column q of the result. -/
theorem emb5 (t : Fin cfg0.N) (r : Fin 1000) (q : Fin 963) (hn : t.val * 1000 + r.val < 100000) :
    ((cfg0.win 5).blk t).view.emb (ix2 r q) = ix2 (⟨t.val * 1000 + r.val, hn⟩ : Fin 100000) q := by
  obtain ⟨-, -, e0, e1, -⟩ := idx_facts t
  funext a; apply Fin.ext
  match a with
  | ⟨0, _⟩ => show win0_5.index t (0 : Fin 2) * 1000 + 1 * r.val = t.val * 1000 + r.val; omega
  | ⟨1, _⟩ => show win0_5.index t (1 : Fin 2) * 963 + 1 * q.val = q.val; omega

/-! ## The flattened feature arrays -/

theorem V_main_v0 (c : Dev nD) :
    (V m c main_v0 : S3136x64.Idx → EReal) = shapeCast S3136x64 (m ((c : Thread nD τ).loc main_arg1)) shapeCasts_S56x56x64_S3136x64 := by
  dsimp only [Gen.V, Gen.hostOps0]; after_results; rfl

theorem V_main_v1 (c : Dev nD) :
    (V m c main_v1 : S784x128.Idx → EReal) = shapeCast S784x128 (m ((c : Thread nD τ).loc main_arg2)) shapeCasts_S28x28x128_S784x128 := by
  dsimp only [Gen.V, Gen.hostOps0]; after_results; rfl

theorem V_main_v2 (c : Dev nD) :
    (V m c main_v2 : S196x256.Idx → EReal) = shapeCast S196x256 (m ((c : Thread nD τ).loc main_arg3)) shapeCasts_S14x14x256_S196x256 := by
  dsimp only [Gen.V, Gen.hostOps0]; after_results; rfl

theorem V_main_v3 (c : Dev nD) :
    (V m c main_v3 : S49x512.Idx → EReal) = shapeCast S49x512 (m ((c : Thread nD τ).loc main_arg4)) shapeCasts_S7x7x512_S49x512 := by
  dsimp only [Gen.V, Gen.hostOps0]; after_results; rfl

/-- Row i·56 + j of the first flattened array is position (i, j) of the first map. -/
theorem V_main_v0_apply (c : Dev nD) (i j : Fin 56) (q : Fin 64) (k : Fin 3136) (hk : k.val = i.val * 56 + j.val) :
    V m c main_v0 (ix2 k q) = m ((c : Thread nD τ).loc main_arg1) (ix3 i j q) := by
  have e := congrFun (V_main_v0 m c) (ix2 k q)
  refine e.trans (shapeCast_apply _ _ (ix2 k q) (ix3 i j q) ?_)
  rw [Shape.rowMajor_val_three, Shape.rowMajor_val_two]
  show (i.val * 56 + j.val) * 64 + q.val = k.val * 64 + q.val
  rw [hk]

theorem V_main_v1_apply (c : Dev nD) (i j : Fin 28) (q : Fin 128) (k : Fin 784) (hk : k.val = i.val * 28 + j.val) :
    V m c main_v1 (ix2 k q) = m ((c : Thread nD τ).loc main_arg2) (ix3 i j q) := by
  have e := congrFun (V_main_v1 m c) (ix2 k q)
  refine e.trans (shapeCast_apply _ _ (ix2 k q) (ix3 i j q) ?_)
  rw [Shape.rowMajor_val_three, Shape.rowMajor_val_two]
  show (i.val * 28 + j.val) * 128 + q.val = k.val * 128 + q.val
  rw [hk]

theorem V_main_v2_apply (c : Dev nD) (i j : Fin 14) (q : Fin 256) (k : Fin 196) (hk : k.val = i.val * 14 + j.val) :
    V m c main_v2 (ix2 k q) = m ((c : Thread nD τ).loc main_arg3) (ix3 i j q) := by
  have e := congrFun (V_main_v2 m c) (ix2 k q)
  refine e.trans (shapeCast_apply _ _ (ix2 k q) (ix3 i j q) ?_)
  rw [Shape.rowMajor_val_three, Shape.rowMajor_val_two]
  show (i.val * 14 + j.val) * 256 + q.val = k.val * 256 + q.val
  rw [hk]

theorem V_main_v3_apply (c : Dev nD) (i j : Fin 7) (q : Fin 512) (k : Fin 49) (hk : k.val = i.val * 7 + j.val) :
    V m c main_v3 (ix2 k q) = m ((c : Thread nD τ).loc main_arg4) (ix3 i j q) := by
  have e := congrFun (V_main_v3 m c) (ix2 k q)
  refine e.trans (shapeCast_apply _ _ (ix2 k q) (ix3 i j q) ?_)
  rw [Shape.rowMajor_val_three, Shape.rowMajor_val_two]
  show (i.val * 7 + j.val) * 512 + q.val = k.val * 512 + q.val
  rw [hk]

/-! ## The output blocks tile the result -/

/-- An index of the result is in point t's block iff each coordinate is in the block's range on its axis. -/
theorem mem_blk5 (t : Fin cfg0.N) (i : S100000x963.Idx) :
    i ∈ ((cfg0.win 5).blk t).view.set ↔ ∀ a : Fin 2, win0_5.index t a * S1000x963.size a ≤ (i a).val ∧ (i a).val < win0_5.index t a * S1000x963.size a + S1000x963.size a := by
  show i ∈ ((View.whole main_v4).slice (win0_5.rect t)).set ↔ _
  rw [View.set_slice_whole, Rect.mem_set_unit]
  exact Iff.rfl

/-- Every row of the result is in the block of the point its thousand names. -/
theorem cover5 (i : S100000x963.Idx) :
    ∃ t : Fin cfg0.N, (cfg0.win 5).flush t = true ∧ i ∈ ((cfg0.win 5).blk t).view.set := by
  have hi0 : (i 0).val < 100000 := (i 0).isLt
  have hi1 : (i 1).val < 963 := (i 1).isLt
  have ht : (i 0).val / 1000 < cfg0.N := by rw [N_eq]; omega
  refine ⟨⟨(i 0).val / 1000, ht⟩, flush0_5 _, ?_⟩
  rw [mem_blk5]
  obtain ⟨-, -, e2, e3, -⟩ := idx_facts ⟨(i 0).val / 1000, ht⟩
  intro a
  match a with
  | ⟨0, _⟩ =>
    show win0_5.index ⟨(i 0).val / 1000, ht⟩ (0 : Fin 2) * 1000 ≤ (i 0).val ∧ (i 0).val < win0_5.index ⟨(i 0).val / 1000, ht⟩ (0 : Fin 2) * 1000 + 1000
    rw [e2]; show (i 0).val / 1000 * 1000 ≤ (i 0).val ∧ (i 0).val < (i 0).val / 1000 * 1000 + 1000; omega
  | ⟨1, _⟩ =>
    show win0_5.index ⟨(i 0).val / 1000, ht⟩ (1 : Fin 2) * 963 ≤ (i 1).val ∧ (i 1).val < win0_5.index ⟨(i 0).val / 1000, ht⟩ (1 : Fin 2) * 963 + 963
    rw [e3]; omega

end Cert.KernelBlocks

end
-- ==== Proof.Spec.lean ====
/-
  One bilinear sample of a feature map, as two scalar expressions on the extended reals.

  A point's projected pixel coordinates are `250·a / (−z) + 112` clipped to [0, 223] (`pix`). On a pyramid level of
  stride `s` the sampling position along an axis is `p = h / s`; its lower corner is `⌊p⌋` and its upper corner
  `min ⌈p⌉ top`, `top` the axis's last index. Both programs weigh the lower corner by `upper − p` and the upper corner
  by `p − lower` on each axis.

  `kform` is the sample as a product with a weight matrix: the sum over every flattened position `k = i·W + j` of the map
  of (row weight at i) · (column weight at j) · (map entry k), where an axis's weight at a position is the lower corner's
  weight if the position's 32-bit word is the lower corner's index word, plus the upper corner's weight if it is the upper
  corner's index word (both, when the two corners coincide).

  `rform` is the sample as four looked-up corners: the four products of one row weight and one column weight, each times
  the map entry at the corresponding pair of corner positions; a corner position is read off its index word the way a
  gather reads it (a negative word wrapped by the extent, the word read signed, the result clamped into the axis).
-/
import Idealize.ShloMosaic.PureOps.Ideal
import Mathlib

noncomputable section

namespace Cert.Bilin

open Idealize.ShloMosaic

/-- The extended real an f32 word denotes. -/
abbrev lit (b : BitVec 32) : EReal := Ideal.ofBits .f32 b

/-- A projected pixel coordinate: `250·a / (−z) + 112`, clipped below at 0 and above at 223. -/
def pix (a z : EReal) : EReal :=
  min (lit 0x435F0000#32) (max (lit 0x00000000#32) (Ideal.div (lit 0x437A0000#32 * a) (-z) + lit 0x42E00000#32))

/-- The sampling position on a level of stride `s`. -/
def pos (h s : EReal) : EReal := Ideal.div h s

/-- The lower corner: the position rounded down. -/
def lo (p : EReal) : EReal := Ideal.liftRound Int.floor p

/-- The upper corner: the position rounded up, capped at the axis's last index. -/
def hi (p top : EReal) : EReal := min (Ideal.liftRound Int.ceil p) top

/-- An axis's weight at position `i`, matrix form: `upper − p` where `i`'s word is the lower corner's index word, plus
    `p − lower` where it is the upper corner's. -/
def wk (p top : EReal) (i : ℕ) : EReal :=
  Scalar.select (IntOp.cmpi .eq (BitVec.ofNat 32 i) (Ideal.fptosi 32 (lo p))) (hi p top - p) (lit 0x00000000#32)
    + Scalar.select (IntOp.cmpi .eq (BitVec.ofNat 32 i) (Ideal.fptosi 32 (hi p top))) (p - lo p) (lit 0x00000000#32)

/-- The sample as a weight row times the flattened map: position `k` of the `K` flattened positions is row `k / W`,
    column `k % W`. -/
def kform (W K : ℕ) (s topx topy h w : EReal) (f : Fin K → EReal) : EReal :=
  ∑ k : Fin K, (wk (pos h s) topx (k.val / W) * wk (pos w s) topy (k.val % W)) * f k

/-- Where a gather reads on an axis of extent `n` from an index word: a negative word wrapped by `n`, the word read
    signed, clamped into `[0, n − 1]`. -/
def gpos (n : ℕ) (hn : 0 < n) (wd : BitVec 32) : Fin n :=
  ⟨min (Scalar.select (IntOp.cmpi .slt wd 0#32) (IntOp.addi wd (BitVec.ofNat 32 n)) wd).toInt.toNat (n - 1), by omega⟩

/-- The sample as four looked-up corners, summed in the order lower-lower, upper-lower, lower-upper, upper-upper. -/
def rform (H W : ℕ) (hH : 0 < H) (hW : 0 < W) (s topx topy h w : EReal) (f : Fin H → Fin W → EReal) : EReal :=
  (hi (pos h s) topx - pos h s) * (hi (pos w s) topy - pos w s)
      * f (gpos H hH (Ideal.fptosi 32 (lo (pos h s)))) (gpos W hW (Ideal.fptosi 32 (lo (pos w s))))
    + (pos h s - lo (pos h s)) * (hi (pos w s) topy - pos w s)
      * f (gpos H hH (Ideal.fptosi 32 (hi (pos h s) topx))) (gpos W hW (Ideal.fptosi 32 (lo (pos w s))))
    + (hi (pos h s) topx - pos h s) * (pos w s - lo (pos w s))
      * f (gpos H hH (Ideal.fptosi 32 (lo (pos h s)))) (gpos W hW (Ideal.fptosi 32 (hi (pos w s) topy)))
    + (pos h s - lo (pos h s)) * (pos w s - lo (pos w s))
      * f (gpos H hH (Ideal.fptosi 32 (hi (pos h s) topx))) (gpos W hW (Ideal.fptosi 32 (hi (pos w s) topy)))

end Cert.Bilin

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«178287_j74071005986926_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.KernelRead.lean ====
/-
  What the kernel body stores, read entry by entry on the extended reals.

  The body stores one [1000, 963] block: the three coordinate columns, then, for each of the four pyramid levels, the
  level's samples. A level of extent H × W builds, per row, a weight vector along each axis (two one-hot selections
  added: the lower corner weighted by upper − p, the upper corner by p − lower), takes their outer product, flattens
  it row-major to H·W positions and multiplies it by the flattened map. Read at row r and channel c this is the sum
  over the flattened positions k of (row weight at k / W) · (column weight at k % W) · (map entry (k, c)) — the
  matrix form of the bilinear sample.
-/
import proofs.«178287_j74071005986926_2_alg».proof.Proof.Gen.KernelIdeal.Frame
import proofs.«178287_j74071005986926_2_alg».proof.Proof.Spec
import proofs.«178287_j74071005986926_2_alg».proof.Proof.LibPlainProduct
import Idealize.ShloMosaic.Lib.ValueIdx
import Idealize.ShloMosaic.Lib.Pipeline.Value
import Idealize.ShloMosaic.Lib.ValueLayout
import Idealize.ShloMosaic.PureOps.Ideal.Laws

noncomputable section

namespace Cert.KernelRead

open Cert.KernelIdeal Cert.KernelIdeal.Gen Cert.Bilin Idealize.ShloMosaic Idealize.ShloMosaic.ValueIdx

/-! ## Layout operations of the body, read at an index -/

section Layout
variable {α : Type}

/-- A vector viewed as a column and broadcast along a new trailing axis reads its own entry in every column. -/
theorem column_apply {A n : ℕ} (v : (⟨1, ![A]⟩ : Shape).Idx → α)
    (h1 : (⟨1, ![A]⟩ : Shape).ShapeCasts ⟨2, ![A, 1]⟩) (h2 : (⟨2, ![A, 1]⟩ : Shape).Broadcasts ⟨2, ![A, n]⟩)
    (r : Fin A) (i : Fin n) :
    broadcastTo ⟨2, ![A, n]⟩ (shapeCast ⟨2, ![A, 1]⟩ v h1) h2 (ix2 r i) = v (ix1 r) := by
  refine (broadcastTo_apply _ h2 (ix2 r i) (ix2 r (0 : Fin 1)) (fun a => ?_)).trans ?_
  · match a with
    | ⟨0, _⟩ =>
      show r.val = if A = 1 then 0 else r.val
      split
      · have := r.isLt; omega
      · rfl
    | ⟨1, _⟩ => rfl
  · exact shapeCast_apply v h1 _ _ (by
      rw [Shape.rowMajor_val_two, Shape.rowMajor_val_one]
      show r.val = r.val * 1 + 0
      omega)

/-- The same with the column cast once more to its own shape, as the body does on the way. -/
theorem column_apply' {A n : ℕ} (v : (⟨1, ![A]⟩ : Shape).Idx → α)
    (h1 : (⟨1, ![A]⟩ : Shape).ShapeCasts ⟨2, ![A, 1]⟩) (h3 : (⟨2, ![A, 1]⟩ : Shape).ShapeCasts ⟨2, ![A, 1]⟩)
    (h2 : (⟨2, ![A, 1]⟩ : Shape).Broadcasts ⟨2, ![A, n]⟩) (r : Fin A) (i : Fin n) :
    broadcastTo ⟨2, ![A, n]⟩ (shapeCast ⟨2, ![A, 1]⟩ (shapeCast ⟨2, ![A, 1]⟩ v h1) h3) h2 (ix2 r i) = v (ix1 r) := by
  rw [shapeCast_self]
  exact column_apply v h1 h2 r i

/-- A [A, H] matrix viewed [A, H, 1] and broadcast to [A, H, W] reads (r, i) at (r, i, j). -/
theorem rows_apply {A H W : ℕ} (v : (⟨2, ![A, H]⟩ : Shape).Idx → α)
    (h1 : (⟨2, ![A, H]⟩ : Shape).ShapeCasts ⟨3, ![A, H, 1]⟩) (h2 : (⟨3, ![A, H, 1]⟩ : Shape).Broadcasts ⟨3, ![A, H, W]⟩)
    (r : Fin A) (i : Fin H) (j : Fin W) :
    broadcastTo ⟨3, ![A, H, W]⟩ (shapeCast ⟨3, ![A, H, 1]⟩ v h1) h2 (ix3 r i j) = v (ix2 r i) := by
  refine (broadcastTo_apply _ h2 (ix3 r i j) (ix3 r i (0 : Fin 1)) (fun a => ?_)).trans ?_
  · match a with
    | ⟨0, _⟩ =>
      show r.val = if A = 1 then 0 else r.val
      split
      · have := r.isLt; omega
      · rfl
    | ⟨1, _⟩ =>
      show i.val = if H = 1 then 0 else i.val
      split
      · have := i.isLt; omega
      · rfl
    | ⟨2, _⟩ => rfl
  · exact shapeCast_apply v h1 _ _ (by
      rw [Shape.rowMajor_val_two, Shape.rowMajor_val_three]
      show r.val * H + i.val = (r.val * H + i.val) * 1 + 0
      omega)

/-- A [A, W] matrix viewed [A, 1, W] and broadcast to [A, H, W] reads (r, j) at (r, i, j). -/
theorem cols_apply {A H W : ℕ} (v : (⟨2, ![A, W]⟩ : Shape).Idx → α)
    (h1 : (⟨2, ![A, W]⟩ : Shape).ShapeCasts ⟨3, ![A, 1, W]⟩) (h2 : (⟨3, ![A, 1, W]⟩ : Shape).Broadcasts ⟨3, ![A, H, W]⟩)
    (r : Fin A) (i : Fin H) (j : Fin W) :
    broadcastTo ⟨3, ![A, H, W]⟩ (shapeCast ⟨3, ![A, 1, W]⟩ v h1) h2 (ix3 r i j) = v (ix2 r j) := by
  refine (broadcastTo_apply _ h2 (ix3 r i j) (ix3 r (0 : Fin 1) j) (fun a => ?_)).trans ?_
  · match a with
    | ⟨0, _⟩ =>
      show r.val = if A = 1 then 0 else r.val
      split
      · have := r.isLt; omega
      · rfl
    | ⟨1, _⟩ => rfl
    | ⟨2, _⟩ =>
      show j.val = if W = 1 then 0 else j.val
      split
      · have := j.isLt; omega
      · rfl
  · exact shapeCast_apply v h1 _ _ (by
      rw [Shape.rowMajor_val_two, Shape.rowMajor_val_three]
      show r.val * W + j.val = (r.val * 1 + 0) * W + j.val
      rw [Nat.mul_one, Nat.add_zero])

/-- An [A, H, W] array flattened to [A, K], K = H·W, reads position k of a row at (k / W, k % W). -/
theorem flat_apply {A H W K : ℕ} (v : (⟨3, ![A, H, W]⟩ : Shape).Idx → α)
    (h : (⟨3, ![A, H, W]⟩ : Shape).ShapeCasts ⟨2, ![A, K]⟩) (hK : K = H * W) (hW : 0 < W)
    (r : Fin A) (k : Fin K) :
    shapeCast ⟨2, ![A, K]⟩ v h (ix2 r k)
      = v (ix3 r (⟨k.val / W, Nat.div_lt_of_lt_mul (lt_of_lt_of_eq k.isLt (hK.trans (Nat.mul_comm H W)))⟩ : Fin H)
          (⟨k.val % W, Nat.mod_lt _ hW⟩ : Fin W)) := by
  refine shapeCast_apply v h _ _ ?_
  rw [Shape.rowMajor_val_two, Shape.rowMajor_val_three]
  show (r.val * H + k.val / W) * W + k.val % W = r.val * K + k.val
  have e1 := Nat.div_add_mod k.val W
  have e2 : k.val / W * W = W * (k.val / W) := Nat.mul_comm _ _
  have e3 : r.val * K = r.val * H * W := by rw [hK, Nat.mul_assoc]
  rw [Nat.add_mul]
  omega

end Layout

/-! ## A level's two weight vectors and its product with the map, as the body writes them -/

/-- The zero word is the real zero. -/
theorem lit_zero : lit 0x00000000#32 = 0 := Ideal.ofBits_zero_f32

/-- An axis's weight vector over the rows, [1000, n]: where the column's index word is the lower corner's the
    weight upper − p, else zero; plus, where it is the upper corner's, the weight p − lower, else zero. The position
    `p`, its lower corner `l` and its capped upper corner `u` are the row vectors the body computed before. -/
def wvec (n : ℕ) (h1 : (⟨1, ![1000]⟩ : Shape).ShapeCasts ⟨2, ![1000, 1]⟩)
    (h3 : (⟨2, ![1000, 1]⟩ : Shape).ShapeCasts ⟨2, ![1000, 1]⟩)
    (h2 : (⟨2, ![1000, 1]⟩ : Shape).Broadcasts ⟨2, ![1000, n]⟩)
    (hio : (⟨2, ![1000, n]⟩ : Shape).Iotas .tc 32 [1])
    (p l u : FVec Ideal ⟨1, ![1000]⟩ .f32) : FVec Ideal ⟨2, ![1000, n]⟩ .f32 :=
  addf
    (select (cmpi .eq (iota .tc ⟨2, ![1000, n]⟩ 32 [1] hio)
        (broadcastTo ⟨2, ![1000, n]⟩ (shapeCast ⟨2, ![1000, 1]⟩ (fptosi 32 l) h1) h2))
      (broadcastTo ⟨2, ![1000, n]⟩ (shapeCast ⟨2, ![1000, 1]⟩ (shapeCast ⟨2, ![1000, 1]⟩ (subf u p) h1) h3) h2)
      (broadcast ⟨2, ![1000, n]⟩ (Scalar.ofBits .f32 0x00000000#32)))
    (select (cmpi .eq (iota .tc ⟨2, ![1000, n]⟩ 32 [1] hio)
        (broadcastTo ⟨2, ![1000, n]⟩ (shapeCast ⟨2, ![1000, 1]⟩ (fptosi 32 u) h1) h2))
      (broadcastTo ⟨2, ![1000, n]⟩ (shapeCast ⟨2, ![1000, 1]⟩ (shapeCast ⟨2, ![1000, 1]⟩ (subf p l) h1) h3) h2)
      (broadcast ⟨2, ![1000, n]⟩ (Scalar.ofBits .f32 0x00000000#32)))

/-- The weight vector at row r, column i is the specification's weight of position i, once the three row vectors
    are known at r. -/
theorem wvec_apply (n : ℕ) (h1 : (⟨1, ![1000]⟩ : Shape).ShapeCasts ⟨2, ![1000, 1]⟩)
    (h3 : (⟨2, ![1000, 1]⟩ : Shape).ShapeCasts ⟨2, ![1000, 1]⟩)
    (h2 : (⟨2, ![1000, 1]⟩ : Shape).Broadcasts ⟨2, ![1000, n]⟩)
    (hio : (⟨2, ![1000, n]⟩ : Shape).Iotas .tc 32 [1])
    (p l u : FVec Ideal ⟨1, ![1000]⟩ .f32) (r : Fin 1000) (P top : EReal)
    (hp : p (ix1 r) = P) (hl : l (ix1 r) = lo P) (hu : u (ix1 r) = hi P top) (i : Fin n) :
    wvec n h1 h3 h2 hio p l u (ix2 r i) = wk P top i.val := by
  unfold wvec wk
  rw [addf_apply, select_apply, select_apply]
  have eio : iota .tc ⟨2, ![1000, n]⟩ 32 [1] hio (ix2 r i) = BitVec.ofNat 32 i.val :=
    iota_single_apply .tc ⟨2, ![1000, n]⟩ 32 1 hio (ix2 r i)
  have el : broadcastTo ⟨2, ![1000, n]⟩ (shapeCast ⟨2, ![1000, 1]⟩ (fptosi 32 l) h1) h2 (ix2 r i)
      = Ideal.fptosi 32 (lo P) := (column_apply _ h1 h2 r i).trans (by
    show Ideal.fptosi 32 (l (ix1 r)) = _
    rw [hl])
  have eu : broadcastTo ⟨2, ![1000, n]⟩ (shapeCast ⟨2, ![1000, 1]⟩ (fptosi 32 u) h1) h2 (ix2 r i)
      = Ideal.fptosi 32 (hi P top) := (column_apply _ h1 h2 r i).trans (by
    show Ideal.fptosi 32 (u (ix1 r)) = _
    rw [hu])
  have e1 : broadcastTo ⟨2, ![1000, n]⟩ (shapeCast ⟨2, ![1000, 1]⟩ (shapeCast ⟨2, ![1000, 1]⟩ (subf u p) h1) h3) h2 (ix2 r i)
      = hi P top - P := (column_apply' _ h1 h3 h2 r i).trans (by
    show u (ix1 r) - p (ix1 r) = _
    rw [hu, hp])
  have e2 : broadcastTo ⟨2, ![1000, n]⟩ (shapeCast ⟨2, ![1000, 1]⟩ (shapeCast ⟨2, ![1000, 1]⟩ (subf p l) h1) h3) h2 (ix2 r i)
      = P - lo P := (column_apply' _ h1 h3 h2 r i).trans (by
    show p (ix1 r) - l (ix1 r) = _
    rw [hp, hl])
  show Scalar.select (IntOp.cmpi .eq (iota .tc ⟨2, ![1000, n]⟩ 32 [1] hio (ix2 r i)) _) _ _
      + Scalar.select (IntOp.cmpi .eq (iota .tc ⟨2, ![1000, n]⟩ 32 [1] hio (ix2 r i)) _) _ _ = _
  rw [eio, el, eu, e1, e2]
  rfl

/-- A level's samples, [1000, C]: the two weight vectors' outer product, flattened row-major to K = H·W positions,
    times the flattened map, into a zero accumulator. -/
def lvl (H W K C : ℕ)
    (hA : (⟨2, ![1000, H]⟩ : Shape).ShapeCasts ⟨3, ![1000, H, 1]⟩)
    (hB : (⟨3, ![1000, H, 1]⟩ : Shape).Broadcasts ⟨3, ![1000, H, W]⟩)
    (hC : (⟨2, ![1000, W]⟩ : Shape).ShapeCasts ⟨3, ![1000, 1, W]⟩)
    (hD : (⟨3, ![1000, 1, W]⟩ : Shape).Broadcasts ⟨3, ![1000, H, W]⟩)
    (hE : (⟨3, ![1000, H, W]⟩ : Shape).ShapeCasts ⟨2, ![1000, K]⟩)
    (hF : (⟨2, ![K, C]⟩ : Shape).ShapeCasts ⟨2, ![K, C]⟩)
    (wx : FVec Ideal ⟨2, ![1000, H]⟩ .f32) (wy : FVec Ideal ⟨2, ![1000, W]⟩ .f32)
    (f : FVec Ideal ⟨2, ![K, C]⟩ .f32) : FVec Ideal ⟨2, ![1000, C]⟩ .f32 :=
  matmul (DotDims.plain 1000 K C) none
    (shapeCast ⟨2, ![1000, K]⟩
      (mulf (broadcastTo ⟨3, ![1000, H, W]⟩ (shapeCast ⟨3, ![1000, H, 1]⟩ wx hA) hB)
        (broadcastTo ⟨3, ![1000, H, W]⟩ (shapeCast ⟨3, ![1000, 1, W]⟩ wy hC) hD)) hE)
    (shapeCast ⟨2, ![K, C]⟩ f hF)
    (constant ⟨2, ![1000, C]⟩ .f32 0x00000000#32)

/-- Read at row r and channel c: the sum over the flattened positions of row weight · column weight · map entry. -/
theorem lvl_apply (H W K C : ℕ)
    (hA : (⟨2, ![1000, H]⟩ : Shape).ShapeCasts ⟨3, ![1000, H, 1]⟩)
    (hB : (⟨3, ![1000, H, 1]⟩ : Shape).Broadcasts ⟨3, ![1000, H, W]⟩)
    (hC : (⟨2, ![1000, W]⟩ : Shape).ShapeCasts ⟨3, ![1000, 1, W]⟩)
    (hD : (⟨3, ![1000, 1, W]⟩ : Shape).Broadcasts ⟨3, ![1000, H, W]⟩)
    (hE : (⟨3, ![1000, H, W]⟩ : Shape).ShapeCasts ⟨2, ![1000, K]⟩)
    (hF : (⟨2, ![K, C]⟩ : Shape).ShapeCasts ⟨2, ![K, C]⟩)
    (wx : FVec Ideal ⟨2, ![1000, H]⟩ .f32) (wy : FVec Ideal ⟨2, ![1000, W]⟩ .f32)
    (f : FVec Ideal ⟨2, ![K, C]⟩ .f32) (hK : K = H * W) (hW : 0 < W) (r : Fin 1000) (c : Fin C) :
    lvl H W K C hA hB hC hD hE hF wx wy f (ix2 r c)
      = ∑ k : Fin K,
          (wx (ix2 r (⟨k.val / W, Nat.div_lt_of_lt_mul (lt_of_lt_of_eq k.isLt (hK.trans (Nat.mul_comm H W)))⟩ : Fin H))
            * wy (ix2 r (⟨k.val % W, Nat.mod_lt _ hW⟩ : Fin W))) * f (ix2 k c) := by
  unfold lvl
  refine (PlainProduct.matmul_zero_at 1000 K C _ _ r c).trans ?_
  refine Finset.sum_congr rfl fun k _ => ?_
  rw [shapeCast_self]
  refine congrArg (· * f (ix2 k c)) ?_
  refine (flat_apply _ hE hK hW r k).trans ?_
  rw [mulf_apply, rows_apply, cols_apply]

/-! ## The row vectors of a level: position, lower corner, capped upper corner -/

/-- The sampling positions of the rows on a level of stride word `sw`, from the rows' pixel coordinates. -/
def posv (hv : FVec Ideal ⟨1, ![1000]⟩ .f32) (sw : BitVec 32) : FVec Ideal ⟨1, ![1000]⟩ .f32 :=
  divf hv (broadcast ⟨1, ![1000]⟩ (Scalar.ofBits .f32 sw))

/-- Their lower corners. -/
def lov (hv : FVec Ideal ⟨1, ![1000]⟩ .f32) (sw : BitVec 32) : FVec Ideal ⟨1, ![1000]⟩ .f32 :=
  floor (posv hv sw)

/-- Their upper corners, capped at the last index word `tw`. -/
def hiv (hv : FVec Ideal ⟨1, ![1000]⟩ .f32) (sw tw : BitVec 32) : FVec Ideal ⟨1, ![1000]⟩ .f32 :=
  minimumf (ceil (posv hv sw)) (broadcast ⟨1, ![1000]⟩ (Scalar.ofBits .f32 tw))

theorem posv_apply (hv : FVec Ideal ⟨1, ![1000]⟩ .f32) (sw : BitVec 32) (r : Fin 1000) :
    posv hv sw (ix1 r) = pos (hv (ix1 r)) (lit sw) := rfl

theorem lov_apply (hv : FVec Ideal ⟨1, ![1000]⟩ .f32) (sw : BitVec 32) (r : Fin 1000) :
    lov hv sw (ix1 r) = lo (pos (hv (ix1 r)) (lit sw)) := rfl

theorem hiv_apply (hv : FVec Ideal ⟨1, ![1000]⟩ .f32) (sw tw : BitVec 32) (r : Fin 1000) :
    hiv hv sw tw (ix1 r) = hi (pos (hv (ix1 r)) (lit sw)) (lit tw) := rfl

/-- A level read at row r and channel c is the specification's matrix form of the sample, of the row's two pixel
    coordinates. -/
theorem level_read (H W K C : ℕ)
    (hA : (⟨2, ![1000, H]⟩ : Shape).ShapeCasts ⟨3, ![1000, H, 1]⟩)
    (hB : (⟨3, ![1000, H, 1]⟩ : Shape).Broadcasts ⟨3, ![1000, H, W]⟩)
    (hC : (⟨2, ![1000, W]⟩ : Shape).ShapeCasts ⟨3, ![1000, 1, W]⟩)
    (hD : (⟨3, ![1000, 1, W]⟩ : Shape).Broadcasts ⟨3, ![1000, H, W]⟩)
    (hE : (⟨3, ![1000, H, W]⟩ : Shape).ShapeCasts ⟨2, ![1000, K]⟩)
    (hF : (⟨2, ![K, C]⟩ : Shape).ShapeCasts ⟨2, ![K, C]⟩)
    (h1 : (⟨1, ![1000]⟩ : Shape).ShapeCasts ⟨2, ![1000, 1]⟩)
    (h3 : (⟨2, ![1000, 1]⟩ : Shape).ShapeCasts ⟨2, ![1000, 1]⟩)
    (h2x : (⟨2, ![1000, 1]⟩ : Shape).Broadcasts ⟨2, ![1000, H]⟩)
    (hiox : (⟨2, ![1000, H]⟩ : Shape).Iotas .tc 32 [1])
    (h2y : (⟨2, ![1000, 1]⟩ : Shape).Broadcasts ⟨2, ![1000, W]⟩)
    (hioy : (⟨2, ![1000, W]⟩ : Shape).Iotas .tc 32 [1])
    (hK : K = H * W) (hW : 0 < W)
    (hv wv : FVec Ideal ⟨1, ![1000]⟩ .f32) (sw tx ty : BitVec 32) (f : FVec Ideal ⟨2, ![K, C]⟩ .f32)
    (r : Fin 1000) (c : Fin C) :
    lvl H W K C hA hB hC hD hE hF
        (wvec H h1 h3 h2x hiox (posv hv sw) (lov hv sw) (hiv hv sw tx))
        (wvec W h1 h3 h2y hioy (posv wv sw) (lov wv sw) (hiv wv sw ty)) f (ix2 r c)
      = kform W K (lit sw) (lit tx) (lit ty) (hv (ix1 r)) (wv (ix1 r)) (fun k => f (ix2 k c)) := by
  rw [lvl_apply H W K C hA hB hC hD hE hF _ _ f hK hW r c]
  unfold kform
  refine Finset.sum_congr rfl fun k _ => ?_
  rw [wvec_apply H h1 h3 h2x hiox _ _ _ r _ (lit tx) (posv_apply hv sw r) (lov_apply hv sw r) (hiv_apply hv sw tx r),
    wvec_apply W h1 h3 h2y hioy _ _ _ r _ (lit ty) (posv_apply wv sw r) (lov_apply wv sw r) (hiv_apply wv sw ty r)]

/-! ## The rows' pixel coordinates -/

/-- Column `c` of the coordinates block, cut out as a [1000, 1] slice and viewed as a vector, reads (r, c) at r. -/
theorem slice_col (x0 : Vec Ideal S1000x3 .f32) (o : ℕ) (c : Fin 3) (hc : c.val = o)
    (h : S1000x3.Slices ![0, o] S1000x1) (h' : S1000x1.ShapeCasts S1000) (r : Fin 1000) :
    shapeCast S1000 (extractStridedSlice S1000x1 ![0, o] x0 h) h' (ix1 r) = x0 (ix2 r c) := by
  refine (shapeCast_apply _ h' (ix1 r) (ix2 r (0 : Fin 1)) ?_).trans ?_
  · rw [Shape.rowMajor_val_two, Shape.rowMajor_val_one]
    show r.val * 1 + 0 = r.val
    omega
  · refine extractStridedSlice_apply ![0, o] x0 h (ix2 r (0 : Fin 1)) (ix2 r c) (fun a => ?_)
    match a with
    | ⟨0, _⟩ =>
      show r.val = 0 + r.val
      omega
    | ⟨1, _⟩ =>
      show c.val = o + 0
      omega

/-- Zero less a value is its negation. -/
theorem lit_zero_sub (v : EReal) : lit 0x00000000#32 - v = -v := by
  rw [lit_zero, zero_sub]

/-- The pixel coordinate along the map's first axis of row r: from the negated second coordinate over the negated
    third. -/
def rowH (x0 : Vec Ideal S1000x3 .f32) (r : Fin 1000) : EReal :=
  pix (-(x0 (ix2 r (1 : Fin 3)))) (x0 (ix2 r (2 : Fin 3)))

/-- The pixel coordinate along the map's second axis of row r: from the first coordinate over the negated third. -/
def rowW (x0 : Vec Ideal S1000x3 .f32) (r : Fin 1000) : EReal :=
  pix (x0 (ix2 r (0 : Fin 3))) (x0 (ix2 r (2 : Fin 3)))

/-- The negated third coordinate, as the body computes it. -/
theorem pay3_apply (x0 : Vec Ideal S1000x3 .f32) (r : Fin 1000) :
    k0_pay3 (F := Ideal) x0 (ix1 r) = -(x0 (ix2 r (2 : Fin 3))) := by
  unfold k0_pay3
  show lit 0x00000000#32 - shapeCast S1000 (extractStridedSlice S1000x1 ![0, 2] x0 _) _ (ix1 r) = _
  rw [slice_col x0 2 2 rfl, lit_zero_sub]

theorem pay4_apply (x0 : Vec Ideal S1000x3 .f32) (r : Fin 1000) :
    k0_pay4 (F := Ideal) x0 (ix1 r) = rowH x0 r := by
  unfold k0_pay4 rowH pix
  show min (lit 0x435F0000#32) (max (lit 0x00000000#32)
      (Ideal.div (lit 0x437A0000#32 * (lit 0x00000000#32 - shapeCast S1000 (extractStridedSlice S1000x1 ![0, 1] x0 _) _ (ix1 r)))
        (k0_pay3 (F := Ideal) x0 (ix1 r)) + lit 0x42E00000#32)) = _
  rw [slice_col x0 1 1 rfl, lit_zero_sub, pay3_apply]

theorem pay5_apply (x0 : Vec Ideal S1000x3 .f32) (r : Fin 1000) :
    k0_pay5 (F := Ideal) x0 (ix1 r) = rowW x0 r := by
  unfold k0_pay5 rowW pix
  show min (lit 0x435F0000#32) (max (lit 0x00000000#32)
      (Ideal.div (lit 0x437A0000#32 * shapeCast S1000 (extractStridedSlice S1000x1 ![0, 0] x0 _) _ (ix1 r))
        (k0_pay3 (F := Ideal) x0 (ix1 r)) + lit 0x42E00000#32)) = _
  rw [slice_col x0 0 0 rfl, pay3_apply]

/-! ## The stored row, piece by piece

The kernel's one store writes, for each of its 1000 rows, the concatenation along the columns of five pieces of widths
3, 64, 128, 256, 512 (963 columns in all). Column `pre + c` of the concatenation, `pre` the total width of the pieces
before piece `n` and `c` a column of piece `n`, is column `c` of piece `n`: the offsets are 0, 3, 67, 195, 451. -/

section Cat

variable {α : Type} (v0 : S1000x3.Idx → α) (v1 : S1000x64.Idx → α) (v2 : S1000x128.Idx → α) (v3 : S1000x256.Idx → α)
  (v4 : S1000x512.Idx → α) (h : Shape.Concatenates [S1000x3, S1000x64, S1000x128, S1000x256, S1000x512] S1000x963 1)
  (r : Fin 1000)

theorem cat_apply0 (c : Fin 3) (hc : c.val < 963) :
    concatenate S1000x963 1 [⟨S1000x3, v0⟩, ⟨S1000x64, v1⟩, ⟨S1000x128, v2⟩, ⟨S1000x256, v3⟩, ⟨S1000x512, v4⟩] h (ix2 r (⟨c.val, hc⟩ : Fin 963)) = v0 (ix2 r c) :=
  concatenate_apply_piece (t := S1000x963) (1 : Fin 2) [⟨S1000x3, v0⟩, ⟨S1000x64, v1⟩, ⟨S1000x128, v2⟩, ⟨S1000x256, v3⟩, ⟨S1000x512, v4⟩] h (ix2 r (⟨c.val, hc⟩ : Fin 963)) 0 (by show (0 : Nat) < 5; omega) S1000x3 v0 rfl rfl 0
    (by rfl) (ix2 r c) (fun b hb => match b, hb with | ⟨0, _⟩, _ => rfl | ⟨1, _⟩, hb => absurd (Fin.ext rfl) hb) (Nat.zero_add _)

theorem cat_apply1 (c : Fin 64) (hc : 3 + c.val < 963) :
    concatenate S1000x963 1 [⟨S1000x3, v0⟩, ⟨S1000x64, v1⟩, ⟨S1000x128, v2⟩, ⟨S1000x256, v3⟩, ⟨S1000x512, v4⟩] h (ix2 r (⟨3 + c.val, hc⟩ : Fin 963)) = v1 (ix2 r c) :=
  concatenate_apply_piece (t := S1000x963) (1 : Fin 2) [⟨S1000x3, v0⟩, ⟨S1000x64, v1⟩, ⟨S1000x128, v2⟩, ⟨S1000x256, v3⟩, ⟨S1000x512, v4⟩] h (ix2 r (⟨3 + c.val, hc⟩ : Fin 963)) 1 (by show (1 : Nat) < 5; omega) S1000x64 v1 rfl rfl 3
    (by rfl) (ix2 r c) (fun b hb => match b, hb with | ⟨0, _⟩, _ => rfl | ⟨1, _⟩, hb => absurd (Fin.ext rfl) hb) rfl

theorem cat_apply2 (c : Fin 128) (hc : 67 + c.val < 963) :
    concatenate S1000x963 1 [⟨S1000x3, v0⟩, ⟨S1000x64, v1⟩, ⟨S1000x128, v2⟩, ⟨S1000x256, v3⟩, ⟨S1000x512, v4⟩] h (ix2 r (⟨67 + c.val, hc⟩ : Fin 963)) = v2 (ix2 r c) :=
  concatenate_apply_piece (t := S1000x963) (1 : Fin 2) [⟨S1000x3, v0⟩, ⟨S1000x64, v1⟩, ⟨S1000x128, v2⟩, ⟨S1000x256, v3⟩, ⟨S1000x512, v4⟩] h (ix2 r (⟨67 + c.val, hc⟩ : Fin 963)) 2 (by show (2 : Nat) < 5; omega) S1000x128 v2 rfl rfl 67
    (by rfl) (ix2 r c) (fun b hb => match b, hb with | ⟨0, _⟩, _ => rfl | ⟨1, _⟩, hb => absurd (Fin.ext rfl) hb) rfl

theorem cat_apply3 (c : Fin 256) (hc : 195 + c.val < 963) :
    concatenate S1000x963 1 [⟨S1000x3, v0⟩, ⟨S1000x64, v1⟩, ⟨S1000x128, v2⟩, ⟨S1000x256, v3⟩, ⟨S1000x512, v4⟩] h (ix2 r (⟨195 + c.val, hc⟩ : Fin 963)) = v3 (ix2 r c) :=
  concatenate_apply_piece (t := S1000x963) (1 : Fin 2) [⟨S1000x3, v0⟩, ⟨S1000x64, v1⟩, ⟨S1000x128, v2⟩, ⟨S1000x256, v3⟩, ⟨S1000x512, v4⟩] h (ix2 r (⟨195 + c.val, hc⟩ : Fin 963)) 3 (by show (3 : Nat) < 5; omega) S1000x256 v3 rfl rfl 195
    (by rfl) (ix2 r c) (fun b hb => match b, hb with | ⟨0, _⟩, _ => rfl | ⟨1, _⟩, hb => absurd (Fin.ext rfl) hb) rfl

theorem cat_apply4 (c : Fin 512) (hc : 451 + c.val < 963) :
    concatenate S1000x963 1 [⟨S1000x3, v0⟩, ⟨S1000x64, v1⟩, ⟨S1000x128, v2⟩, ⟨S1000x256, v3⟩, ⟨S1000x512, v4⟩] h (ix2 r (⟨451 + c.val, hc⟩ : Fin 963)) = v4 (ix2 r c) :=
  concatenate_apply_piece (t := S1000x963) (1 : Fin 2) [⟨S1000x3, v0⟩, ⟨S1000x64, v1⟩, ⟨S1000x128, v2⟩, ⟨S1000x256, v3⟩, ⟨S1000x512, v4⟩] h (ix2 r (⟨451 + c.val, hc⟩ : Fin 963)) 4 (by show (4 : Nat) < 5; omega) S1000x512 v4 rfl rfl 451
    (by rfl) (ix2 r c) (fun b hb => match b, hb with | ⟨0, _⟩, _ => rfl | ⟨1, _⟩, hb => absurd (Fin.ext rfl) hb) rfl

end Cat

/-- The two zero offsets of a whole-buffer rectangle, as the constant zero function. -/
theorem zero_offsets : (![0, 0] : Fin 2 → Nat) = fun _ => 0 := funext fun a => by fin_cases a <;> rfl

/-- Level 4's samples as the body writes them beside the concatenation: the column weights from the row vectors of the
    second pixel coordinate, the row weights passed in already built, the outer product of the two flattened, times the 49 × 512 map. -/
def lastPiece (v227 v232 v235 : FVec Ideal S1000 .f32) (v238 v239 : IVec S1000 32) (v241 : IVec S1000x7 32)
    (v260 : FVec Ideal S1000x7 .f32) (v286 : Vec Ideal S49x512 .f32) : FVec Ideal S1000x512 .f32 :=
  have v261 : IVec S1000x1 32 := shapeCast S1000x1 v238 shapeCasts_S1000_S1000x1
  have v262 : IVec S1000x7 32 := broadcastTo S1000x7 v261 broadcasts_S1000x1_S1000x7
  have v263 : IVec S1000x7 1 := cmpi .eq v241 v262
  have v264 : FVec Ideal S1000 .f32 := subf v235 v227
  have v265 : FVec Ideal S1000x1 .f32 := shapeCast S1000x1 v264 shapeCasts_S1000_S1000x1
  have cst_49 : Ideal .f32 := Scalar.ofBits .f32 0x00000000#32
  have v266 : FVec Ideal S1000x1 .f32 := shapeCast S1000x1 v265 shapeCasts_S1000x1_S1000x1
  have v267 : FVec Ideal S1000x7 .f32 := broadcastTo S1000x7 v266 broadcasts_S1000x1_S1000x7
  have v268 : FVec Ideal S1000x7 .f32 := broadcast S1000x7 cst_49
  have v269 : FVec Ideal S1000x7 .f32 := select v263 v267 v268
  have v270 : IVec S1000x1 32 := shapeCast S1000x1 v239 shapeCasts_S1000_S1000x1
  have v271 : IVec S1000x7 32 := broadcastTo S1000x7 v270 broadcasts_S1000x1_S1000x7
  have v272 : IVec S1000x7 1 := cmpi .eq v241 v271
  have v273 : FVec Ideal S1000 .f32 := subf v227 v232
  have v274 : FVec Ideal S1000x1 .f32 := shapeCast S1000x1 v273 shapeCasts_S1000_S1000x1
  have cst_50 : Ideal .f32 := Scalar.ofBits .f32 0x00000000#32
  have v275 : FVec Ideal S1000x1 .f32 := shapeCast S1000x1 v274 shapeCasts_S1000x1_S1000x1
  have v276 : FVec Ideal S1000x7 .f32 := broadcastTo S1000x7 v275 broadcasts_S1000x1_S1000x7
  have v277 : FVec Ideal S1000x7 .f32 := broadcast S1000x7 cst_50
  have v278 : FVec Ideal S1000x7 .f32 := select v272 v276 v277
  have v279 : FVec Ideal S1000x7 .f32 := addf v269 v278
  have v280 : FVec Ideal S1000x7x1 .f32 := shapeCast S1000x7x1 v260 shapeCasts_S1000x7_S1000x7x1
  have v281 : FVec Ideal S1000x1x7 .f32 := shapeCast S1000x1x7 v279 shapeCasts_S1000x7_S1000x1x7
  have v282 : FVec Ideal S1000x7x7 .f32 := broadcastTo S1000x7x7 v280 broadcasts_S1000x7x1_S1000x7x7
  have v283 : FVec Ideal S1000x7x7 .f32 := broadcastTo S1000x7x7 v281 broadcasts_S1000x1x7_S1000x7x7
  have v284 : FVec Ideal S1000x7x7 .f32 := mulf v282 v283
  have v285 : FVec Ideal S1000x49 .f32 := shapeCast S1000x49 v284 shapeCasts_S1000x7x7_S1000x49
  have v287 : FVec Ideal S49x512 .f32 := shapeCast S49x512 v286 shapeCasts_S49x512_S49x512
  have cst_53 : FVec Ideal S1000x512 .f32 := constant S1000x512 .f32 0x00000000#32
  matmul dot_S1000x49_S49x512_S1000x512_1_0_0_1_n_n none v285 v287 cst_53

/-! ## The body's four level terms are that construction -/

variable (x0 : Vec Ideal S1000x3 .f32) (x1 : Vec Ideal S3136x64 .f32) (x2 : Vec Ideal S784x128 .f32)
  (x3 : Vec Ideal S196x256 .f32) (x4 : Vec Ideal S49x512 .f32) (r : Fin 1000)

/-- Level 1 (56 × 56, stride 4): the body's operations are the construction above, term for term. -/
theorem level1_eq :
    k0_pay14 (F := Ideal) (k0_pay6 x0) (k0_pay7 x0) (k0_pay8 x0) (k0_pay9 x0) (k0_pay10 x0) (k0_pay11 x0) (k0_pay12 x0)
        (k0_pay13 x0) x1
      = lvl 56 56 3136 64 shapeCasts_S1000x56_S1000x56x1 broadcasts_S1000x56x1_S1000x56x56 shapeCasts_S1000x56_S1000x1x56 broadcasts_S1000x1x56_S1000x56x56 shapeCasts_S1000x56x56_S1000x3136 shapeCasts_S3136x64_S3136x64
        (wvec 56 shapeCasts_S1000_S1000x1 shapeCasts_S1000x1_S1000x1 broadcasts_S1000x1_S1000x56 iota_S1000x56_d1_w32
          (posv (k0_pay4 x0) 0x40800000#32) (lov (k0_pay4 x0) 0x40800000#32) (hiv (k0_pay4 x0) 0x40800000#32 0x425C0000#32))
        (wvec 56 shapeCasts_S1000_S1000x1 shapeCasts_S1000x1_S1000x1 broadcasts_S1000x1_S1000x56 iota_S1000x56_d1_w32
          (posv (k0_pay5 x0) 0x40800000#32) (lov (k0_pay5 x0) 0x40800000#32) (hiv (k0_pay5 x0) 0x40800000#32 0x425C0000#32)) x1 := rfl

/-- Level 2 (28 × 28, stride 8). -/
theorem level2_eq :
    k0_pay24 (F := Ideal) (k0_pay19 (k0_pay4 x0) (k0_pay15 (F := Ideal))) (k0_pay20 (k0_pay5 x0)) (k0_pay21 (k0_pay5 x0))
        (k0_pay22 (k0_pay5 x0)) (k0_pay23 (F := Ideal)) x2
      = lvl 28 28 784 128 shapeCasts_S1000x28_S1000x28x1 broadcasts_S1000x28x1_S1000x28x28 shapeCasts_S1000x28_S1000x1x28 broadcasts_S1000x1x28_S1000x28x28 shapeCasts_S1000x28x28_S1000x784 shapeCasts_S784x128_S784x128
        (wvec 28 shapeCasts_S1000_S1000x1 shapeCasts_S1000x1_S1000x1 broadcasts_S1000x1_S1000x28 iota_S1000x28_d1_w32
          (posv (k0_pay4 x0) 0x41000000#32) (lov (k0_pay4 x0) 0x41000000#32) (hiv (k0_pay4 x0) 0x41000000#32 0x41D80000#32))
        (wvec 28 shapeCasts_S1000_S1000x1 shapeCasts_S1000x1_S1000x1 broadcasts_S1000x1_S1000x28 iota_S1000x28_d1_w32
          (posv (k0_pay5 x0) 0x41000000#32) (lov (k0_pay5 x0) 0x41000000#32) (hiv (k0_pay5 x0) 0x41000000#32 0x41D80000#32)) x2 := rfl

/-- Level 3 (14 × 14, stride 16). -/
theorem level3_eq :
    k0_pay31 (F := Ideal) (k0_pay25 (k0_pay5 x0)) (k0_pay26 (k0_pay5 x0)) (k0_pay27 (k0_pay5 x0)) (k0_pay28 (k0_pay5 x0))
        (iota .tc S1000x14 32 [1] iota_S1000x14_d1_w32) (k0_pay29 (k0_pay4 x0)) (k0_pay30 (k0_pay5 x0)) x3
      = lvl 14 14 196 256 shapeCasts_S1000x14_S1000x14x1 broadcasts_S1000x14x1_S1000x14x14 shapeCasts_S1000x14_S1000x1x14 broadcasts_S1000x1x14_S1000x14x14 shapeCasts_S1000x14x14_S1000x196 shapeCasts_S196x256_S196x256
        (wvec 14 shapeCasts_S1000_S1000x1 shapeCasts_S1000x1_S1000x1 broadcasts_S1000x1_S1000x14 iota_S1000x14_d1_w32
          (posv (k0_pay4 x0) 0x41800000#32) (lov (k0_pay4 x0) 0x41800000#32) (hiv (k0_pay4 x0) 0x41800000#32 0x41500000#32))
        (wvec 14 shapeCasts_S1000_S1000x1 shapeCasts_S1000x1_S1000x1 broadcasts_S1000x1_S1000x14 iota_S1000x14_d1_w32
          (posv (k0_pay5 x0) 0x41800000#32) (lov (k0_pay5 x0) 0x41800000#32) (hiv (k0_pay5 x0) 0x41800000#32 0x41500000#32)) x3 := rfl

/-- Level 4 (7 × 7, stride 32). -/
theorem level4_eq :
    lastPiece (k0_pay33 (k0_pay5 x0)) (k0_pay36 (k0_pay5 x0)) (k0_pay37 (k0_pay5 x0)) (k0_pay39 (k0_pay5 x0)) (k0_pay40 (k0_pay5 x0))
        (iota .tc S1000x7 32 [1] iota_S1000x7_d1_w32)
        (k0_pay1 (k0_pay32 (k0_pay4 x0)) (k0_pay34 (k0_pay4 x0)) (k0_pay38 (k0_pay4 x0)) (iota .tc S1000x7 32 [1] iota_S1000x7_d1_w32)
          (k0_pay41 (k0_pay4 x0)) (Scalar.ofBits .f32 0x00000000#32) (k0_pay42 (k0_pay4 x0))) x4
      = lvl 7 7 49 512 shapeCasts_S1000x7_S1000x7x1 broadcasts_S1000x7x1_S1000x7x7 shapeCasts_S1000x7_S1000x1x7 broadcasts_S1000x1x7_S1000x7x7 shapeCasts_S1000x7x7_S1000x49 shapeCasts_S49x512_S49x512
        (wvec 7 shapeCasts_S1000_S1000x1 shapeCasts_S1000x1_S1000x1 broadcasts_S1000x1_S1000x7 iota_S1000x7_d1_w32
          (posv (k0_pay4 x0) 0x42000000#32) (lov (k0_pay4 x0) 0x42000000#32) (hiv (k0_pay4 x0) 0x42000000#32 0x40C00000#32))
        (wvec 7 shapeCasts_S1000_S1000x1 shapeCasts_S1000x1_S1000x1 broadcasts_S1000x1_S1000x7 iota_S1000x7_d1_w32
          (posv (k0_pay5 x0) 0x42000000#32) (lov (k0_pay5 x0) 0x42000000#32) (hiv (k0_pay5 x0) 0x42000000#32 0x40C00000#32)) x4 := rfl

/-! ## The stored block is the concatenation, read through the one whole-buffer store -/

theorem out_piece0 (c : Fin 3) (hc : c.val < 963) :
    out0_5 (F := Ideal) x0 x1 x2 x3 x4 (ix2 r (⟨c.val, hc⟩ : Fin 963))
      = x0 (ix2 r c) := by
  unfold out0_5
  rw [View.canon_unit_zero zero_offsets]
  simp only [View.ld_unit_zero (S := S1000x3) zero_offsets, View.ld_unit_zero (S := S3136x64) zero_offsets, View.ld_unit_zero (S := S784x128) zero_offsets, View.ld_unit_zero (S := S196x256) zero_offsets, View.ld_unit_zero (S := S49x512) zero_offsets]
  unfold k0_pay2
  exact cat_apply0 _ _ _ _ _ _ r c hc

theorem out_piece1 (c : Fin 64) (hc : 3 + c.val < 963) :
    out0_5 (F := Ideal) x0 x1 x2 x3 x4 (ix2 r (⟨3 + c.val, hc⟩ : Fin 963))
      = k0_pay14 (k0_pay6 x0) (k0_pay7 x0) (k0_pay8 x0) (k0_pay9 x0) (k0_pay10 x0) (k0_pay11 x0) (k0_pay12 x0) (k0_pay13 x0) x1 (ix2 r c) := by
  unfold out0_5
  rw [View.canon_unit_zero zero_offsets]
  simp only [View.ld_unit_zero (S := S1000x3) zero_offsets, View.ld_unit_zero (S := S3136x64) zero_offsets, View.ld_unit_zero (S := S784x128) zero_offsets, View.ld_unit_zero (S := S196x256) zero_offsets, View.ld_unit_zero (S := S49x512) zero_offsets]
  unfold k0_pay2
  exact cat_apply1 _ _ _ _ _ _ r c hc

theorem out_piece2 (c : Fin 128) (hc : 67 + c.val < 963) :
    out0_5 (F := Ideal) x0 x1 x2 x3 x4 (ix2 r (⟨67 + c.val, hc⟩ : Fin 963))
      = k0_pay24 (k0_pay19 (k0_pay4 x0) (k0_pay15 (F := Ideal))) (k0_pay20 (k0_pay5 x0)) (k0_pay21 (k0_pay5 x0)) (k0_pay22 (k0_pay5 x0)) (k0_pay23 (F := Ideal)) x2 (ix2 r c) := by
  unfold out0_5
  rw [View.canon_unit_zero zero_offsets]
  simp only [View.ld_unit_zero (S := S1000x3) zero_offsets, View.ld_unit_zero (S := S3136x64) zero_offsets, View.ld_unit_zero (S := S784x128) zero_offsets, View.ld_unit_zero (S := S196x256) zero_offsets, View.ld_unit_zero (S := S49x512) zero_offsets]
  unfold k0_pay2
  exact cat_apply2 _ _ _ _ _ _ r c hc

theorem out_piece3 (c : Fin 256) (hc : 195 + c.val < 963) :
    out0_5 (F := Ideal) x0 x1 x2 x3 x4 (ix2 r (⟨195 + c.val, hc⟩ : Fin 963))
      = k0_pay31 (k0_pay25 (k0_pay5 x0)) (k0_pay26 (k0_pay5 x0)) (k0_pay27 (k0_pay5 x0)) (k0_pay28 (k0_pay5 x0)) (iota .tc S1000x14 32 [1] iota_S1000x14_d1_w32) (k0_pay29 (k0_pay4 x0)) (k0_pay30 (k0_pay5 x0)) x3 (ix2 r c) := by
  unfold out0_5
  rw [View.canon_unit_zero zero_offsets]
  simp only [View.ld_unit_zero (S := S1000x3) zero_offsets, View.ld_unit_zero (S := S3136x64) zero_offsets, View.ld_unit_zero (S := S784x128) zero_offsets, View.ld_unit_zero (S := S196x256) zero_offsets, View.ld_unit_zero (S := S49x512) zero_offsets]
  unfold k0_pay2
  exact cat_apply3 _ _ _ _ _ _ r c hc

theorem out_piece4 (c : Fin 512) (hc : 451 + c.val < 963) :
    out0_5 (F := Ideal) x0 x1 x2 x3 x4 (ix2 r (⟨451 + c.val, hc⟩ : Fin 963))
      = lastPiece (k0_pay33 (k0_pay5 x0)) (k0_pay36 (k0_pay5 x0)) (k0_pay37 (k0_pay5 x0)) (k0_pay39 (k0_pay5 x0)) (k0_pay40 (k0_pay5 x0)) (iota .tc S1000x7 32 [1] iota_S1000x7_d1_w32) (k0_pay1 (k0_pay32 (k0_pay4 x0)) (k0_pay34 (k0_pay4 x0)) (k0_pay38 (k0_pay4 x0)) (iota .tc S1000x7 32 [1] iota_S1000x7_d1_w32) (k0_pay41 (k0_pay4 x0)) (Scalar.ofBits .f32 0x00000000#32) (k0_pay42 (k0_pay4 x0))) x4 (ix2 r c) := by
  unfold out0_5
  rw [View.canon_unit_zero zero_offsets]
  simp only [View.ld_unit_zero (S := S1000x3) zero_offsets, View.ld_unit_zero (S := S3136x64) zero_offsets, View.ld_unit_zero (S := S784x128) zero_offsets, View.ld_unit_zero (S := S196x256) zero_offsets, View.ld_unit_zero (S := S49x512) zero_offsets]
  unfold k0_pay2
  exact cat_apply4 _ _ _ _ _ _ r c hc

/-! ## The stored block read at an entry -/

/-- The first three columns are the coordinates. -/
theorem out_coords (c : Fin 3) (hc : c.val < 963) :
    out0_5 (F := Ideal) x0 x1 x2 x3 x4 (ix2 r (⟨c.val, hc⟩ : Fin 963)) = x0 (ix2 r c) :=
  out_piece0 x0 x1 x2 x3 x4 r c hc

/-- Level 1's columns of the stored block are the matrix form of the level's sample. -/
theorem out_level1 (c : Fin 64) (hc : 3 + c.val < 963) :
    out0_5 (F := Ideal) x0 x1 x2 x3 x4 (ix2 r (⟨3 + c.val, hc⟩ : Fin 963))
      = kform 56 3136 (lit 0x40800000#32) (lit 0x425C0000#32) (lit 0x425C0000#32) (rowH x0 r) (rowW x0 r) (fun k => x1 (ix2 k c)) := by
  rw [out_piece1 x0 x1 x2 x3 x4 r c hc, level1_eq x0 x1,
    level_read 56 56 3136 64 _ _ _ _ _ _ _ _ _ _ _ _ rfl (by decide) (k0_pay4 x0) (k0_pay5 x0) _ _ _ x1 r c,
    pay4_apply, pay5_apply]

/-- Level 2's columns of the stored block are the matrix form of the level's sample. -/
theorem out_level2 (c : Fin 128) (hc : 67 + c.val < 963) :
    out0_5 (F := Ideal) x0 x1 x2 x3 x4 (ix2 r (⟨67 + c.val, hc⟩ : Fin 963))
      = kform 28 784 (lit 0x41000000#32) (lit 0x41D80000#32) (lit 0x41D80000#32) (rowH x0 r) (rowW x0 r) (fun k => x2 (ix2 k c)) := by
  rw [out_piece2 x0 x1 x2 x3 x4 r c hc, level2_eq x0 x2,
    level_read 28 28 784 128 _ _ _ _ _ _ _ _ _ _ _ _ rfl (by decide) (k0_pay4 x0) (k0_pay5 x0) _ _ _ x2 r c,
    pay4_apply, pay5_apply]

/-- Level 3's columns of the stored block are the matrix form of the level's sample. -/
theorem out_level3 (c : Fin 256) (hc : 195 + c.val < 963) :
    out0_5 (F := Ideal) x0 x1 x2 x3 x4 (ix2 r (⟨195 + c.val, hc⟩ : Fin 963))
      = kform 14 196 (lit 0x41800000#32) (lit 0x41500000#32) (lit 0x41500000#32) (rowH x0 r) (rowW x0 r) (fun k => x3 (ix2 k c)) := by
  rw [out_piece3 x0 x1 x2 x3 x4 r c hc, level3_eq x0 x3,
    level_read 14 14 196 256 _ _ _ _ _ _ _ _ _ _ _ _ rfl (by decide) (k0_pay4 x0) (k0_pay5 x0) _ _ _ x3 r c,
    pay4_apply, pay5_apply]

/-- Level 4's columns of the stored block are the matrix form of the level's sample. -/
theorem out_level4 (c : Fin 512) (hc : 451 + c.val < 963) :
    out0_5 (F := Ideal) x0 x1 x2 x3 x4 (ix2 r (⟨451 + c.val, hc⟩ : Fin 963))
      = kform 7 49 (lit 0x42000000#32) (lit 0x40C00000#32) (lit 0x40C00000#32) (rowH x0 r) (rowW x0 r) (fun k => x4 (ix2 k c)) := by
  rw [out_piece4 x0 x1 x2 x3 x4 r c hc, level4_eq x0 x4,
    level_read 7 7 49 512 _ _ _ _ _ _ _ _ _ _ _ _ rfl (by decide) (k0_pay4 x0) (k0_pay5 x0) _ _ _ x4 r c,
    pay4_apply, pay5_apply]

end Cert.KernelRead

end
-- ==== Proof.LibBilinear.lean ====
/-
  Bilinear interpolation of a map on a grid, two ways, on the extended reals.

  A sampling position p on an axis of n points (0 ≤ p < n) has a lower corner ⌊p⌋ and an upper corner
  min ⌈p⌉ (n − 1); the lower corner weighs (upper − p) and the upper corner weighs (p − lower). This file proves that
  the sample written as a sum over EVERY grid position of (row weight) · (column weight) · (entry), each axis weight
  being a sum of two indicator terms (one per corner, compared as 32-bit index words), equals the sample written as the
  four corner entries looked up directly and weighted. The two agree because the indicator weights vanish off the
  corners, so the full sum collapses to the four corner terms (also when two corners coincide), and because the
  corners, being integers in [0, n − 1], survive the conversion to an index word and the gather's wrap-and-clamp
  unchanged. The entries must be finite so that products distribute over sums.

  The generic statement is `sample_real`; `sample56`, `sample28`, `sample14`, `sample7` instantiate it at the four
  strides 4, 8, 16, 32 with a pixel coordinate clipped to [0, 223].
-/
import proofs.«178287_j74071005986926_2_alg».proof.Proof.Spec
import Idealize.ShloMosaic.PureOps.Ideal
import Mathlib

noncomputable section

namespace Cert.Bilin

open Idealize.ShloMosaic

/-! ### The literal words -/

theorem lit_0 : lit 0x00000000#32 = ((0 : ℝ) : EReal) := by simp [lit, Ideal.ofBits, Ideal.ieee]
theorem lit_223 : lit 0x435F0000#32 = ((223 : ℝ) : EReal) := by
  simp [lit, Ideal.ofBits, Ideal.ieee, -EReal.coe_mul]; norm_num
theorem lit_4 : lit 0x40800000#32 = ((4 : ℝ) : EReal) := by
  simp [lit, Ideal.ofBits, Ideal.ieee, -EReal.coe_mul]; norm_num
theorem lit_8 : lit 0x41000000#32 = ((8 : ℝ) : EReal) := by
  simp [lit, Ideal.ofBits, Ideal.ieee, -EReal.coe_mul]; norm_num
theorem lit_16 : lit 0x41800000#32 = ((16 : ℝ) : EReal) := by
  simp [lit, Ideal.ofBits, Ideal.ieee, -EReal.coe_mul]; norm_num
theorem lit_32 : lit 0x42000000#32 = ((32 : ℝ) : EReal) := by
  simp [lit, Ideal.ofBits, Ideal.ieee, -EReal.coe_mul]; norm_num
theorem lit_55 : lit 0x425C0000#32 = ((55 : ℝ) : EReal) := by
  simp [lit, Ideal.ofBits, Ideal.ieee, -EReal.coe_mul]; norm_num
theorem lit_27 : lit 0x41D80000#32 = ((27 : ℝ) : EReal) := by
  simp [lit, Ideal.ofBits, Ideal.ieee, -EReal.coe_mul]; norm_num
theorem lit_13 : lit 0x41500000#32 = ((13 : ℝ) : EReal) := by
  simp [lit, Ideal.ofBits, Ideal.ieee, -EReal.coe_mul]; norm_num
theorem lit_6 : lit 0x40C00000#32 = ((6 : ℝ) : EReal) := by
  simp [lit, Ideal.ofBits, Ideal.ieee, -EReal.coe_mul]; norm_num

/-! ### The clipped pixel coordinate is a real in [0, 223] -/

/-- An extended real between two reals is a real between them. -/
theorem real_of_between (v : EReal) (a b : ℝ) (h1 : (a : EReal) ≤ v) (h2 : v ≤ (b : EReal)) :
    ∃ r : ℝ, v = (r : EReal) ∧ a ≤ r ∧ r ≤ b := by
  induction v using EReal.rec with
  | bot => exact absurd h1 (by simp)
  | top => exact absurd h2 (by simp)
  | coe r => exact ⟨r, rfl, by exact_mod_cast h1, by exact_mod_cast h2⟩

/-- Whatever the quotient produced, the clip leaves a real in [0, 223]. -/
theorem pix_range (a z : EReal) : ∃ r : ℝ, pix a z = (r : EReal) ∧ 0 ≤ r ∧ r ≤ 223 := by
  unfold pix
  rw [lit_223, lit_0]
  refine real_of_between _ 0 223 ?_ (min_le_left _ _)
  exact le_min (by exact_mod_cast (by norm_num : (0 : ℝ) ≤ 223)) (le_max_left _ _)

/-! ### Positions and corners of a real coordinate -/

/-- The sampling position of a real coordinate on a real nonzero stride is the real quotient. -/
theorem pos_coe (h s : ℝ) (hs : s ≠ 0) : pos (h : EReal) (s : EReal) = ((h / s : ℝ) : EReal) := by
  unfold pos
  rw [Ideal.div_coe hs, ← EReal.coe_mul]
  congr 1
  field_simp

/-! ### Index words of small naturals -/

/-- Converting a natural below 2^31 to a signed 32-bit word gives that natural's word. -/
theorem fptosi_nat (k : ℕ) (hk : k < 2 ^ 31) : Ideal.fptosi 32 ((k : ℝ) : EReal) = BitVec.ofNat 32 k := by
  unfold Ideal.fptosi
  rw [Ideal.toIntClamped_coe, if_pos (Nat.cast_nonneg k), Int.floor_natCast]
  have h1 : min (((2 ^ (32 - 1) : ℕ) : ℤ) - 1) (k : ℤ) = (k : ℤ) := by
    apply min_eq_right
    have : (k : ℤ) < 2 ^ 31 := by exact_mod_cast hk
    norm_num
    omega
  have h2 : -((2 ^ (32 - 1) : ℕ) : ℤ) ≤ (k : ℤ) :=
    le_trans (neg_nonpos.mpr (Int.natCast_nonneg _)) (Int.natCast_nonneg k)
  rw [h1, max_eq_right h2]
  exact BitVec.ofInt_natCast 32 k

/-- Words of naturals below 2^32 are equal exactly when the naturals are. -/
theorem ofNat_eq_iff (i k : ℕ) (hi : i < 2 ^ 32) (hk : k < 2 ^ 32) :
    BitVec.ofNat 32 i = BitVec.ofNat 32 k ↔ i = k := by
  constructor
  · intro h
    have := congrArg BitVec.toNat h
    rw [BitVec.toNat_ofNat, BitVec.toNat_ofNat, Nat.mod_eq_of_lt hi, Nat.mod_eq_of_lt hk] at this
    exact this
  · intro h; rw [h]

/-- A selection on an equality comparison of two words is an if-then-else on their equality. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := beq_eq_false_iff_ne.mpr h
    simp [hb, h]

/-- A gather reading the word of a natural inside the axis reads that position: the word is not negative, so it is not
    wrapped, and the clamp is inactive. -/
theorem gpos_nat (n : ℕ) (hn : 0 < n) (hn31 : n < 2 ^ 31) (k : ℕ) (hk : k < n) :
    gpos n hn (BitVec.ofNat 32 k) = ⟨k, hk⟩ := by
  have hk31 : k < 2 ^ 31 := lt_trans hk hn31
  have hti : (BitVec.ofNat 32 k).toInt = (k : ℤ) := by
    rw [BitVec.toInt_eq_toNat_cond, BitVec.toNat_ofNat, Nat.mod_eq_of_lt (by omega)]
    rw [if_pos (by omega)]
  have hns : IntOp.cmpi .slt (BitVec.ofNat 32 k) 0#32 ≠ 1 := by
    have hnk : ¬ ((k : ℤ) < 0) := not_lt.mpr (Int.natCast_nonneg k)
    unfold IntOp.cmpi
    simp [BitVec.slt, hti, hnk]
  apply Fin.ext
  unfold gpos Scalar.select
  simp only [if_neg hns, hti, Int.toNat_natCast]
  omega

/-! ### One axis -/

/-- The coercion of the reals into the extended reals commutes with `min`. -/
theorem coe_min_real (a b : ℝ) : ((min a b : ℝ) : EReal) = min (a : EReal) (b : EReal) :=
  EReal.coe_strictMono.monotone.map_min

/-- Everything the two forms use of one axis, for a real position `p` with `0 ≤ p < n`: the two corners are grid
    positions `k1`, `k2`, both corner weights are reals `α` (lower corner's) and `β` (upper corner's), a gather at
    either corner's index word reads that corner, and the matrix-form weight at a grid position is `α` if it is the lower
    corner plus `β` if it is the upper corner. -/
theorem axis (n : ℕ) (hn : 0 < n) (hn31 : n < 2 ^ 31) (p top : ℝ) (htop : top = (n : ℝ) - 1) (hp0 : 0 ≤ p)
    (hpn : p < (n : ℝ)) :
    ∃ (k1 k2 : Fin n) (α β : ℝ),
      hi (p : EReal) (top : EReal) - (p : EReal) = (α : EReal) ∧
      (p : EReal) - lo (p : EReal) = (β : EReal) ∧
      gpos n hn (Ideal.fptosi 32 (lo (p : EReal))) = k1 ∧
      gpos n hn (Ideal.fptosi 32 (hi (p : EReal) (top : EReal))) = k2 ∧
      ∀ i : Fin n, wk (p : EReal) (top : EReal) i.val
        = (((if i = k1 then α else 0) + (if i = k2 then β else 0) : ℝ) : EReal) := by
  obtain ⟨a, ha⟩ : ∃ a : ℕ, ⌊p⌋ = (a : ℤ) := Int.eq_ofNat_of_zero_le (Int.floor_nonneg.mpr hp0)
  obtain ⟨c, hc⟩ : ∃ c : ℕ, ⌈p⌉ = (c : ℤ) := Int.eq_ofNat_of_zero_le (Int.ceil_nonneg hp0)
  have han : a < n := by
    have h1 : ((a : ℤ) : ℝ) ≤ p := ha ▸ Int.floor_le p
    have h2 : (a : ℝ) < (n : ℝ) := lt_of_le_of_lt (by exact_mod_cast h1) hpn
    exact_mod_cast h2
  have hbn : min c (n - 1) < n := by omega
  have hlo : lo (p : EReal) = ((a : ℝ) : EReal) := by
    unfold lo
    rw [Ideal.liftRound_coe, ha, Int.cast_natCast]
  have hhi : hi (p : EReal) (top : EReal) = (((min c (n - 1) : ℕ) : ℝ) : EReal) := by
    unfold hi
    rw [Ideal.liftRound_coe, hc, Int.cast_natCast, htop, ← coe_min_real, Nat.cast_min, Nat.cast_pred hn]
  have ha31 : a < 2 ^ 31 := lt_trans han hn31
  have hb31 : min c (n - 1) < 2 ^ 31 := lt_trans hbn hn31
  refine ⟨⟨a, han⟩, ⟨min c (n - 1), hbn⟩, ((min c (n - 1) : ℕ) : ℝ) - p, p - (a : ℝ), ?_, ?_, ?_, ?_, ?_⟩
  · rw [hhi, ← EReal.coe_sub]
  · rw [hlo, ← EReal.coe_sub]
  · rw [hlo, fptosi_nat a ha31, gpos_nat n hn hn31 a han]
  · rw [hhi, fptosi_nat _ hb31, gpos_nat n hn hn31 _ hbn]
  · intro i
    have hi32 : i.val < 2 ^ 32 := by have := i.isLt; omega
    have e1 : (BitVec.ofNat 32 i.val = BitVec.ofNat 32 a) ↔ i = ⟨a, han⟩ := by
      rw [ofNat_eq_iff _ _ hi32 (by omega), Fin.ext_iff]
    have e2 : (BitVec.ofNat 32 i.val = BitVec.ofNat 32 (min c (n - 1))) ↔ i = ⟨min c (n - 1), hbn⟩ := by
      rw [ofNat_eq_iff _ _ hi32 (by omega), Fin.ext_iff]
    unfold wk
    rw [hlo, hhi, fptosi_nat a ha31, fptosi_nat _ hb31, select_cmpi_eq, select_cmpi_eq, lit_0, EReal.coe_add]
    congr 1
    · by_cases h : i = ⟨a, han⟩
      · rw [if_pos (e1.mpr h), if_pos h, ← EReal.coe_sub]
      · rw [if_neg (fun h' => h (e1.mp h')), if_neg h]
    · by_cases h : i = ⟨min c (n - 1), hbn⟩
      · rw [if_pos (e2.mpr h), if_pos h, ← EReal.coe_sub]
      · rw [if_neg (fun h' => h (e2.mp h')), if_neg h]

/-! ### The collapse of the full sum, on the reals -/

/-- A sum against a two-indicator weight keeps the two indicated terms. -/
theorem sum_two_indicators {n : ℕ} (k1 k2 : Fin n) (a b : ℝ) (c : Fin n → ℝ) :
    ∑ i : Fin n, ((if i = k1 then a else 0) + (if i = k2 then b else 0)) * c i = a * c k1 + b * c k2 := by
  simp only [add_mul, ite_mul, zero_mul, Finset.sum_add_distrib, Finset.sum_ite_eq', Finset.mem_univ, if_true]

/-- The double sum of (row weight) · (column weight) · (entry) is the four corner terms. -/
theorem bilin_sum_real {H W : ℕ} (k1 k2 : Fin H) (l1 l2 : Fin W) (α β α' β' : ℝ) (g : Fin H → Fin W → ℝ) :
    ∑ i : Fin H, ∑ j : Fin W,
        (((if i = k1 then α else 0) + (if i = k2 then β else 0))
          * ((if j = l1 then α' else 0) + (if j = l2 then β' else 0))) * g i j
      = α * α' * g k1 l1 + β * α' * g k2 l1 + α * β' * g k1 l2 + β * β' * g k2 l2 := by
  have inner : ∀ i : Fin H, ∑ j : Fin W,
        (((if i = k1 then α else 0) + (if i = k2 then β else 0))
          * ((if j = l1 then α' else 0) + (if j = l2 then β' else 0))) * g i j
      = ((if i = k1 then α else 0) + (if i = k2 then β else 0)) * (α' * g i l1 + β' * g i l2) := by
    intro i
    rw [← sum_two_indicators l1 l2 α' β' (g i), Finset.mul_sum]
    exact Finset.sum_congr rfl fun j _ => by ring
  rw [Finset.sum_congr rfl fun i _ => inner i, sum_two_indicators k1 k2 α β fun i => α' * g i l1 + β' * g i l2]
  ring

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The two forms agree -/

/-- On a map of `H × W` finite entries, flattened row-major into `K = H · W` positions, with a positive real stride
    `s`, last indices `H − 1` and `W − 1`, and real coordinates `x ∈ [0, s·H)`, `y ∈ [0, s·W)`: the weight-matrix
    form of the sample equals the four-corner form. -/
theorem sample_real (H W K : ℕ) (hK : K = H * W) (hH : 0 < H) (hW : 0 < W) (hH31 : H < 2 ^ 31) (hW31 : W < 2 ^ 31)
    (s topx topy x y : ℝ) (hs : 0 < s) (htx : topx = (H : ℝ) - 1) (hty : topy = (W : ℝ) - 1)
    (hx0 : 0 ≤ x) (hxH : x < s * (H : ℝ)) (hy0 : 0 ≤ y) (hyW : y < s * (W : ℝ))
    (fk : Fin K → EReal) (fr : Fin H → Fin W → EReal)
    (hreal : ∀ i j, ∃ v : ℝ, fr i j = (v : EReal))
    (hflat : ∀ (i : Fin H) (j : Fin W) (k : Fin K), k.val = i.val * W + j.val → fk k = fr i j) :
    kform W K (s : EReal) (topx : EReal) (topy : EReal) (x : EReal) (y : EReal) fk
      = rform H W hH hW (s : EReal) (topx : EReal) (topy : EReal) (x : EReal) (y : EReal) fr := by
  subst hK
  have hpx : pos (x : EReal) (s : EReal) = ((x / s : ℝ) : EReal) := pos_coe x s (ne_of_gt hs)
  have hpy : pos (y : EReal) (s : EReal) = ((y / s : ℝ) : EReal) := pos_coe y s (ne_of_gt hs)
  obtain ⟨k1, k2, α, β, hα, hβ, hg1, hg2, hwx⟩ :=
    axis H hH hH31 (x / s) topx htx (div_nonneg hx0 (le_of_lt hs)) (by rw [div_lt_iff₀ hs]; linarith)
  obtain ⟨l1, l2, α', β', hα', hβ', hg1', hg2', hwy⟩ :=
    axis W hW hW31 (y / s) topy hty (div_nonneg hy0 (le_of_lt hs)) (by rw [div_lt_iff₀ hs]; linarith)
  choose g hg using hreal
  -- the four-corner form, as one real
  have hr : rform H W hH hW (s : EReal) (topx : EReal) (topy : EReal) (x : EReal) (y : EReal) fr
      = ((α * α' * g k1 l1 + β * α' * g k2 l1 + α * β' * g k1 l2 + β * β' * g k2 l2 : ℝ) : EReal) := by
    unfold rform
    rw [hpx, hpy, hα, hβ, hα', hβ', hg1, hg2, hg1', hg2', hg, hg, hg, hg]
    simp only [EReal.coe_add, EReal.coe_mul]
  -- the weight-matrix form, summed over rows and columns, as one real
  have hsummand : ∀ (i : Fin H) (j : Fin W),
      (wk ((x / s : ℝ) : EReal) (topx : EReal) ((finProdFinEquiv (i, j)).val / W)
          * wk ((y / s : ℝ) : EReal) (topy : EReal) ((finProdFinEquiv (i, j)).val % W)) * fk (finProdFinEquiv (i, j))
        = (((((if i = k1 then α else 0) + (if i = k2 then β else 0))
            * ((if j = l1 then α' else 0) + (if j = l2 then β' else 0))) * g i j : ℝ) : EReal) := by
    intro i j
    have hv : (finProdFinEquiv (i, j)).val = j.val + W * i.val := rfl
    have hdiv : (finProdFinEquiv (i, j)).val / W = i.val := by
      rw [hv, Nat.add_mul_div_left _ _ hW, Nat.div_eq_of_lt j.isLt, Nat.zero_add]
    have hmod : (finProdFinEquiv (i, j)).val % W = j.val := by
      rw [hv, Nat.add_mul_mod_self_left, Nat.mod_eq_of_lt j.isLt]
    have hf : fk (finProdFinEquiv (i, j)) = ((g i j : ℝ) : EReal) := by
      rw [hflat i j (finProdFinEquiv (i, j)) (by rw [hv, Nat.mul_comm, Nat.add_comm]), hg]
    rw [hdiv, hmod, hwx i, hwy j, hf, ← EReal.coe_mul, ← EReal.coe_mul]
  rw [hr]
  unfold kform
  rw [hpx, hpy, ← Equiv.sum_comp finProdFinEquiv, Fintype.sum_prod_type]
  rw [Finset.sum_congr rfl fun i _ => Finset.sum_congr rfl fun j _ => hsummand i j]
  rw [Finset.sum_congr rfl fun i _ => (coe_sum Finset.univ _).symm, ← coe_sum, bilin_sum_real]

/-! ### The four pyramid levels -/

theorem sample56 (a b z : EReal) (fk : Fin 3136 → EReal) (fr : Fin 56 → Fin 56 → EReal)
    (hreal : ∀ i j, ∃ v : ℝ, fr i j = (v : EReal))
    (hflat : ∀ (i : Fin 56) (j : Fin 56) (k : Fin 3136), k.val = i.val * 56 + j.val → fk k = fr i j) :
    kform 56 3136 (lit 0x40800000#32) (lit 0x425C0000#32) (lit 0x425C0000#32) (pix a z) (pix b z) fk
      = rform 56 56 (by norm_num) (by norm_num) (lit 0x40800000#32) (lit 0x425C0000#32) (lit 0x425C0000#32)
          (pix a z) (pix b z) fr := by
  obtain ⟨x, hx, hx0, hx1⟩ := pix_range a z
  obtain ⟨y, hy, hy0, hy1⟩ := pix_range b z
  rw [hx, hy, lit_4, lit_55]
  exact sample_real 56 56 3136 (by norm_num) (by norm_num) (by norm_num) (by norm_num) (by norm_num) 4 55 55 x y
    (by norm_num) (by norm_num) (by norm_num) hx0 (by norm_num; linarith) hy0 (by norm_num; linarith) fk fr hreal hflat

theorem sample28 (a b z : EReal) (fk : Fin 784 → EReal) (fr : Fin 28 → Fin 28 → EReal)
    (hreal : ∀ i j, ∃ v : ℝ, fr i j = (v : EReal))
    (hflat : ∀ (i : Fin 28) (j : Fin 28) (k : Fin 784), k.val = i.val * 28 + j.val → fk k = fr i j) :
    kform 28 784 (lit 0x41000000#32) (lit 0x41D80000#32) (lit 0x41D80000#32) (pix a z) (pix b z) fk
      = rform 28 28 (by norm_num) (by norm_num) (lit 0x41000000#32) (lit 0x41D80000#32) (lit 0x41D80000#32)
          (pix a z) (pix b z) fr := by
  obtain ⟨x, hx, hx0, hx1⟩ := pix_range a z
  obtain ⟨y, hy, hy0, hy1⟩ := pix_range b z
  rw [hx, hy, lit_8, lit_27]
  exact sample_real 28 28 784 (by norm_num) (by norm_num) (by norm_num) (by norm_num) (by norm_num) 8 27 27 x y
    (by norm_num) (by norm_num) (by norm_num) hx0 (by norm_num; linarith) hy0 (by norm_num; linarith) fk fr hreal hflat

theorem sample14 (a b z : EReal) (fk : Fin 196 → EReal) (fr : Fin 14 → Fin 14 → EReal)
    (hreal : ∀ i j, ∃ v : ℝ, fr i j = (v : EReal))
    (hflat : ∀ (i : Fin 14) (j : Fin 14) (k : Fin 196), k.val = i.val * 14 + j.val → fk k = fr i j) :
    kform 14 196 (lit 0x41800000#32) (lit 0x41500000#32) (lit 0x41500000#32) (pix a z) (pix b z) fk
      = rform 14 14 (by norm_num) (by norm_num) (lit 0x41800000#32) (lit 0x41500000#32) (lit 0x41500000#32)
          (pix a z) (pix b z) fr := by
  obtain ⟨x, hx, hx0, hx1⟩ := pix_range a z
  obtain ⟨y, hy, hy0, hy1⟩ := pix_range b z
  rw [hx, hy, lit_16, lit_13]
  exact sample_real 14 14 196 (by norm_num) (by norm_num) (by norm_num) (by norm_num) (by norm_num) 16 13 13 x y
    (by norm_num) (by norm_num) (by norm_num) hx0 (by norm_num; linarith) hy0 (by norm_num; linarith) fk fr hreal hflat

theorem sample7 (a b z : EReal) (fk : Fin 49 → EReal) (fr : Fin 7 → Fin 7 → EReal)
    (hreal : ∀ i j, ∃ v : ℝ, fr i j = (v : EReal))
    (hflat : ∀ (i : Fin 7) (j : Fin 7) (k : Fin 49), k.val = i.val * 7 + j.val → fk k = fr i j) :
    kform 7 49 (lit 0x42000000#32) (lit 0x40C00000#32) (lit 0x40C00000#32) (pix a z) (pix b z) fk
      = rform 7 7 (by norm_num) (by norm_num) (lit 0x42000000#32) (lit 0x40C00000#32) (lit 0x40C00000#32)
          (pix a z) (pix b z) fr := by
  obtain ⟨x, hx, hx0, hx1⟩ := pix_range a z
  obtain ⟨y, hy, hy0, hy1⟩ := pix_range b z
  rw [hx, hy, lit_32, lit_6]
  exact sample_real 7 7 49 (by norm_num) (by norm_num) (by norm_num) (by norm_num) (by norm_num) 32 6 6 x y
    (by norm_num) (by norm_num) (by norm_num) hx0 (by norm_num; linarith) hy0 (by norm_num; linarith) fk fr hreal hflat

end Cert.Bilin

end
-- ==== Proof.LibGatherPair.lean ====
/-
  Three reads at an index, for arrays of any extents.

  A gather of single rows `x[i, j, :]` of a rank-3 array `x : [H, W, C]` at an array of index pairs `idx : [N, 2]`:
  result element `(n, c)` is `x` at row `idx[n, 0]`, column `idx[n, 1]` — each read as a signed integer and clamped
  into its axis — and channel `c` (`gather_pair_apply`).

  A concatenation of two one-column arrays `[N, 1]` side by side: column 0 is the first array's column, column 1 the
  second's (`concat_cols_apply_zero`, `concat_cols_apply_one`).

  A concatenation of five arrays `[N, c₀] … [N, c₄]` side by side: a column inside the `k`-th stretch reads the `k`-th
  array at that column less the widths before it (`concat5_apply_0` … `concat5_apply_4`).
-/
import Idealize.ShloMosaic.Lib.ValueIdx
import Idealize.ShloMosaic.Lib.Pipeline.Value

noncomputable section

namespace Cert.GatherPair

open Idealize.ShloMosaic Idealize.ShloMosaic.ValueIdx

variable {α : Type}

/-- The dimension numbers of `x[i, j, :]`: the two leading operand axes are indexed and collapsed, the index pair lies
    along axis 1 of the indices, and the whole channel axis is the one offset axis of the result. -/
abbrev pairDims (H W C N : Nat)
    (wf : GatherDims.WF ⟨3, ![H, W, C]⟩ ⟨2, ![N, 2]⟩ ⟨2, ![N, C]⟩ [1] [0, 1] [] [0, 1] [] 1 ![1, 1, C]) :
    GatherDims ⟨3, ![H, W, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

/-- The gather read at `(n, c)`: the operand at row `idx[n, 0]` and column `idx[n, 1]`, each read signed and clamped
    into its axis, and channel `c`. -/
theorem gather_pair_apply {H W C N w : Nat} (hH : 0 < H) (hW : 0 < W)
    (wf : GatherDims.WF ⟨3, ![H, W, C]⟩ ⟨2, ![N, 2]⟩ ⟨2, ![N, C]⟩ [1] [0, 1] [] [0, 1] [] 1 ![1, 1, C])
    (x : (⟨3, ![H, W, C]⟩ : Shape).Idx → α) (idx : IVec ⟨2, ![N, 2]⟩ w) (n : Fin N) (c : Fin C) :
    Host.gather (pairDims H W C N wf) x idx (ix2 n c)
      = x (ix3 (⟨min (idx (ix2 n (0 : Fin 2))).toInt.toNat (H - 1), by omega⟩ : Fin H)
               (⟨min (idx (ix2 n (1 : Fin 2))).toInt.toNat (W - 1), by omega⟩ : Fin W) c) := by
  have h01 : (2 : Fin 3) ∉ ([0, 1] : List (Fin 3)) := by decide
  unfold Host.gather
  congr 1
  funext a
  refine Fin.ext ?_
  match a with
  | ⟨0, _⟩ =>
    show (pairDims H W C N wf).start (ix2 n c) idx (0 : Fin 3) + (pairDims H W C N wf).batchCoord (ix2 n c) (0 : Fin 3)
      + (pairDims H W C N wf).offCoord (ix2 n c) (0 : Fin 3) = _
    have hm : (0 : Fin 3) ∈ (pairDims H W C N wf).startIndexMap := List.mem_cons_self
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos hm]
    have hsi : (pairDims H W C N wf).siIdx (ix2 n c) ⟨List.idxOf (0 : Fin 3) (pairDims H W C N wf).startIndexMap,
        List.idxOf_lt_length_iff.2 hm⟩ = ix2 n (0 : Fin 2) := by
      funext b; refine Fin.ext ?_
      match b with
      | ⟨0, _⟩ => rfl
      | ⟨1, _⟩ => rfl
    rw [hsi]
    rfl
  | ⟨1, _⟩ =>
    show (pairDims H W C N wf).start (ix2 n c) idx (1 : Fin 3) + (pairDims H W C N wf).batchCoord (ix2 n c) (1 : Fin 3)
      + (pairDims H W C N wf).offCoord (ix2 n c) (1 : Fin 3) = _
    have hm : (1 : Fin 3) ∈ (pairDims H W C N wf).startIndexMap := List.mem_cons_of_mem _ List.mem_cons_self
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos hm]
    have hsi : (pairDims H W C N wf).siIdx (ix2 n c) ⟨List.idxOf (1 : Fin 3) (pairDims H W C N wf).startIndexMap,
        List.idxOf_lt_length_iff.2 hm⟩ = ix2 n (1 : Fin 2) := by
      funext b; refine Fin.ext ?_
      match b with
      | ⟨0, _⟩ => rfl
      | ⟨1, _⟩ => rfl
    rw [hsi]
    rfl
  | ⟨2, _⟩ =>
    show (pairDims H W C N wf).start (ix2 n c) idx (2 : Fin 3) + (pairDims H W C N wf).batchCoord (ix2 n c) (2 : Fin 3)
      + (pairDims H W C N wf).offCoord (ix2 n c) (2 : Fin 3) = c.val
    have hm : (2 : Fin 3) ∉ (pairDims H W C N wf).startIndexMap := h01
    have hk : (2 : Fin 3) ∈ (pairDims H W C N wf).sKept := (GatherDims.mem_sKept _ _).2 ⟨h01, List.not_mem_nil⟩
    rw [GatherDims.batchCoord_eq_zero _ _ _ List.not_mem_nil]
    unfold GatherDims.start GatherDims.offCoord
    rw [dif_neg hm, dif_pos hk, Nat.zero_add]
    rfl

/-- The gather read at `(n, c)` with the row and the column named: the operand at `(i, j, c)`, for `i` the clamped
    `idx[n, 0]` and `j` the clamped `idx[n, 1]`. -/
theorem gather_pair_read {H W C N w : Nat} (hH : 0 < H) (hW : 0 < W)
    (wf : GatherDims.WF ⟨3, ![H, W, C]⟩ ⟨2, ![N, 2]⟩ ⟨2, ![N, C]⟩ [1] [0, 1] [] [0, 1] [] 1 ![1, 1, C])
    (x : (⟨3, ![H, W, C]⟩ : Shape).Idx → α) (idx : IVec ⟨2, ![N, 2]⟩ w) (n : Fin N) (c : Fin C) (i : Fin H) (j : Fin W)
    (hi : i.val = min (idx (ix2 n (0 : Fin 2))).toInt.toNat (H - 1))
    (hj : j.val = min (idx (ix2 n (1 : Fin 2))).toInt.toNat (W - 1)) :
    Host.gather (pairDims H W C N wf) x idx (ix2 n c) = x (ix3 i j c) := by
  obtain ⟨i, hi'⟩ := i
  obtain ⟨j, hj'⟩ := j
  dsimp only at hi hj
  subst hi
  subst hj
  exact gather_pair_apply hH hW wf x idx n c

/-- A rank-1 index with coordinate `n` is `ix1 n`. -/
theorem idx1_eq {N : Nat} (f : (⟨1, ![N]⟩ : Shape).Idx) (n : Fin N) (h : f 0 = n) : f = ix1 n := by
  funext a
  match a with
  | ⟨0, _⟩ => exact h

/-- A rank-2 index with coordinates `a`, `b` is `ix2 a b`. -/
theorem idx2_eq {N M : Nat} (f : (⟨2, ![N, M]⟩ : Shape).Idx) (a : Fin N) (b : Fin M) (h0 : f 0 = a) (h1 : f 1 = b) :
    f = ix2 a b := by
  funext d
  match d with
  | ⟨0, _⟩ => exact h0
  | ⟨1, _⟩ => exact h1

/-- Two one-column arrays side by side, read in column 0: the first array's column. -/
theorem concat_cols_apply_zero {N : Nat} (x₁ x₂ : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, x₁⟩, ⟨⟨2, ![N, 1]⟩, x₂⟩] h (ix2 n (0 : Fin 2)) = x₁ (ix2 n (0 : Fin 1)) := by
  refine concatenate_pair_apply_left 1 x₁ x₂ h _ rfl _ ?_
  intro b
  match b with
  | ⟨0, _⟩ => rfl
  | ⟨1, _⟩ => rfl

/-- Two one-column arrays side by side, read in column 1: the second array's column. -/
theorem concat_cols_apply_one {N : Nat} (x₁ x₂ : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, x₁⟩, ⟨⟨2, ![N, 1]⟩, x₂⟩] h (ix2 n (1 : Fin 2)) = x₂ (ix2 n (0 : Fin 1)) := by
  refine concatenate_pair_apply_right 1 x₁ x₂ h _ rfl rfl _ ?_ ?_
  · intro b hb
    match b, hb with
    | ⟨0, _⟩, _ => rfl
    | ⟨1, _⟩, hb => exact absurd rfl hb
  · rfl

section Five
variable {N c₀ c₁ c₂ c₃ c₄ T : Nat}
  (x₀ : (⟨2, ![N, c₀]⟩ : Shape).Idx → α) (x₁ : (⟨2, ![N, c₁]⟩ : Shape).Idx → α) (x₂ : (⟨2, ![N, c₂]⟩ : Shape).Idx → α)
  (x₃ : (⟨2, ![N, c₃]⟩ : Shape).Idx → α) (x₄ : (⟨2, ![N, c₄]⟩ : Shape).Idx → α)
  (h : Shape.Concatenates [(⟨2, ![N, c₀]⟩ : Shape), ⟨2, ![N, c₁]⟩, ⟨2, ![N, c₂]⟩, ⟨2, ![N, c₃]⟩, ⟨2, ![N, c₄]⟩] ⟨2, ![N, T]⟩ 1)
  (n : Fin N) (col : Fin T)

/-- Five arrays side by side, read at a column of the first stretch. -/
theorem concat5_apply_0 (c : Fin c₀) (hcol : c.val = col.val) :
    concatenate ⟨2, ![N, T]⟩ 1 [⟨_, x₀⟩, ⟨_, x₁⟩, ⟨_, x₂⟩, ⟨_, x₃⟩, ⟨_, x₄⟩] h (ix2 n col) = x₀ (ix2 n c) := by
  refine concatenate_apply_piece (t := ⟨2, ![N, T]⟩) 1 [⟨_, x₀⟩, ⟨_, x₁⟩, ⟨_, x₂⟩, ⟨_, x₃⟩, ⟨_, x₄⟩] h (ix2 n col) 0 (by simp) _ x₀ rfl rfl 0 ?_ (ix2 n c) ?_ ?_
  · simp
  · intro b hb
    match b, hb with
    | ⟨0, _⟩, _ => rfl
    | ⟨1, _⟩, hb => exact absurd rfl hb
  · show 0 + c.val = col.val
    omega

/-- Five arrays side by side, read at a column of the second stretch. -/
theorem concat5_apply_1 (c : Fin c₁) (hcol : c₀ + c.val = col.val) :
    concatenate ⟨2, ![N, T]⟩ 1 [⟨_, x₀⟩, ⟨_, x₁⟩, ⟨_, x₂⟩, ⟨_, x₃⟩, ⟨_, x₄⟩] h (ix2 n col) = x₁ (ix2 n c) := by
  refine concatenate_apply_piece (t := ⟨2, ![N, T]⟩) 1 [⟨_, x₀⟩, ⟨_, x₁⟩, ⟨_, x₂⟩, ⟨_, x₃⟩, ⟨_, x₄⟩] h (ix2 n col) 1 (by simp) _ x₁ rfl rfl c₀ ?_ (ix2 n c) ?_ ?_
  · simp
  · intro b hb
    match b, hb with
    | ⟨0, _⟩, _ => rfl
    | ⟨1, _⟩, hb => exact absurd rfl hb
  · exact hcol

/-- Five arrays side by side, read at a column of the third stretch. -/
theorem concat5_apply_2 (c : Fin c₂) (hcol : c₀ + c₁ + c.val = col.val) :
    concatenate ⟨2, ![N, T]⟩ 1 [⟨_, x₀⟩, ⟨_, x₁⟩, ⟨_, x₂⟩, ⟨_, x₃⟩, ⟨_, x₄⟩] h (ix2 n col) = x₂ (ix2 n c) := by
  refine concatenate_apply_piece (t := ⟨2, ![N, T]⟩) 1 [⟨_, x₀⟩, ⟨_, x₁⟩, ⟨_, x₂⟩, ⟨_, x₃⟩, ⟨_, x₄⟩] h (ix2 n col) 2 (by simp) _ x₂ rfl rfl (c₀ + c₁) ?_ (ix2 n c) ?_ ?_
  · simp
  · intro b hb
    match b, hb with
    | ⟨0, _⟩, _ => rfl
    | ⟨1, _⟩, hb => exact absurd rfl hb
  · exact hcol

/-- Five arrays side by side, read at a column of the fourth stretch. -/
theorem concat5_apply_3 (c : Fin c₃) (hcol : c₀ + c₁ + c₂ + c.val = col.val) :
    concatenate ⟨2, ![N, T]⟩ 1 [⟨_, x₀⟩, ⟨_, x₁⟩, ⟨_, x₂⟩, ⟨_, x₃⟩, ⟨_, x₄⟩] h (ix2 n col) = x₃ (ix2 n c) := by
  refine concatenate_apply_piece (t := ⟨2, ![N, T]⟩) 1 [⟨_, x₀⟩, ⟨_, x₁⟩, ⟨_, x₂⟩, ⟨_, x₃⟩, ⟨_, x₄⟩] h (ix2 n col) 3 (by simp) _ x₃ rfl rfl (c₀ + c₁ + c₂) ?_ (ix2 n c) ?_ ?_
  · simp [Nat.add_assoc]
  · intro b hb
    match b, hb with
    | ⟨0, _⟩, _ => rfl
    | ⟨1, _⟩, hb => exact absurd rfl hb
  · exact hcol

/-- Five arrays side by side, read at a column of the fifth stretch. -/
theorem concat5_apply_4 (c : Fin c₄) (hcol : c₀ + c₁ + c₂ + c₃ + c.val = col.val) :
    concatenate ⟨2, ![N, T]⟩ 1 [⟨_, x₀⟩, ⟨_, x₁⟩, ⟨_, x₂⟩, ⟨_, x₃⟩, ⟨_, x₄⟩] h (ix2 n col) = x₄ (ix2 n c) := by
  refine concatenate_apply_piece (t := ⟨2, ![N, T]⟩) 1 [⟨_, x₀⟩, ⟨_, x₁⟩, ⟨_, x₂⟩, ⟨_, x₃⟩, ⟨_, x₄⟩] h (ix2 n col) 4 (by simp) _ x₄ rfl rfl (c₀ + c₁ + c₂ + c₃) ?_ (ix2 n c) ?_ ?_
  · simp [Nat.add_assoc]
  · intro b hb
    match b, hb with
    | ⟨0, _⟩, _ => rfl
    | ⟨1, _⟩, hb => exact absurd rfl hb
  · exact hcol

end Five

end Cert.GatherPair

end
-- ==== Proof.RefRead.lean ====
/-
  The reference program's result, one entry at a time, on the extended reals.

  Row `n` of the result is the point's three coordinates followed by one bilinear sample per channel of each of the four
  feature maps. The program computes the point's pixel coordinates `h` and `w` (`Cert.Bilin.pix` of the negated second, and
  of the first, coordinate over the negated third) once. For a map of extent `H × H` and stride `s` it then forms the
  sampling positions `h / s` and `w / s`, their lower corners (rounded down) and upper corners (rounded up, capped at
  `H − 1`), turns each corner into an index word (a negative word wrapped by `H`), looks the four corner entries up with
  a gather of index pairs, and sums the four entries weighted by the products of the corner distances, in the order
  lower-lower, upper-lower, lower-upper, upper-upper. That sum is `Cert.Bilin.rform` of the level's constants, whose
  corner positions `gpos` are the gather's: the wrapped word read signed and clamped into the axis.

  Each section follows the program's stages for one level, reading each stage at row `n` (and channel `c`) from the
  stages before it; the four levels differ in their constants only. The last section reads the five-piece concatenation
  that joins the coordinates and the four levels' samples.
-/
import proofs.«178287_j74071005986926_2_alg».proof.Proof.ReadQ
import proofs.«178287_j74071005986926_2_alg».proof.Proof.Spec
import proofs.«178287_j74071005986926_2_alg».proof.Proof.LibGatherPair

noncomputable section

namespace Cert.RefRead

open Cert.ReferenceIdeal Cert.ReferenceIdeal.Gen Cert.ReferenceIdeal.ReadQ Cert.Bilin Cert.GatherPair
open Idealize.ShloMosaic Idealize.ShloMosaic.ValueIdx

/-- An index word with a negative value wrapped by the extent `n`, as indexing from the end does. -/
def wrapw (n : ℕ) (wd : BitVec 32) : BitVec 32 :=
  Scalar.select (IntOp.cmpi .slt wd 0#32) (IntOp.addi wd (BitVec.ofNat 32 n)) wd

/-! ### The point's coordinates and its projected pixel coordinates -/

section Coords
variable (a0 : (⟨S100000x3, .f32⟩ : BufTy).Contents (Elt Ideal)) (n : Fin 100000)

/-- The first coordinate of point `n`. -/
theorem X_at : val_main_v1 (F := Ideal) a0 (ix1 n) = a0 (ix2 n (0 : Fin 3)) := by
  rw [val_main_v1_apply, val_main_v0_apply]
  exact congrArg a0 (idx2_eq _ n (0 : Fin 3) (Fin.ext (Nat.div_one _)) rfl)
/-- The second coordinate of point `n`. -/
theorem Y_at : val_main_v3 (F := Ideal) a0 (ix1 n) = a0 (ix2 n (1 : Fin 3)) := by
  rw [val_main_v3_apply, val_main_v2_apply]
  exact congrArg a0 (idx2_eq _ n (1 : Fin 3) (Fin.ext (Nat.div_one _)) rfl)
/-- The third coordinate of point `n`. -/
theorem Z_at : val_main_v5 (F := Ideal) a0 (ix1 n) = a0 (ix2 n (2 : Fin 3)) := by
  rw [val_main_v5_apply, val_main_v4_apply]
  exact congrArg a0 (idx2_eq _ n (2 : Fin 3) (Fin.ext (Nat.div_one _)) rfl)

/-- The row pixel coordinate: the projection of the negated second coordinate, clipped. -/
theorem h_at : val_main_v19 (F := Ideal) a0 (ix1 n) = pix (-(a0 (ix2 n (1 : Fin 3)))) (a0 (ix2 n (2 : Fin 3))) := by
  simp only [val_main_v19_apply, val_main_call0_v4_apply, val_main_call0_v3_apply, val_main_cst_4_apply,
    val_main_call0_v2_apply, val_main_call0_v1_apply, val_main_call0_v0_apply, val_main_cst_3_apply,
    val_main_v12_apply, val_main_v10_apply, val_main_v8_apply, val_main_v7_apply, val_main_cst_apply,
    val_main_v6_apply, val_main_v9_apply, val_main_v11_apply, val_main_cst_0_apply, Y_at, Z_at]
  rfl
/-- The column pixel coordinate: the projection of the first coordinate, clipped. -/
theorem w_at : val_main_v20 (F := Ideal) a0 (ix1 n) = pix (a0 (ix2 n (0 : Fin 3))) (a0 (ix2 n (2 : Fin 3))) := by
  simp only [val_main_v20_apply, val_main_call1_v4_apply, val_main_call1_v3_apply, val_main_cst_6_apply,
    val_main_call1_v2_apply, val_main_call1_v1_apply, val_main_call1_v0_apply, val_main_cst_5_apply,
    val_main_v18_apply, val_main_v16_apply, val_main_v14_apply, val_main_v13_apply, val_main_cst_1_apply,
    val_main_v15_apply, val_main_v17_apply, val_main_cst_2_apply, X_at, Z_at]
  rfl

end Coords

/-! ### Level 1: a 56 × 56 map of 64 channels, sampled at the pixel coordinates over the stride -/

section Level1
variable (a0 : (⟨S100000x3, .f32⟩ : BufTy).Contents (Elt Ideal)) (a1 : (⟨S56x56x64, .f32⟩ : BufTy).Contents (Elt Ideal)) (n : Fin 100000)

/-- The sampling position along the rows. -/
theorem L1_px : val_main_v22 (F := Ideal) a0 (ix1 n) = pos (val_main_v19 (F := Ideal) a0 (ix1 n)) (lit 0x40800000#32) := by
  simp only [val_main_v22_apply, val_main_v21_apply, val_main_cst_7_apply]
  rfl
/-- The sampling position along the columns. -/
theorem L1_py : val_main_v24 (F := Ideal) a0 (ix1 n) = pos (val_main_v20 (F := Ideal) a0 (ix1 n)) (lit 0x40800000#32) := by
  simp only [val_main_v24_apply, val_main_v23_apply, val_main_cst_8_apply]
  rfl
/-- The lower row corner. -/
theorem L1_lox : val_main_v25 (F := Ideal) a0 (ix1 n) = lo (pos (val_main_v19 (F := Ideal) a0 (ix1 n)) (lit 0x40800000#32)) := by
  simp only [val_main_v25_apply, L1_px]
  rfl
/-- The upper row corner. -/
theorem L1_hix : val_main_v28 (F := Ideal) a0 (ix1 n) = hi (pos (val_main_v19 (F := Ideal) a0 (ix1 n)) (lit 0x40800000#32)) (lit 0x425C0000#32) := by
  simp only [val_main_v28_apply, val_main_v26_apply, val_main_v27_apply, val_main_cst_9_apply, L1_px]
  rfl
/-- The lower column corner. -/
theorem L1_loy : val_main_v29 (F := Ideal) a0 (ix1 n) = lo (pos (val_main_v20 (F := Ideal) a0 (ix1 n)) (lit 0x40800000#32)) := by
  simp only [val_main_v29_apply, L1_py]
  rfl
/-- The upper column corner. -/
theorem L1_hiy : val_main_v32 (F := Ideal) a0 (ix1 n) = hi (pos (val_main_v20 (F := Ideal) a0 (ix1 n)) (lit 0x40800000#32)) (lit 0x425C0000#32) := by
  simp only [val_main_v32_apply, val_main_v30_apply, val_main_v31_apply, val_main_cst_10_apply, L1_py]
  rfl
/-- A corner's index word, a negative one wrapped by the extent. -/
theorem L1_wd41 : val_main_v41 (F := Ideal) a0 (ix1 n) = wrapw 56 (Ideal.fptosi 32 (lo (pos (val_main_v19 (F := Ideal) a0 (ix1 n)) (lit 0x40800000#32)))) := by
  simp only [val_main_v41_apply, val_main_v38_apply, val_main_v40_apply, val_main_v33_apply, val_main_v37_apply, val_main_c_apply, val_main_v39_apply, val_main_c_11_apply, L1_lox]
  rfl
/-- A corner's index word, a negative one wrapped by the extent. -/
theorem L1_wd46 : val_main_v46 (F := Ideal) a0 (ix1 n) = wrapw 56 (Ideal.fptosi 32 (lo (pos (val_main_v20 (F := Ideal) a0 (ix1 n)) (lit 0x40800000#32)))) := by
  simp only [val_main_v46_apply, val_main_v43_apply, val_main_v45_apply, val_main_v35_apply, val_main_v42_apply, val_main_c_12_apply, val_main_v44_apply, val_main_c_13_apply, L1_loy]
  rfl
/-- A corner's index word, a negative one wrapped by the extent. -/
theorem L1_wd55 : val_main_v55 (F := Ideal) a0 (ix1 n) = wrapw 56 (Ideal.fptosi 32 (lo (pos (val_main_v19 (F := Ideal) a0 (ix1 n)) (lit 0x40800000#32)))) := by
  simp only [val_main_v55_apply, val_main_v52_apply, val_main_v54_apply, val_main_v33_apply, val_main_v51_apply, val_main_c_14_apply, val_main_v53_apply, val_main_c_15_apply, L1_lox]
  rfl
/-- A corner's index word, a negative one wrapped by the extent. -/
theorem L1_wd60 : val_main_v60 (F := Ideal) a0 (ix1 n) = wrapw 56 (Ideal.fptosi 32 (hi (pos (val_main_v20 (F := Ideal) a0 (ix1 n)) (lit 0x40800000#32)) (lit 0x425C0000#32))) := by
  simp only [val_main_v60_apply, val_main_v57_apply, val_main_v59_apply, val_main_v36_apply, val_main_v56_apply, val_main_c_16_apply, val_main_v58_apply, val_main_c_17_apply, L1_hiy]
  rfl
/-- A corner's index word, a negative one wrapped by the extent. -/
theorem L1_wd69 : val_main_v69 (F := Ideal) a0 (ix1 n) = wrapw 56 (Ideal.fptosi 32 (hi (pos (val_main_v19 (F := Ideal) a0 (ix1 n)) (lit 0x40800000#32)) (lit 0x425C0000#32))) := by
  simp only [val_main_v69_apply, val_main_v66_apply, val_main_v68_apply, val_main_v34_apply, val_main_v65_apply, val_main_c_18_apply, val_main_v67_apply, val_main_c_19_apply, L1_hix]
  rfl
/-- A corner's index word, a negative one wrapped by the extent. -/
theorem L1_wd74 : val_main_v74 (F := Ideal) a0 (ix1 n) = wrapw 56 (Ideal.fptosi 32 (lo (pos (val_main_v20 (F := Ideal) a0 (ix1 n)) (lit 0x40800000#32)))) := by
  simp only [val_main_v74_apply, val_main_v71_apply, val_main_v73_apply, val_main_v35_apply, val_main_v70_apply, val_main_c_20_apply, val_main_v72_apply, val_main_c_21_apply, L1_loy]
  rfl
/-- A corner's index word, a negative one wrapped by the extent. -/
theorem L1_wd83 : val_main_v83 (F := Ideal) a0 (ix1 n) = wrapw 56 (Ideal.fptosi 32 (hi (pos (val_main_v19 (F := Ideal) a0 (ix1 n)) (lit 0x40800000#32)) (lit 0x425C0000#32))) := by
  simp only [val_main_v83_apply, val_main_v80_apply, val_main_v82_apply, val_main_v34_apply, val_main_v79_apply, val_main_c_22_apply, val_main_v81_apply, val_main_c_23_apply, L1_hix]
  rfl
/-- A corner's index word, a negative one wrapped by the extent. -/
theorem L1_wd88 : val_main_v88 (F := Ideal) a0 (ix1 n) = wrapw 56 (Ideal.fptosi 32 (hi (pos (val_main_v20 (F := Ideal) a0 (ix1 n)) (lit 0x40800000#32)) (lit 0x425C0000#32))) := by
  simp only [val_main_v88_apply, val_main_v85_apply, val_main_v87_apply, val_main_v36_apply, val_main_v84_apply, val_main_c_24_apply, val_main_v86_apply, val_main_c_25_apply, L1_hiy]
  rfl
/-- The row component of the gather's index pair. -/
theorem L1_i49_0 : val_main_v49 (F := Ideal) a0 (ix2 n (0 : Fin 2)) = wrapw 56 (Ideal.fptosi 32 (lo (pos (val_main_v19 (F := Ideal) a0 (ix1 n)) (lit 0x40800000#32)))) := by
  unfold val_main_v49
  refine (concat_cols_apply_zero _ _ _ n).trans ?_
  refine (val_main_v47_apply a0 _).trans ?_
  refine (congrArg (val_main_v41 (F := Ideal) a0) (idx1_eq (idx_main_v47 (ix2 n (0 : Fin 1))) n rfl)).trans ?_
  exact L1_wd41 a0 n
/-- The column component of the gather's index pair. -/
theorem L1_i49_1 : val_main_v49 (F := Ideal) a0 (ix2 n (1 : Fin 2)) = wrapw 56 (Ideal.fptosi 32 (lo (pos (val_main_v20 (F := Ideal) a0 (ix1 n)) (lit 0x40800000#32)))) := by
  unfold val_main_v49
  refine (concat_cols_apply_one _ _ _ n).trans ?_
  refine (val_main_v48_apply a0 _).trans ?_
  refine (congrArg (val_main_v46 (F := Ideal) a0) (idx1_eq (idx_main_v48 (ix2 n (0 : Fin 1))) n rfl)).trans ?_
  exact L1_wd46 a0 n
/-- The gathered corner entry. -/
theorem L1_g50 (c : Fin 64) : val_main_v50 (F := Ideal) a0 a1 (ix2 n c)
    = a1 (ix3 (gpos 56 (by norm_num) (Ideal.fptosi 32 (lo (pos (val_main_v19 (F := Ideal) a0 (ix1 n)) (lit 0x40800000#32))))) (gpos 56 (by norm_num) (Ideal.fptosi 32 (lo (pos (val_main_v20 (F := Ideal) a0 (ix1 n)) (lit 0x40800000#32))))) c) := by
  unfold val_main_v50
  exact gather_pair_read (H := 56) (W := 56) (C := 64) (N := 100000) (by norm_num) (by norm_num)
    Facts₀.gather_S56x56x64_S100000x2_S100000x64_1_01_n_n_01_1_1164_wf a1 (val_main_v49 (F := Ideal) a0) n c _ _
    (by rw [L1_i49_0]; rfl) (by rw [L1_i49_1]; rfl)
/-- The row component of the gather's index pair. -/
theorem L1_i63_0 : val_main_v63 (F := Ideal) a0 (ix2 n (0 : Fin 2)) = wrapw 56 (Ideal.fptosi 32 (lo (pos (val_main_v19 (F := Ideal) a0 (ix1 n)) (lit 0x40800000#32)))) := by
  unfold val_main_v63
  refine (concat_cols_apply_zero _ _ _ n).trans ?_
  refine (val_main_v61_apply a0 _).trans ?_
  refine (congrArg (val_main_v55 (F := Ideal) a0) (idx1_eq (idx_main_v61 (ix2 n (0 : Fin 1))) n rfl)).trans ?_
  exact L1_wd55 a0 n
/-- The column component of the gather's index pair. -/
theorem L1_i63_1 : val_main_v63 (F := Ideal) a0 (ix2 n (1 : Fin 2)) = wrapw 56 (Ideal.fptosi 32 (hi (pos (val_main_v20 (F := Ideal) a0 (ix1 n)) (lit 0x40800000#32)) (lit 0x425C0000#32))) := by
  unfold val_main_v63
  refine (concat_cols_apply_one _ _ _ n).trans ?_
  refine (val_main_v62_apply a0 _).trans ?_
  refine (congrArg (val_main_v60 (F := Ideal) a0) (idx1_eq (idx_main_v62 (ix2 n (0 : Fin 1))) n rfl)).trans ?_
  exact L1_wd60 a0 n
/-- The gathered corner entry. -/
theorem L1_g64 (c : Fin 64) : val_main_v64 (F := Ideal) a0 a1 (ix2 n c)
    = a1 (ix3 (gpos 56 (by norm_num) (Ideal.fptosi 32 (lo (pos (val_main_v19 (F := Ideal) a0 (ix1 n)) (lit 0x40800000#32))))) (gpos 56 (by norm_num) (Ideal.fptosi 32 (hi (pos (val_main_v20 (F := Ideal) a0 (ix1 n)) (lit 0x40800000#32)) (lit 0x425C0000#32)))) c) := by
  unfold val_main_v64
  exact gather_pair_read (H := 56) (W := 56) (C := 64) (N := 100000) (by norm_num) (by norm_num)
    Facts₀.gather_S56x56x64_S100000x2_S100000x64_1_01_n_n_01_1_1164_wf a1 (val_main_v63 (F := Ideal) a0) n c _ _
    (by rw [L1_i63_0]; rfl) (by rw [L1_i63_1]; rfl)
/-- The row component of the gather's index pair. -/
theorem L1_i77_0 : val_main_v77 (F := Ideal) a0 (ix2 n (0 : Fin 2)) = wrapw 56 (Ideal.fptosi 32 (hi (pos (val_main_v19 (F := Ideal) a0 (ix1 n)) (lit 0x40800000#32)) (lit 0x425C0000#32))) := by
  unfold val_main_v77
  refine (concat_cols_apply_zero _ _ _ n).trans ?_
  refine (val_main_v75_apply a0 _).trans ?_
  refine (congrArg (val_main_v69 (F := Ideal) a0) (idx1_eq (idx_main_v75 (ix2 n (0 : Fin 1))) n rfl)).trans ?_
  exact L1_wd69 a0 n
/-- The column component of the gather's index pair. -/
theorem L1_i77_1 : val_main_v77 (F := Ideal) a0 (ix2 n (1 : Fin 2)) = wrapw 56 (Ideal.fptosi 32 (lo (pos (val_main_v20 (F := Ideal) a0 (ix1 n)) (lit 0x40800000#32)))) := by
  unfold val_main_v77
  refine (concat_cols_apply_one _ _ _ n).trans ?_
  refine (val_main_v76_apply a0 _).trans ?_
  refine (congrArg (val_main_v74 (F := Ideal) a0) (idx1_eq (idx_main_v76 (ix2 n (0 : Fin 1))) n rfl)).trans ?_
  exact L1_wd74 a0 n
/-- The gathered corner entry. -/
theorem L1_g78 (c : Fin 64) : val_main_v78 (F := Ideal) a0 a1 (ix2 n c)
    = a1 (ix3 (gpos 56 (by norm_num) (Ideal.fptosi 32 (hi (pos (val_main_v19 (F := Ideal) a0 (ix1 n)) (lit 0x40800000#32)) (lit 0x425C0000#32)))) (gpos 56 (by norm_num) (Ideal.fptosi 32 (lo (pos (val_main_v20 (F := Ideal) a0 (ix1 n)) (lit 0x40800000#32))))) c) := by
  unfold val_main_v78
  exact gather_pair_read (H := 56) (W := 56) (C := 64) (N := 100000) (by norm_num) (by norm_num)
    Facts₀.gather_S56x56x64_S100000x2_S100000x64_1_01_n_n_01_1_1164_wf a1 (val_main_v77 (F := Ideal) a0) n c _ _
    (by rw [L1_i77_0]; rfl) (by rw [L1_i77_1]; rfl)
/-- The row component of the gather's index pair. -/
theorem L1_i91_0 : val_main_v91 (F := Ideal) a0 (ix2 n (0 : Fin 2)) = wrapw 56 (Ideal.fptosi 32 (hi (pos (val_main_v19 (F := Ideal) a0 (ix1 n)) (lit 0x40800000#32)) (lit 0x425C0000#32))) := by
  unfold val_main_v91
  refine (concat_cols_apply_zero _ _ _ n).trans ?_
  refine (val_main_v89_apply a0 _).trans ?_
  refine (congrArg (val_main_v83 (F := Ideal) a0) (idx1_eq (idx_main_v89 (ix2 n (0 : Fin 1))) n rfl)).trans ?_
  exact L1_wd83 a0 n
/-- The column component of the gather's index pair. -/
theorem L1_i91_1 : val_main_v91 (F := Ideal) a0 (ix2 n (1 : Fin 2)) = wrapw 56 (Ideal.fptosi 32 (hi (pos (val_main_v20 (F := Ideal) a0 (ix1 n)) (lit 0x40800000#32)) (lit 0x425C0000#32))) := by
  unfold val_main_v91
  refine (concat_cols_apply_one _ _ _ n).trans ?_
  refine (val_main_v90_apply a0 _).trans ?_
  refine (congrArg (val_main_v88 (F := Ideal) a0) (idx1_eq (idx_main_v90 (ix2 n (0 : Fin 1))) n rfl)).trans ?_
  exact L1_wd88 a0 n
/-- The gathered corner entry. -/
theorem L1_g92 (c : Fin 64) : val_main_v92 (F := Ideal) a0 a1 (ix2 n c)
    = a1 (ix3 (gpos 56 (by norm_num) (Ideal.fptosi 32 (hi (pos (val_main_v19 (F := Ideal) a0 (ix1 n)) (lit 0x40800000#32)) (lit 0x425C0000#32)))) (gpos 56 (by norm_num) (Ideal.fptosi 32 (hi (pos (val_main_v20 (F := Ideal) a0 (ix1 n)) (lit 0x40800000#32)) (lit 0x425C0000#32)))) c) := by
  unfold val_main_v92
  exact gather_pair_read (H := 56) (W := 56) (C := 64) (N := 100000) (by norm_num) (by norm_num)
    Facts₀.gather_S56x56x64_S100000x2_S100000x64_1_01_n_n_01_1_1164_wf a1 (val_main_v91 (F := Ideal) a0) n c _ _
    (by rw [L1_i91_0]; rfl) (by rw [L1_i91_1]; rfl)
/-- A product of one row weight and one column weight. -/
theorem L1_w96 : val_main_v96 (F := Ideal) a0 (ix2 n (0 : Fin 1)) = (hi (pos (val_main_v19 (F := Ideal) a0 (ix1 n)) (lit 0x40800000#32)) (lit 0x425C0000#32) - pos (val_main_v19 (F := Ideal) a0 (ix1 n)) (lit 0x40800000#32)) * (hi (pos (val_main_v20 (F := Ideal) a0 (ix1 n)) (lit 0x40800000#32)) (lit 0x425C0000#32) - pos (val_main_v20 (F := Ideal) a0 (ix1 n)) (lit 0x40800000#32)) := by
  refine (val_main_v96_apply a0 _).trans ?_
  refine (congrArg (val_main_v95 (F := Ideal) a0) (idx1_eq (idx_main_v96 (ix2 n (0 : Fin 1))) n rfl)).trans ?_
  simp only [val_main_v95_apply, val_main_v93_apply, val_main_v94_apply, L1_px, L1_py, L1_lox, L1_hix, L1_loy, L1_hiy]
  rfl
/-- A product of one row weight and one column weight. -/
theorem L1_w100 : val_main_v100 (F := Ideal) a0 (ix2 n (0 : Fin 1)) = (pos (val_main_v19 (F := Ideal) a0 (ix1 n)) (lit 0x40800000#32) - lo (pos (val_main_v19 (F := Ideal) a0 (ix1 n)) (lit 0x40800000#32))) * (hi (pos (val_main_v20 (F := Ideal) a0 (ix1 n)) (lit 0x40800000#32)) (lit 0x425C0000#32) - pos (val_main_v20 (F := Ideal) a0 (ix1 n)) (lit 0x40800000#32)) := by
  refine (val_main_v100_apply a0 _).trans ?_
  refine (congrArg (val_main_v99 (F := Ideal) a0) (idx1_eq (idx_main_v100 (ix2 n (0 : Fin 1))) n rfl)).trans ?_
  simp only [val_main_v99_apply, val_main_v97_apply, val_main_v98_apply, L1_px, L1_py, L1_lox, L1_hix, L1_loy, L1_hiy]
  rfl
/-- A product of one row weight and one column weight. -/
theorem L1_w104 : val_main_v104 (F := Ideal) a0 (ix2 n (0 : Fin 1)) = (hi (pos (val_main_v19 (F := Ideal) a0 (ix1 n)) (lit 0x40800000#32)) (lit 0x425C0000#32) - pos (val_main_v19 (F := Ideal) a0 (ix1 n)) (lit 0x40800000#32)) * (pos (val_main_v20 (F := Ideal) a0 (ix1 n)) (lit 0x40800000#32) - lo (pos (val_main_v20 (F := Ideal) a0 (ix1 n)) (lit 0x40800000#32))) := by
  refine (val_main_v104_apply a0 _).trans ?_
  refine (congrArg (val_main_v103 (F := Ideal) a0) (idx1_eq (idx_main_v104 (ix2 n (0 : Fin 1))) n rfl)).trans ?_
  simp only [val_main_v103_apply, val_main_v101_apply, val_main_v102_apply, L1_px, L1_py, L1_lox, L1_hix, L1_loy, L1_hiy]
  rfl
/-- A product of one row weight and one column weight. -/
theorem L1_w108 : val_main_v108 (F := Ideal) a0 (ix2 n (0 : Fin 1)) = (pos (val_main_v19 (F := Ideal) a0 (ix1 n)) (lit 0x40800000#32) - lo (pos (val_main_v19 (F := Ideal) a0 (ix1 n)) (lit 0x40800000#32))) * (pos (val_main_v20 (F := Ideal) a0 (ix1 n)) (lit 0x40800000#32) - lo (pos (val_main_v20 (F := Ideal) a0 (ix1 n)) (lit 0x40800000#32))) := by
  refine (val_main_v108_apply a0 _).trans ?_
  refine (congrArg (val_main_v107 (F := Ideal) a0) (idx1_eq (idx_main_v108 (ix2 n (0 : Fin 1))) n rfl)).trans ?_
  simp only [val_main_v107_apply, val_main_v105_apply, val_main_v106_apply, L1_px, L1_py, L1_lox, L1_hix, L1_loy, L1_hiy]
  rfl
/-- The level's sample at row `n`, channel `c`: the four weighted corner entries, summed in the program's order. -/
theorem L1_read (c : Fin 64) : val_main_v119 (F := Ideal) a0 a1 (ix2 n c)
    = rform 56 56 (by norm_num) (by norm_num) (lit 0x40800000#32) (lit 0x425C0000#32) (lit 0x425C0000#32) (val_main_v19 (F := Ideal) a0 (ix1 n)) (val_main_v20 (F := Ideal) a0 (ix1 n)) (fun i j => a1 (ix3 i j c)) := by
  have b109 : val_main_v109 (F := Ideal) a0 (ix2 n c) = _ :=
    (val_main_v109_apply a0 _).trans ((congrArg (val_main_v96 (F := Ideal) a0)
      (idx2_eq (idx_main_v109 (ix2 n c)) n (0 : Fin 1) rfl rfl)).trans (L1_w96 a0 n))
  have b111 : val_main_v111 (F := Ideal) a0 (ix2 n c) = _ :=
    (val_main_v111_apply a0 _).trans ((congrArg (val_main_v100 (F := Ideal) a0)
      (idx2_eq (idx_main_v111 (ix2 n c)) n (0 : Fin 1) rfl rfl)).trans (L1_w100 a0 n))
  have b114 : val_main_v114 (F := Ideal) a0 (ix2 n c) = _ :=
    (val_main_v114_apply a0 _).trans ((congrArg (val_main_v104 (F := Ideal) a0)
      (idx2_eq (idx_main_v114 (ix2 n c)) n (0 : Fin 1) rfl rfl)).trans (L1_w104 a0 n))
  have b117 : val_main_v117 (F := Ideal) a0 (ix2 n c) = _ :=
    (val_main_v117_apply a0 _).trans ((congrArg (val_main_v108 (F := Ideal) a0)
      (idx2_eq (idx_main_v117 (ix2 n c)) n (0 : Fin 1) rfl rfl)).trans (L1_w108 a0 n))
  simp only [val_main_v119_apply, val_main_v116_apply, val_main_v113_apply, val_main_v110_apply, val_main_v112_apply, val_main_v115_apply, val_main_v118_apply, b109, b111, b114, b117,
    L1_g50, L1_g64, L1_g78, L1_g92]
  rfl

end Level1

/-! ### Level 2: a 28 × 28 map of 128 channels, sampled at the pixel coordinates over the stride -/

section Level2
variable (a0 : (⟨S100000x3, .f32⟩ : BufTy).Contents (Elt Ideal)) (a2 : (⟨S28x28x128, .f32⟩ : BufTy).Contents (Elt Ideal)) (n : Fin 100000)

/-- The sampling position along the rows. -/
theorem L2_px : val_main_v121 (F := Ideal) a0 (ix1 n) = pos (val_main_v19 (F := Ideal) a0 (ix1 n)) (lit 0x41000000#32) := by
  simp only [val_main_v121_apply, val_main_v120_apply, val_main_cst_26_apply]
  rfl
/-- The sampling position along the columns. -/
theorem L2_py : val_main_v123 (F := Ideal) a0 (ix1 n) = pos (val_main_v20 (F := Ideal) a0 (ix1 n)) (lit 0x41000000#32) := by
  simp only [val_main_v123_apply, val_main_v122_apply, val_main_cst_27_apply]
  rfl
/-- The lower row corner. -/
theorem L2_lox : val_main_v124 (F := Ideal) a0 (ix1 n) = lo (pos (val_main_v19 (F := Ideal) a0 (ix1 n)) (lit 0x41000000#32)) := by
  simp only [val_main_v124_apply, L2_px]
  rfl
/-- The upper row corner. -/
theorem L2_hix : val_main_v127 (F := Ideal) a0 (ix1 n) = hi (pos (val_main_v19 (F := Ideal) a0 (ix1 n)) (lit 0x41000000#32)) (lit 0x41D80000#32) := by
  simp only [val_main_v127_apply, val_main_v125_apply, val_main_v126_apply, val_main_cst_28_apply, L2_px]
  rfl
/-- The lower column corner. -/
theorem L2_loy : val_main_v128 (F := Ideal) a0 (ix1 n) = lo (pos (val_main_v20 (F := Ideal) a0 (ix1 n)) (lit 0x41000000#32)) := by
  simp only [val_main_v128_apply, L2_py]
  rfl
/-- The upper column corner. -/
theorem L2_hiy : val_main_v131 (F := Ideal) a0 (ix1 n) = hi (pos (val_main_v20 (F := Ideal) a0 (ix1 n)) (lit 0x41000000#32)) (lit 0x41D80000#32) := by
  simp only [val_main_v131_apply, val_main_v129_apply, val_main_v130_apply, val_main_cst_29_apply, L2_py]
  rfl
/-- A corner's index word, a negative one wrapped by the extent. -/
theorem L2_wd41 : val_main_v140 (F := Ideal) a0 (ix1 n) = wrapw 28 (Ideal.fptosi 32 (lo (pos (val_main_v19 (F := Ideal) a0 (ix1 n)) (lit 0x41000000#32)))) := by
  simp only [val_main_v140_apply, val_main_v137_apply, val_main_v139_apply, val_main_v132_apply, val_main_v136_apply, val_main_c_30_apply, val_main_v138_apply, val_main_c_31_apply, L2_lox]
  rfl
/-- A corner's index word, a negative one wrapped by the extent. -/
theorem L2_wd46 : val_main_v145 (F := Ideal) a0 (ix1 n) = wrapw 28 (Ideal.fptosi 32 (lo (pos (val_main_v20 (F := Ideal) a0 (ix1 n)) (lit 0x41000000#32)))) := by
  simp only [val_main_v145_apply, val_main_v142_apply, val_main_v144_apply, val_main_v134_apply, val_main_v141_apply, val_main_c_32_apply, val_main_v143_apply, val_main_c_33_apply, L2_loy]
  rfl
/-- A corner's index word, a negative one wrapped by the extent. -/
theorem L2_wd55 : val_main_v154 (F := Ideal) a0 (ix1 n) = wrapw 28 (Ideal.fptosi 32 (lo (pos (val_main_v19 (F := Ideal) a0 (ix1 n)) (lit 0x41000000#32)))) := by
  simp only [val_main_v154_apply, val_main_v151_apply, val_main_v153_apply, val_main_v132_apply, val_main_v150_apply, val_main_c_34_apply, val_main_v152_apply, val_main_c_35_apply, L2_lox]
  rfl
/-- A corner's index word, a negative one wrapped by the extent. -/
theorem L2_wd60 : val_main_v159 (F := Ideal) a0 (ix1 n) = wrapw 28 (Ideal.fptosi 32 (hi (pos (val_main_v20 (F := Ideal) a0 (ix1 n)) (lit 0x41000000#32)) (lit 0x41D80000#32))) := by
  simp only [val_main_v159_apply, val_main_v156_apply, val_main_v158_apply, val_main_v135_apply, val_main_v155_apply, val_main_c_36_apply, val_main_v157_apply, val_main_c_37_apply, L2_hiy]
  rfl
/-- A corner's index word, a negative one wrapped by the extent. -/
theorem L2_wd69 : val_main_v168 (F := Ideal) a0 (ix1 n) = wrapw 28 (Ideal.fptosi 32 (hi (pos (val_main_v19 (F := Ideal) a0 (ix1 n)) (lit 0x41000000#32)) (lit 0x41D80000#32))) := by
  simp only [val_main_v168_apply, val_main_v165_apply, val_main_v167_apply, val_main_v133_apply, val_main_v164_apply, val_main_c_38_apply, val_main_v166_apply, val_main_c_39_apply, L2_hix]
  rfl
/-- A corner's index word, a negative one wrapped by the extent. -/
theorem L2_wd74 : val_main_v173 (F := Ideal) a0 (ix1 n) = wrapw 28 (Ideal.fptosi 32 (lo (pos (val_main_v20 (F := Ideal) a0 (ix1 n)) (lit 0x41000000#32)))) := by
  simp only [val_main_v173_apply, val_main_v170_apply, val_main_v172_apply, val_main_v134_apply, val_main_v169_apply, val_main_c_40_apply, val_main_v171_apply, val_main_c_41_apply, L2_loy]
  rfl
/-- A corner's index word, a negative one wrapped by the extent. -/
theorem L2_wd83 : val_main_v182 (F := Ideal) a0 (ix1 n) = wrapw 28 (Ideal.fptosi 32 (hi (pos (val_main_v19 (F := Ideal) a0 (ix1 n)) (lit 0x41000000#32)) (lit 0x41D80000#32))) := by
  simp only [val_main_v182_apply, val_main_v179_apply, val_main_v181_apply, val_main_v133_apply, val_main_v178_apply, val_main_c_42_apply, val_main_v180_apply, val_main_c_43_apply, L2_hix]
  rfl
/-- A corner's index word, a negative one wrapped by the extent. -/
theorem L2_wd88 : val_main_v187 (F := Ideal) a0 (ix1 n) = wrapw 28 (Ideal.fptosi 32 (hi (pos (val_main_v20 (F := Ideal) a0 (ix1 n)) (lit 0x41000000#32)) (lit 0x41D80000#32))) := by
  simp only [val_main_v187_apply, val_main_v184_apply, val_main_v186_apply, val_main_v135_apply, val_main_v183_apply, val_main_c_44_apply, val_main_v185_apply, val_main_c_45_apply, L2_hiy]
  rfl
/-- The row component of the gather's index pair. -/
theorem L2_i49_0 : val_main_v148 (F := Ideal) a0 (ix2 n (0 : Fin 2)) = wrapw 28 (Ideal.fptosi 32 (lo (pos (val_main_v19 (F := Ideal) a0 (ix1 n)) (lit 0x41000000#32)))) := by
  unfold val_main_v148
  refine (concat_cols_apply_zero _ _ _ n).trans ?_
  refine (val_main_v146_apply a0 _).trans ?_
  refine (congrArg (val_main_v140 (F := Ideal) a0) (idx1_eq (idx_main_v146 (ix2 n (0 : Fin 1))) n rfl)).trans ?_
  exact L2_wd41 a0 n
/-- The column component of the gather's index pair. -/
theorem L2_i49_1 : val_main_v148 (F := Ideal) a0 (ix2 n (1 : Fin 2)) = wrapw 28 (Ideal.fptosi 32 (lo (pos (val_main_v20 (F := Ideal) a0 (ix1 n)) (lit 0x41000000#32)))) := by
  unfold val_main_v148
  refine (concat_cols_apply_one _ _ _ n).trans ?_
  refine (val_main_v147_apply a0 _).trans ?_
  refine (congrArg (val_main_v145 (F := Ideal) a0) (idx1_eq (idx_main_v147 (ix2 n (0 : Fin 1))) n rfl)).trans ?_
  exact L2_wd46 a0 n
/-- The gathered corner entry. -/
theorem L2_g50 (c : Fin 128) : val_main_v149 (F := Ideal) a0 a2 (ix2 n c)
    = a2 (ix3 (gpos 28 (by norm_num) (Ideal.fptosi 32 (lo (pos (val_main_v19 (F := Ideal) a0 (ix1 n)) (lit 0x41000000#32))))) (gpos 28 (by norm_num) (Ideal.fptosi 32 (lo (pos (val_main_v20 (F := Ideal) a0 (ix1 n)) (lit 0x41000000#32))))) c) := by
  unfold val_main_v149
  exact gather_pair_read (H := 28) (W := 28) (C := 128) (N := 100000) (by norm_num) (by norm_num)
    Facts₀.gather_S28x28x128_S100000x2_S100000x128_1_01_n_n_01_1_11128_wf a2 (val_main_v148 (F := Ideal) a0) n c _ _
    (by rw [L2_i49_0]; rfl) (by rw [L2_i49_1]; rfl)
/-- The row component of the gather's index pair. -/
theorem L2_i63_0 : val_main_v162 (F := Ideal) a0 (ix2 n (0 : Fin 2)) = wrapw 28 (Ideal.fptosi 32 (lo (pos (val_main_v19 (F := Ideal) a0 (ix1 n)) (lit 0x41000000#32)))) := by
  unfold val_main_v162
  refine (concat_cols_apply_zero _ _ _ n).trans ?_
  refine (val_main_v160_apply a0 _).trans ?_
  refine (congrArg (val_main_v154 (F := Ideal) a0) (idx1_eq (idx_main_v160 (ix2 n (0 : Fin 1))) n rfl)).trans ?_
  exact L2_wd55 a0 n
/-- The column component of the gather's index pair. -/
theorem L2_i63_1 : val_main_v162 (F := Ideal) a0 (ix2 n (1 : Fin 2)) = wrapw 28 (Ideal.fptosi 32 (hi (pos (val_main_v20 (F := Ideal) a0 (ix1 n)) (lit 0x41000000#32)) (lit 0x41D80000#32))) := by
  unfold val_main_v162
  refine (concat_cols_apply_one _ _ _ n).trans ?_
  refine (val_main_v161_apply a0 _).trans ?_
  refine (congrArg (val_main_v159 (F := Ideal) a0) (idx1_eq (idx_main_v161 (ix2 n (0 : Fin 1))) n rfl)).trans ?_
  exact L2_wd60 a0 n
/-- The gathered corner entry. -/
theorem L2_g64 (c : Fin 128) : val_main_v163 (F := Ideal) a0 a2 (ix2 n c)
    = a2 (ix3 (gpos 28 (by norm_num) (Ideal.fptosi 32 (lo (pos (val_main_v19 (F := Ideal) a0 (ix1 n)) (lit 0x41000000#32))))) (gpos 28 (by norm_num) (Ideal.fptosi 32 (hi (pos (val_main_v20 (F := Ideal) a0 (ix1 n)) (lit 0x41000000#32)) (lit 0x41D80000#32)))) c) := by
  unfold val_main_v163
  exact gather_pair_read (H := 28) (W := 28) (C := 128) (N := 100000) (by norm_num) (by norm_num)
    Facts₀.gather_S28x28x128_S100000x2_S100000x128_1_01_n_n_01_1_11128_wf a2 (val_main_v162 (F := Ideal) a0) n c _ _
    (by rw [L2_i63_0]; rfl) (by rw [L2_i63_1]; rfl)
/-- The row component of the gather's index pair. -/
theorem L2_i77_0 : val_main_v176 (F := Ideal) a0 (ix2 n (0 : Fin 2)) = wrapw 28 (Ideal.fptosi 32 (hi (pos (val_main_v19 (F := Ideal) a0 (ix1 n)) (lit 0x41000000#32)) (lit 0x41D80000#32))) := by
  unfold val_main_v176
  refine (concat_cols_apply_zero _ _ _ n).trans ?_
  refine (val_main_v174_apply a0 _).trans ?_
  refine (congrArg (val_main_v168 (F := Ideal) a0) (idx1_eq (idx_main_v174 (ix2 n (0 : Fin 1))) n rfl)).trans ?_
  exact L2_wd69 a0 n
/-- The column component of the gather's index pair. -/
theorem L2_i77_1 : val_main_v176 (F := Ideal) a0 (ix2 n (1 : Fin 2)) = wrapw 28 (Ideal.fptosi 32 (lo (pos (val_main_v20 (F := Ideal) a0 (ix1 n)) (lit 0x41000000#32)))) := by
  unfold val_main_v176
  refine (concat_cols_apply_one _ _ _ n).trans ?_
  refine (val_main_v175_apply a0 _).trans ?_
  refine (congrArg (val_main_v173 (F := Ideal) a0) (idx1_eq (idx_main_v175 (ix2 n (0 : Fin 1))) n rfl)).trans ?_
  exact L2_wd74 a0 n
/-- The gathered corner entry. -/
theorem L2_g78 (c : Fin 128) : val_main_v177 (F := Ideal) a0 a2 (ix2 n c)
    = a2 (ix3 (gpos 28 (by norm_num) (Ideal.fptosi 32 (hi (pos (val_main_v19 (F := Ideal) a0 (ix1 n)) (lit 0x41000000#32)) (lit 0x41D80000#32)))) (gpos 28 (by norm_num) (Ideal.fptosi 32 (lo (pos (val_main_v20 (F := Ideal) a0 (ix1 n)) (lit 0x41000000#32))))) c) := by
  unfold val_main_v177
  exact gather_pair_read (H := 28) (W := 28) (C := 128) (N := 100000) (by norm_num) (by norm_num)
    Facts₀.gather_S28x28x128_S100000x2_S100000x128_1_01_n_n_01_1_11128_wf a2 (val_main_v176 (F := Ideal) a0) n c _ _
    (by rw [L2_i77_0]; rfl) (by rw [L2_i77_1]; rfl)
/-- The row component of the gather's index pair. -/
theorem L2_i91_0 : val_main_v190 (F := Ideal) a0 (ix2 n (0 : Fin 2)) = wrapw 28 (Ideal.fptosi 32 (hi (pos (val_main_v19 (F := Ideal) a0 (ix1 n)) (lit 0x41000000#32)) (lit 0x41D80000#32))) := by
  unfold val_main_v190
  refine (concat_cols_apply_zero _ _ _ n).trans ?_
  refine (val_main_v188_apply a0 _).trans ?_
  refine (congrArg (val_main_v182 (F := Ideal) a0) (idx1_eq (idx_main_v188 (ix2 n (0 : Fin 1))) n rfl)).trans ?_
  exact L2_wd83 a0 n
/-- The column component of the gather's index pair. -/
theorem L2_i91_1 : val_main_v190 (F := Ideal) a0 (ix2 n (1 : Fin 2)) = wrapw 28 (Ideal.fptosi 32 (hi (pos (val_main_v20 (F := Ideal) a0 (ix1 n)) (lit 0x41000000#32)) (lit 0x41D80000#32))) := by
  unfold val_main_v190
  refine (concat_cols_apply_one _ _ _ n).trans ?_
  refine (val_main_v189_apply a0 _).trans ?_
  refine (congrArg (val_main_v187 (F := Ideal) a0) (idx1_eq (idx_main_v189 (ix2 n (0 : Fin 1))) n rfl)).trans ?_
  exact L2_wd88 a0 n
/-- The gathered corner entry. -/
theorem L2_g92 (c : Fin 128) : val_main_v191 (F := Ideal) a0 a2 (ix2 n c)
    = a2 (ix3 (gpos 28 (by norm_num) (Ideal.fptosi 32 (hi (pos (val_main_v19 (F := Ideal) a0 (ix1 n)) (lit 0x41000000#32)) (lit 0x41D80000#32)))) (gpos 28 (by norm_num) (Ideal.fptosi 32 (hi (pos (val_main_v20 (F := Ideal) a0 (ix1 n)) (lit 0x41000000#32)) (lit 0x41D80000#32)))) c) := by
  unfold val_main_v191
  exact gather_pair_read (H := 28) (W := 28) (C := 128) (N := 100000) (by norm_num) (by norm_num)
    Facts₀.gather_S28x28x128_S100000x2_S100000x128_1_01_n_n_01_1_11128_wf a2 (val_main_v190 (F := Ideal) a0) n c _ _
    (by rw [L2_i91_0]; rfl) (by rw [L2_i91_1]; rfl)
/-- A product of one row weight and one column weight. -/
theorem L2_w96 : val_main_v195 (F := Ideal) a0 (ix2 n (0 : Fin 1)) = (hi (pos (val_main_v19 (F := Ideal) a0 (ix1 n)) (lit 0x41000000#32)) (lit 0x41D80000#32) - pos (val_main_v19 (F := Ideal) a0 (ix1 n)) (lit 0x41000000#32)) * (hi (pos (val_main_v20 (F := Ideal) a0 (ix1 n)) (lit 0x41000000#32)) (lit 0x41D80000#32) - pos (val_main_v20 (F := Ideal) a0 (ix1 n)) (lit 0x41000000#32)) := by
  refine (val_main_v195_apply a0 _).trans ?_
  refine (congrArg (val_main_v194 (F := Ideal) a0) (idx1_eq (idx_main_v195 (ix2 n (0 : Fin 1))) n rfl)).trans ?_
  simp only [val_main_v194_apply, val_main_v192_apply, val_main_v193_apply, L2_px, L2_py, L2_lox, L2_hix, L2_loy, L2_hiy]
  rfl
/-- A product of one row weight and one column weight. -/
theorem L2_w100 : val_main_v199 (F := Ideal) a0 (ix2 n (0 : Fin 1)) = (pos (val_main_v19 (F := Ideal) a0 (ix1 n)) (lit 0x41000000#32) - lo (pos (val_main_v19 (F := Ideal) a0 (ix1 n)) (lit 0x41000000#32))) * (hi (pos (val_main_v20 (F := Ideal) a0 (ix1 n)) (lit 0x41000000#32)) (lit 0x41D80000#32) - pos (val_main_v20 (F := Ideal) a0 (ix1 n)) (lit 0x41000000#32)) := by
  refine (val_main_v199_apply a0 _).trans ?_
  refine (congrArg (val_main_v198 (F := Ideal) a0) (idx1_eq (idx_main_v199 (ix2 n (0 : Fin 1))) n rfl)).trans ?_
  simp only [val_main_v198_apply, val_main_v196_apply, val_main_v197_apply, L2_px, L2_py, L2_lox, L2_hix, L2_loy, L2_hiy]
  rfl
/-- A product of one row weight and one column weight. -/
theorem L2_w104 : val_main_v203 (F := Ideal) a0 (ix2 n (0 : Fin 1)) = (hi (pos (val_main_v19 (F := Ideal) a0 (ix1 n)) (lit 0x41000000#32)) (lit 0x41D80000#32) - pos (val_main_v19 (F := Ideal) a0 (ix1 n)) (lit 0x41000000#32)) * (pos (val_main_v20 (F := Ideal) a0 (ix1 n)) (lit 0x41000000#32) - lo (pos (val_main_v20 (F := Ideal) a0 (ix1 n)) (lit 0x41000000#32))) := by
  refine (val_main_v203_apply a0 _).trans ?_
  refine (congrArg (val_main_v202 (F := Ideal) a0) (idx1_eq (idx_main_v203 (ix2 n (0 : Fin 1))) n rfl)).trans ?_
  simp only [val_main_v202_apply, val_main_v200_apply, val_main_v201_apply, L2_px, L2_py, L2_lox, L2_hix, L2_loy, L2_hiy]
  rfl
/-- A product of one row weight and one column weight. -/
theorem L2_w108 : val_main_v207 (F := Ideal) a0 (ix2 n (0 : Fin 1)) = (pos (val_main_v19 (F := Ideal) a0 (ix1 n)) (lit 0x41000000#32) - lo (pos (val_main_v19 (F := Ideal) a0 (ix1 n)) (lit 0x41000000#32))) * (pos (val_main_v20 (F := Ideal) a0 (ix1 n)) (lit 0x41000000#32) - lo (pos (val_main_v20 (F := Ideal) a0 (ix1 n)) (lit 0x41000000#32))) := by
  refine (val_main_v207_apply a0 _).trans ?_
  refine (congrArg (val_main_v206 (F := Ideal) a0) (idx1_eq (idx_main_v207 (ix2 n (0 : Fin 1))) n rfl)).trans ?_
  simp only [val_main_v206_apply, val_main_v204_apply, val_main_v205_apply, L2_px, L2_py, L2_lox, L2_hix, L2_loy, L2_hiy]
  rfl
/-- The level's sample at row `n`, channel `c`: the four weighted corner entries, summed in the program's order. -/
theorem L2_read (c : Fin 128) : val_main_v218 (F := Ideal) a0 a2 (ix2 n c)
    = rform 28 28 (by norm_num) (by norm_num) (lit 0x41000000#32) (lit 0x41D80000#32) (lit 0x41D80000#32) (val_main_v19 (F := Ideal) a0 (ix1 n)) (val_main_v20 (F := Ideal) a0 (ix1 n)) (fun i j => a2 (ix3 i j c)) := by
  have b109 : val_main_v208 (F := Ideal) a0 (ix2 n c) = _ :=
    (val_main_v208_apply a0 _).trans ((congrArg (val_main_v195 (F := Ideal) a0)
      (idx2_eq (idx_main_v208 (ix2 n c)) n (0 : Fin 1) rfl rfl)).trans (L2_w96 a0 n))
  have b111 : val_main_v210 (F := Ideal) a0 (ix2 n c) = _ :=
    (val_main_v210_apply a0 _).trans ((congrArg (val_main_v199 (F := Ideal) a0)
      (idx2_eq (idx_main_v210 (ix2 n c)) n (0 : Fin 1) rfl rfl)).trans (L2_w100 a0 n))
  have b114 : val_main_v213 (F := Ideal) a0 (ix2 n c) = _ :=
    (val_main_v213_apply a0 _).trans ((congrArg (val_main_v203 (F := Ideal) a0)
      (idx2_eq (idx_main_v213 (ix2 n c)) n (0 : Fin 1) rfl rfl)).trans (L2_w104 a0 n))
  have b117 : val_main_v216 (F := Ideal) a0 (ix2 n c) = _ :=
    (val_main_v216_apply a0 _).trans ((congrArg (val_main_v207 (F := Ideal) a0)
      (idx2_eq (idx_main_v216 (ix2 n c)) n (0 : Fin 1) rfl rfl)).trans (L2_w108 a0 n))
  simp only [val_main_v218_apply, val_main_v215_apply, val_main_v212_apply, val_main_v209_apply, val_main_v211_apply, val_main_v214_apply, val_main_v217_apply, b109, b111, b114, b117,
    L2_g50, L2_g64, L2_g78, L2_g92]
  rfl

end Level2

/-! ### Level 3: a 14 × 14 map of 256 channels, sampled at the pixel coordinates over the stride -/

section Level3
variable (a0 : (⟨S100000x3, .f32⟩ : BufTy).Contents (Elt Ideal)) (a3 : (⟨S14x14x256, .f32⟩ : BufTy).Contents (Elt Ideal)) (n : Fin 100000)

/-- The sampling position along the rows. -/
theorem L3_px : val_main_v220 (F := Ideal) a0 (ix1 n) = pos (val_main_v19 (F := Ideal) a0 (ix1 n)) (lit 0x41800000#32) := by
  simp only [val_main_v220_apply, val_main_v219_apply, val_main_cst_46_apply]
  rfl
/-- The sampling position along the columns. -/
theorem L3_py : val_main_v222 (F := Ideal) a0 (ix1 n) = pos (val_main_v20 (F := Ideal) a0 (ix1 n)) (lit 0x41800000#32) := by
  simp only [val_main_v222_apply, val_main_v221_apply, val_main_cst_47_apply]
  rfl
/-- The lower row corner. -/
theorem L3_lox : val_main_v223 (F := Ideal) a0 (ix1 n) = lo (pos (val_main_v19 (F := Ideal) a0 (ix1 n)) (lit 0x41800000#32)) := by
  simp only [val_main_v223_apply, L3_px]
  rfl
/-- The upper row corner. -/
theorem L3_hix : val_main_v226 (F := Ideal) a0 (ix1 n) = hi (pos (val_main_v19 (F := Ideal) a0 (ix1 n)) (lit 0x41800000#32)) (lit 0x41500000#32) := by
  simp only [val_main_v226_apply, val_main_v224_apply, val_main_v225_apply, val_main_cst_48_apply, L3_px]
  rfl
/-- The lower column corner. -/
theorem L3_loy : val_main_v227 (F := Ideal) a0 (ix1 n) = lo (pos (val_main_v20 (F := Ideal) a0 (ix1 n)) (lit 0x41800000#32)) := by
  simp only [val_main_v227_apply, L3_py]
  rfl
/-- The upper column corner. -/
theorem L3_hiy : val_main_v230 (F := Ideal) a0 (ix1 n) = hi (pos (val_main_v20 (F := Ideal) a0 (ix1 n)) (lit 0x41800000#32)) (lit 0x41500000#32) := by
  simp only [val_main_v230_apply, val_main_v228_apply, val_main_v229_apply, val_main_cst_49_apply, L3_py]
  rfl
/-- A corner's index word, a negative one wrapped by the extent. -/
theorem L3_wd41 : val_main_v239 (F := Ideal) a0 (ix1 n) = wrapw 14 (Ideal.fptosi 32 (lo (pos (val_main_v19 (F := Ideal) a0 (ix1 n)) (lit 0x41800000#32)))) := by
  simp only [val_main_v239_apply, val_main_v236_apply, val_main_v238_apply, val_main_v231_apply, val_main_v235_apply, val_main_c_50_apply, val_main_v237_apply, val_main_c_51_apply, L3_lox]
  rfl
/-- A corner's index word, a negative one wrapped by the extent. -/
theorem L3_wd46 : val_main_v244 (F := Ideal) a0 (ix1 n) = wrapw 14 (Ideal.fptosi 32 (lo (pos (val_main_v20 (F := Ideal) a0 (ix1 n)) (lit 0x41800000#32)))) := by
  simp only [val_main_v244_apply, val_main_v241_apply, val_main_v243_apply, val_main_v233_apply, val_main_v240_apply, val_main_c_52_apply, val_main_v242_apply, val_main_c_53_apply, L3_loy]
  rfl
/-- A corner's index word, a negative one wrapped by the extent. -/
theorem L3_wd55 : val_main_v253 (F := Ideal) a0 (ix1 n) = wrapw 14 (Ideal.fptosi 32 (lo (pos (val_main_v19 (F := Ideal) a0 (ix1 n)) (lit 0x41800000#32)))) := by
  simp only [val_main_v253_apply, val_main_v250_apply, val_main_v252_apply, val_main_v231_apply, val_main_v249_apply, val_main_c_54_apply, val_main_v251_apply, val_main_c_55_apply, L3_lox]
  rfl
/-- A corner's index word, a negative one wrapped by the extent. -/
theorem L3_wd60 : val_main_v258 (F := Ideal) a0 (ix1 n) = wrapw 14 (Ideal.fptosi 32 (hi (pos (val_main_v20 (F := Ideal) a0 (ix1 n)) (lit 0x41800000#32)) (lit 0x41500000#32))) := by
  simp only [val_main_v258_apply, val_main_v255_apply, val_main_v257_apply, val_main_v234_apply, val_main_v254_apply, val_main_c_56_apply, val_main_v256_apply, val_main_c_57_apply, L3_hiy]
  rfl
/-- A corner's index word, a negative one wrapped by the extent. -/
theorem L3_wd69 : val_main_v267 (F := Ideal) a0 (ix1 n) = wrapw 14 (Ideal.fptosi 32 (hi (pos (val_main_v19 (F := Ideal) a0 (ix1 n)) (lit 0x41800000#32)) (lit 0x41500000#32))) := by
  simp only [val_main_v267_apply, val_main_v264_apply, val_main_v266_apply, val_main_v232_apply, val_main_v263_apply, val_main_c_58_apply, val_main_v265_apply, val_main_c_59_apply, L3_hix]
  rfl
/-- A corner's index word, a negative one wrapped by the extent. -/
theorem L3_wd74 : val_main_v272 (F := Ideal) a0 (ix1 n) = wrapw 14 (Ideal.fptosi 32 (lo (pos (val_main_v20 (F := Ideal) a0 (ix1 n)) (lit 0x41800000#32)))) := by
  simp only [val_main_v272_apply, val_main_v269_apply, val_main_v271_apply, val_main_v233_apply, val_main_v268_apply, val_main_c_60_apply, val_main_v270_apply, val_main_c_61_apply, L3_loy]
  rfl
/-- A corner's index word, a negative one wrapped by the extent. -/
theorem L3_wd83 : val_main_v281 (F := Ideal) a0 (ix1 n) = wrapw 14 (Ideal.fptosi 32 (hi (pos (val_main_v19 (F := Ideal) a0 (ix1 n)) (lit 0x41800000#32)) (lit 0x41500000#32))) := by
  simp only [val_main_v281_apply, val_main_v278_apply, val_main_v280_apply, val_main_v232_apply, val_main_v277_apply, val_main_c_62_apply, val_main_v279_apply, val_main_c_63_apply, L3_hix]
  rfl
/-- A corner's index word, a negative one wrapped by the extent. -/
theorem L3_wd88 : val_main_v286 (F := Ideal) a0 (ix1 n) = wrapw 14 (Ideal.fptosi 32 (hi (pos (val_main_v20 (F := Ideal) a0 (ix1 n)) (lit 0x41800000#32)) (lit 0x41500000#32))) := by
  simp only [val_main_v286_apply, val_main_v283_apply, val_main_v285_apply, val_main_v234_apply, val_main_v282_apply, val_main_c_64_apply, val_main_v284_apply, val_main_c_65_apply, L3_hiy]
  rfl
/-- The row component of the gather's index pair. -/
theorem L3_i49_0 : val_main_v247 (F := Ideal) a0 (ix2 n (0 : Fin 2)) = wrapw 14 (Ideal.fptosi 32 (lo (pos (val_main_v19 (F := Ideal) a0 (ix1 n)) (lit 0x41800000#32)))) := by
  unfold val_main_v247
  refine (concat_cols_apply_zero _ _ _ n).trans ?_
  refine (val_main_v245_apply a0 _).trans ?_
  refine (congrArg (val_main_v239 (F := Ideal) a0) (idx1_eq (idx_main_v245 (ix2 n (0 : Fin 1))) n rfl)).trans ?_
  exact L3_wd41 a0 n
/-- The column component of the gather's index pair. -/
theorem L3_i49_1 : val_main_v247 (F := Ideal) a0 (ix2 n (1 : Fin 2)) = wrapw 14 (Ideal.fptosi 32 (lo (pos (val_main_v20 (F := Ideal) a0 (ix1 n)) (lit 0x41800000#32)))) := by
  unfold val_main_v247
  refine (concat_cols_apply_one _ _ _ n).trans ?_
  refine (val_main_v246_apply a0 _).trans ?_
  refine (congrArg (val_main_v244 (F := Ideal) a0) (idx1_eq (idx_main_v246 (ix2 n (0 : Fin 1))) n rfl)).trans ?_
  exact L3_wd46 a0 n
/-- The gathered corner entry. -/
theorem L3_g50 (c : Fin 256) : val_main_v248 (F := Ideal) a0 a3 (ix2 n c)
    = a3 (ix3 (gpos 14 (by norm_num) (Ideal.fptosi 32 (lo (pos (val_main_v19 (F := Ideal) a0 (ix1 n)) (lit 0x41800000#32))))) (gpos 14 (by norm_num) (Ideal.fptosi 32 (lo (pos (val_main_v20 (F := Ideal) a0 (ix1 n)) (lit 0x41800000#32))))) c) := by
  unfold val_main_v248
  exact gather_pair_read (H := 14) (W := 14) (C := 256) (N := 100000) (by norm_num) (by norm_num)
    Facts₀.gather_S14x14x256_S100000x2_S100000x256_1_01_n_n_01_1_11256_wf a3 (val_main_v247 (F := Ideal) a0) n c _ _
    (by rw [L3_i49_0]; rfl) (by rw [L3_i49_1]; rfl)
/-- The row component of the gather's index pair. -/
theorem L3_i63_0 : val_main_v261 (F := Ideal) a0 (ix2 n (0 : Fin 2)) = wrapw 14 (Ideal.fptosi 32 (lo (pos (val_main_v19 (F := Ideal) a0 (ix1 n)) (lit 0x41800000#32)))) := by
  unfold val_main_v261
  refine (concat_cols_apply_zero _ _ _ n).trans ?_
  refine (val_main_v259_apply a0 _).trans ?_
  refine (congrArg (val_main_v253 (F := Ideal) a0) (idx1_eq (idx_main_v259 (ix2 n (0 : Fin 1))) n rfl)).trans ?_
  exact L3_wd55 a0 n
/-- The column component of the gather's index pair. -/
theorem L3_i63_1 : val_main_v261 (F := Ideal) a0 (ix2 n (1 : Fin 2)) = wrapw 14 (Ideal.fptosi 32 (hi (pos (val_main_v20 (F := Ideal) a0 (ix1 n)) (lit 0x41800000#32)) (lit 0x41500000#32))) := by
  unfold val_main_v261
  refine (concat_cols_apply_one _ _ _ n).trans ?_
  refine (val_main_v260_apply a0 _).trans ?_
  refine (congrArg (val_main_v258 (F := Ideal) a0) (idx1_eq (idx_main_v260 (ix2 n (0 : Fin 1))) n rfl)).trans ?_
  exact L3_wd60 a0 n
/-- The gathered corner entry. -/
theorem L3_g64 (c : Fin 256) : val_main_v262 (F := Ideal) a0 a3 (ix2 n c)
    = a3 (ix3 (gpos 14 (by norm_num) (Ideal.fptosi 32 (lo (pos (val_main_v19 (F := Ideal) a0 (ix1 n)) (lit 0x41800000#32))))) (gpos 14 (by norm_num) (Ideal.fptosi 32 (hi (pos (val_main_v20 (F := Ideal) a0 (ix1 n)) (lit 0x41800000#32)) (lit 0x41500000#32)))) c) := by
  unfold val_main_v262
  exact gather_pair_read (H := 14) (W := 14) (C := 256) (N := 100000) (by norm_num) (by norm_num)
    Facts₀.gather_S14x14x256_S100000x2_S100000x256_1_01_n_n_01_1_11256_wf a3 (val_main_v261 (F := Ideal) a0) n c _ _
    (by rw [L3_i63_0]; rfl) (by rw [L3_i63_1]; rfl)
/-- The row component of the gather's index pair. -/
theorem L3_i77_0 : val_main_v275 (F := Ideal) a0 (ix2 n (0 : Fin 2)) = wrapw 14 (Ideal.fptosi 32 (hi (pos (val_main_v19 (F := Ideal) a0 (ix1 n)) (lit 0x41800000#32)) (lit 0x41500000#32))) := by
  unfold val_main_v275
  refine (concat_cols_apply_zero _ _ _ n).trans ?_
  refine (val_main_v273_apply a0 _).trans ?_
  refine (congrArg (val_main_v267 (F := Ideal) a0) (idx1_eq (idx_main_v273 (ix2 n (0 : Fin 1))) n rfl)).trans ?_
  exact L3_wd69 a0 n
/-- The column component of the gather's index pair. -/
theorem L3_i77_1 : val_main_v275 (F := Ideal) a0 (ix2 n (1 : Fin 2)) = wrapw 14 (Ideal.fptosi 32 (lo (pos (val_main_v20 (F := Ideal) a0 (ix1 n)) (lit 0x41800000#32)))) := by
  unfold val_main_v275
  refine (concat_cols_apply_one _ _ _ n).trans ?_
  refine (val_main_v274_apply a0 _).trans ?_
  refine (congrArg (val_main_v272 (F := Ideal) a0) (idx1_eq (idx_main_v274 (ix2 n (0 : Fin 1))) n rfl)).trans ?_
  exact L3_wd74 a0 n
/-- The gathered corner entry. -/
theorem L3_g78 (c : Fin 256) : val_main_v276 (F := Ideal) a0 a3 (ix2 n c)
    = a3 (ix3 (gpos 14 (by norm_num) (Ideal.fptosi 32 (hi (pos (val_main_v19 (F := Ideal) a0 (ix1 n)) (lit 0x41800000#32)) (lit 0x41500000#32)))) (gpos 14 (by norm_num) (Ideal.fptosi 32 (lo (pos (val_main_v20 (F := Ideal) a0 (ix1 n)) (lit 0x41800000#32))))) c) := by
  unfold val_main_v276
  exact gather_pair_read (H := 14) (W := 14) (C := 256) (N := 100000) (by norm_num) (by norm_num)
    Facts₀.gather_S14x14x256_S100000x2_S100000x256_1_01_n_n_01_1_11256_wf a3 (val_main_v275 (F := Ideal) a0) n c _ _
    (by rw [L3_i77_0]; rfl) (by rw [L3_i77_1]; rfl)
/-- The row component of the gather's index pair. -/
theorem L3_i91_0 : val_main_v289 (F := Ideal) a0 (ix2 n (0 : Fin 2)) = wrapw 14 (Ideal.fptosi 32 (hi (pos (val_main_v19 (F := Ideal) a0 (ix1 n)) (lit 0x41800000#32)) (lit 0x41500000#32))) := by
  unfold val_main_v289
  refine (concat_cols_apply_zero _ _ _ n).trans ?_
  refine (val_main_v287_apply a0 _).trans ?_
  refine (congrArg (val_main_v281 (F := Ideal) a0) (idx1_eq (idx_main_v287 (ix2 n (0 : Fin 1))) n rfl)).trans ?_
  exact L3_wd83 a0 n
/-- The column component of the gather's index pair. -/
theorem L3_i91_1 : val_main_v289 (F := Ideal) a0 (ix2 n (1 : Fin 2)) = wrapw 14 (Ideal.fptosi 32 (hi (pos (val_main_v20 (F := Ideal) a0 (ix1 n)) (lit 0x41800000#32)) (lit 0x41500000#32))) := by
  unfold val_main_v289
  refine (concat_cols_apply_one _ _ _ n).trans ?_
  refine (val_main_v288_apply a0 _).trans ?_
  refine (congrArg (val_main_v286 (F := Ideal) a0) (idx1_eq (idx_main_v288 (ix2 n (0 : Fin 1))) n rfl)).trans ?_
  exact L3_wd88 a0 n
/-- The gathered corner entry. -/
theorem L3_g92 (c : Fin 256) : val_main_v290 (F := Ideal) a0 a3 (ix2 n c)
    = a3 (ix3 (gpos 14 (by norm_num) (Ideal.fptosi 32 (hi (pos (val_main_v19 (F := Ideal) a0 (ix1 n)) (lit 0x41800000#32)) (lit 0x41500000#32)))) (gpos 14 (by norm_num) (Ideal.fptosi 32 (hi (pos (val_main_v20 (F := Ideal) a0 (ix1 n)) (lit 0x41800000#32)) (lit 0x41500000#32)))) c) := by
  unfold val_main_v290
  exact gather_pair_read (H := 14) (W := 14) (C := 256) (N := 100000) (by norm_num) (by norm_num)
    Facts₀.gather_S14x14x256_S100000x2_S100000x256_1_01_n_n_01_1_11256_wf a3 (val_main_v289 (F := Ideal) a0) n c _ _
    (by rw [L3_i91_0]; rfl) (by rw [L3_i91_1]; rfl)
/-- A product of one row weight and one column weight. -/
theorem L3_w96 : val_main_v294 (F := Ideal) a0 (ix2 n (0 : Fin 1)) = (hi (pos (val_main_v19 (F := Ideal) a0 (ix1 n)) (lit 0x41800000#32)) (lit 0x41500000#32) - pos (val_main_v19 (F := Ideal) a0 (ix1 n)) (lit 0x41800000#32)) * (hi (pos (val_main_v20 (F := Ideal) a0 (ix1 n)) (lit 0x41800000#32)) (lit 0x41500000#32) - pos (val_main_v20 (F := Ideal) a0 (ix1 n)) (lit 0x41800000#32)) := by
  refine (val_main_v294_apply a0 _).trans ?_
  refine (congrArg (val_main_v293 (F := Ideal) a0) (idx1_eq (idx_main_v294 (ix2 n (0 : Fin 1))) n rfl)).trans ?_
  simp only [val_main_v293_apply, val_main_v291_apply, val_main_v292_apply, L3_px, L3_py, L3_lox, L3_hix, L3_loy, L3_hiy]
  rfl
/-- A product of one row weight and one column weight. -/
theorem L3_w100 : val_main_v298 (F := Ideal) a0 (ix2 n (0 : Fin 1)) = (pos (val_main_v19 (F := Ideal) a0 (ix1 n)) (lit 0x41800000#32) - lo (pos (val_main_v19 (F := Ideal) a0 (ix1 n)) (lit 0x41800000#32))) * (hi (pos (val_main_v20 (F := Ideal) a0 (ix1 n)) (lit 0x41800000#32)) (lit 0x41500000#32) - pos (val_main_v20 (F := Ideal) a0 (ix1 n)) (lit 0x41800000#32)) := by
  refine (val_main_v298_apply a0 _).trans ?_
  refine (congrArg (val_main_v297 (F := Ideal) a0) (idx1_eq (idx_main_v298 (ix2 n (0 : Fin 1))) n rfl)).trans ?_
  simp only [val_main_v297_apply, val_main_v295_apply, val_main_v296_apply, L3_px, L3_py, L3_lox, L3_hix, L3_loy, L3_hiy]
  rfl
/-- A product of one row weight and one column weight. -/
theorem L3_w104 : val_main_v302 (F := Ideal) a0 (ix2 n (0 : Fin 1)) = (hi (pos (val_main_v19 (F := Ideal) a0 (ix1 n)) (lit 0x41800000#32)) (lit 0x41500000#32) - pos (val_main_v19 (F := Ideal) a0 (ix1 n)) (lit 0x41800000#32)) * (pos (val_main_v20 (F := Ideal) a0 (ix1 n)) (lit 0x41800000#32) - lo (pos (val_main_v20 (F := Ideal) a0 (ix1 n)) (lit 0x41800000#32))) := by
  refine (val_main_v302_apply a0 _).trans ?_
  refine (congrArg (val_main_v301 (F := Ideal) a0) (idx1_eq (idx_main_v302 (ix2 n (0 : Fin 1))) n rfl)).trans ?_
  simp only [val_main_v301_apply, val_main_v299_apply, val_main_v300_apply, L3_px, L3_py, L3_lox, L3_hix, L3_loy, L3_hiy]
  rfl
/-- A product of one row weight and one column weight. -/
theorem L3_w108 : val_main_v306 (F := Ideal) a0 (ix2 n (0 : Fin 1)) = (pos (val_main_v19 (F := Ideal) a0 (ix1 n)) (lit 0x41800000#32) - lo (pos (val_main_v19 (F := Ideal) a0 (ix1 n)) (lit 0x41800000#32))) * (pos (val_main_v20 (F := Ideal) a0 (ix1 n)) (lit 0x41800000#32) - lo (pos (val_main_v20 (F := Ideal) a0 (ix1 n)) (lit 0x41800000#32))) := by
  refine (val_main_v306_apply a0 _).trans ?_
  refine (congrArg (val_main_v305 (F := Ideal) a0) (idx1_eq (idx_main_v306 (ix2 n (0 : Fin 1))) n rfl)).trans ?_
  simp only [val_main_v305_apply, val_main_v303_apply, val_main_v304_apply, L3_px, L3_py, L3_lox, L3_hix, L3_loy, L3_hiy]
  rfl
/-- The level's sample at row `n`, channel `c`: the four weighted corner entries, summed in the program's order. -/
theorem L3_read (c : Fin 256) : val_main_v317 (F := Ideal) a0 a3 (ix2 n c)
    = rform 14 14 (by norm_num) (by norm_num) (lit 0x41800000#32) (lit 0x41500000#32) (lit 0x41500000#32) (val_main_v19 (F := Ideal) a0 (ix1 n)) (val_main_v20 (F := Ideal) a0 (ix1 n)) (fun i j => a3 (ix3 i j c)) := by
  have b109 : val_main_v307 (F := Ideal) a0 (ix2 n c) = _ :=
    (val_main_v307_apply a0 _).trans ((congrArg (val_main_v294 (F := Ideal) a0)
      (idx2_eq (idx_main_v307 (ix2 n c)) n (0 : Fin 1) rfl rfl)).trans (L3_w96 a0 n))
  have b111 : val_main_v309 (F := Ideal) a0 (ix2 n c) = _ :=
    (val_main_v309_apply a0 _).trans ((congrArg (val_main_v298 (F := Ideal) a0)
      (idx2_eq (idx_main_v309 (ix2 n c)) n (0 : Fin 1) rfl rfl)).trans (L3_w100 a0 n))
  have b114 : val_main_v312 (F := Ideal) a0 (ix2 n c) = _ :=
    (val_main_v312_apply a0 _).trans ((congrArg (val_main_v302 (F := Ideal) a0)
      (idx2_eq (idx_main_v312 (ix2 n c)) n (0 : Fin 1) rfl rfl)).trans (L3_w104 a0 n))
  have b117 : val_main_v315 (F := Ideal) a0 (ix2 n c) = _ :=
    (val_main_v315_apply a0 _).trans ((congrArg (val_main_v306 (F := Ideal) a0)
      (idx2_eq (idx_main_v315 (ix2 n c)) n (0 : Fin 1) rfl rfl)).trans (L3_w108 a0 n))
  simp only [val_main_v317_apply, val_main_v314_apply, val_main_v311_apply, val_main_v308_apply, val_main_v310_apply, val_main_v313_apply, val_main_v316_apply, b109, b111, b114, b117,
    L3_g50, L3_g64, L3_g78, L3_g92]
  rfl

end Level3

/-! ### Level 4: a 7 × 7 map of 512 channels, sampled at the pixel coordinates over the stride -/

section Level4
variable (a0 : (⟨S100000x3, .f32⟩ : BufTy).Contents (Elt Ideal)) (a4 : (⟨S7x7x512, .f32⟩ : BufTy).Contents (Elt Ideal)) (n : Fin 100000)

/-- The sampling position along the rows. -/
theorem L4_px : val_main_v319 (F := Ideal) a0 (ix1 n) = pos (val_main_v19 (F := Ideal) a0 (ix1 n)) (lit 0x42000000#32) := by
  simp only [val_main_v319_apply, val_main_v318_apply, val_main_cst_66_apply]
  rfl
/-- The sampling position along the columns. -/
theorem L4_py : val_main_v321 (F := Ideal) a0 (ix1 n) = pos (val_main_v20 (F := Ideal) a0 (ix1 n)) (lit 0x42000000#32) := by
  simp only [val_main_v321_apply, val_main_v320_apply, val_main_cst_67_apply]
  rfl
/-- The lower row corner. -/
theorem L4_lox : val_main_v322 (F := Ideal) a0 (ix1 n) = lo (pos (val_main_v19 (F := Ideal) a0 (ix1 n)) (lit 0x42000000#32)) := by
  simp only [val_main_v322_apply, L4_px]
  rfl
/-- The upper row corner. -/
theorem L4_hix : val_main_v325 (F := Ideal) a0 (ix1 n) = hi (pos (val_main_v19 (F := Ideal) a0 (ix1 n)) (lit 0x42000000#32)) (lit 0x40C00000#32) := by
  simp only [val_main_v325_apply, val_main_v323_apply, val_main_v324_apply, val_main_cst_68_apply, L4_px]
  rfl
/-- The lower column corner. -/
theorem L4_loy : val_main_v326 (F := Ideal) a0 (ix1 n) = lo (pos (val_main_v20 (F := Ideal) a0 (ix1 n)) (lit 0x42000000#32)) := by
  simp only [val_main_v326_apply, L4_py]
  rfl
/-- The upper column corner. -/
theorem L4_hiy : val_main_v329 (F := Ideal) a0 (ix1 n) = hi (pos (val_main_v20 (F := Ideal) a0 (ix1 n)) (lit 0x42000000#32)) (lit 0x40C00000#32) := by
  simp only [val_main_v329_apply, val_main_v327_apply, val_main_v328_apply, val_main_cst_69_apply, L4_py]
  rfl
/-- A corner's index word, a negative one wrapped by the extent. -/
theorem L4_wd41 : val_main_v338 (F := Ideal) a0 (ix1 n) = wrapw 7 (Ideal.fptosi 32 (lo (pos (val_main_v19 (F := Ideal) a0 (ix1 n)) (lit 0x42000000#32)))) := by
  simp only [val_main_v338_apply, val_main_v335_apply, val_main_v337_apply, val_main_v330_apply, val_main_v334_apply, val_main_c_70_apply, val_main_v336_apply, val_main_c_71_apply, L4_lox]
  rfl
/-- A corner's index word, a negative one wrapped by the extent. -/
theorem L4_wd46 : val_main_v343 (F := Ideal) a0 (ix1 n) = wrapw 7 (Ideal.fptosi 32 (lo (pos (val_main_v20 (F := Ideal) a0 (ix1 n)) (lit 0x42000000#32)))) := by
  simp only [val_main_v343_apply, val_main_v340_apply, val_main_v342_apply, val_main_v332_apply, val_main_v339_apply, val_main_c_72_apply, val_main_v341_apply, val_main_c_73_apply, L4_loy]
  rfl
/-- A corner's index word, a negative one wrapped by the extent. -/
theorem L4_wd55 : val_main_v352 (F := Ideal) a0 (ix1 n) = wrapw 7 (Ideal.fptosi 32 (lo (pos (val_main_v19 (F := Ideal) a0 (ix1 n)) (lit 0x42000000#32)))) := by
  simp only [val_main_v352_apply, val_main_v349_apply, val_main_v351_apply, val_main_v330_apply, val_main_v348_apply, val_main_c_74_apply, val_main_v350_apply, val_main_c_75_apply, L4_lox]
  rfl
/-- A corner's index word, a negative one wrapped by the extent. -/
theorem L4_wd60 : val_main_v357 (F := Ideal) a0 (ix1 n) = wrapw 7 (Ideal.fptosi 32 (hi (pos (val_main_v20 (F := Ideal) a0 (ix1 n)) (lit 0x42000000#32)) (lit 0x40C00000#32))) := by
  simp only [val_main_v357_apply, val_main_v354_apply, val_main_v356_apply, val_main_v333_apply, val_main_v353_apply, val_main_c_76_apply, val_main_v355_apply, val_main_c_77_apply, L4_hiy]
  rfl
/-- A corner's index word, a negative one wrapped by the extent. -/
theorem L4_wd69 : val_main_v366 (F := Ideal) a0 (ix1 n) = wrapw 7 (Ideal.fptosi 32 (hi (pos (val_main_v19 (F := Ideal) a0 (ix1 n)) (lit 0x42000000#32)) (lit 0x40C00000#32))) := by
  simp only [val_main_v366_apply, val_main_v363_apply, val_main_v365_apply, val_main_v331_apply, val_main_v362_apply, val_main_c_78_apply, val_main_v364_apply, val_main_c_79_apply, L4_hix]
  rfl
/-- A corner's index word, a negative one wrapped by the extent. -/
theorem L4_wd74 : val_main_v371 (F := Ideal) a0 (ix1 n) = wrapw 7 (Ideal.fptosi 32 (lo (pos (val_main_v20 (F := Ideal) a0 (ix1 n)) (lit 0x42000000#32)))) := by
  simp only [val_main_v371_apply, val_main_v368_apply, val_main_v370_apply, val_main_v332_apply, val_main_v367_apply, val_main_c_80_apply, val_main_v369_apply, val_main_c_81_apply, L4_loy]
  rfl
/-- A corner's index word, a negative one wrapped by the extent. -/
theorem L4_wd83 : val_main_v380 (F := Ideal) a0 (ix1 n) = wrapw 7 (Ideal.fptosi 32 (hi (pos (val_main_v19 (F := Ideal) a0 (ix1 n)) (lit 0x42000000#32)) (lit 0x40C00000#32))) := by
  simp only [val_main_v380_apply, val_main_v377_apply, val_main_v379_apply, val_main_v331_apply, val_main_v376_apply, val_main_c_82_apply, val_main_v378_apply, val_main_c_83_apply, L4_hix]
  rfl
/-- A corner's index word, a negative one wrapped by the extent. -/
theorem L4_wd88 : val_main_v385 (F := Ideal) a0 (ix1 n) = wrapw 7 (Ideal.fptosi 32 (hi (pos (val_main_v20 (F := Ideal) a0 (ix1 n)) (lit 0x42000000#32)) (lit 0x40C00000#32))) := by
  simp only [val_main_v385_apply, val_main_v382_apply, val_main_v384_apply, val_main_v333_apply, val_main_v381_apply, val_main_c_84_apply, val_main_v383_apply, val_main_c_85_apply, L4_hiy]
  rfl
/-- The row component of the gather's index pair. -/
theorem L4_i49_0 : val_main_v346 (F := Ideal) a0 (ix2 n (0 : Fin 2)) = wrapw 7 (Ideal.fptosi 32 (lo (pos (val_main_v19 (F := Ideal) a0 (ix1 n)) (lit 0x42000000#32)))) := by
  unfold val_main_v346
  refine (concat_cols_apply_zero _ _ _ n).trans ?_
  refine (val_main_v344_apply a0 _).trans ?_
  refine (congrArg (val_main_v338 (F := Ideal) a0) (idx1_eq (idx_main_v344 (ix2 n (0 : Fin 1))) n rfl)).trans ?_
  exact L4_wd41 a0 n
/-- The column component of the gather's index pair. -/
theorem L4_i49_1 : val_main_v346 (F := Ideal) a0 (ix2 n (1 : Fin 2)) = wrapw 7 (Ideal.fptosi 32 (lo (pos (val_main_v20 (F := Ideal) a0 (ix1 n)) (lit 0x42000000#32)))) := by
  unfold val_main_v346
  refine (concat_cols_apply_one _ _ _ n).trans ?_
  refine (val_main_v345_apply a0 _).trans ?_
  refine (congrArg (val_main_v343 (F := Ideal) a0) (idx1_eq (idx_main_v345 (ix2 n (0 : Fin 1))) n rfl)).trans ?_
  exact L4_wd46 a0 n
/-- The gathered corner entry. -/
theorem L4_g50 (c : Fin 512) : val_main_v347 (F := Ideal) a0 a4 (ix2 n c)
    = a4 (ix3 (gpos 7 (by norm_num) (Ideal.fptosi 32 (lo (pos (val_main_v19 (F := Ideal) a0 (ix1 n)) (lit 0x42000000#32))))) (gpos 7 (by norm_num) (Ideal.fptosi 32 (lo (pos (val_main_v20 (F := Ideal) a0 (ix1 n)) (lit 0x42000000#32))))) c) := by
  unfold val_main_v347
  exact gather_pair_read (H := 7) (W := 7) (C := 512) (N := 100000) (by norm_num) (by norm_num)
    Facts₀.gather_S7x7x512_S100000x2_S100000x512_1_01_n_n_01_1_11512_wf a4 (val_main_v346 (F := Ideal) a0) n c _ _
    (by rw [L4_i49_0]; rfl) (by rw [L4_i49_1]; rfl)
/-- The row component of the gather's index pair. -/
theorem L4_i63_0 : val_main_v360 (F := Ideal) a0 (ix2 n (0 : Fin 2)) = wrapw 7 (Ideal.fptosi 32 (lo (pos (val_main_v19 (F := Ideal) a0 (ix1 n)) (lit 0x42000000#32)))) := by
  unfold val_main_v360
  refine (concat_cols_apply_zero _ _ _ n).trans ?_
  refine (val_main_v358_apply a0 _).trans ?_
  refine (congrArg (val_main_v352 (F := Ideal) a0) (idx1_eq (idx_main_v358 (ix2 n (0 : Fin 1))) n rfl)).trans ?_
  exact L4_wd55 a0 n
/-- The column component of the gather's index pair. -/
theorem L4_i63_1 : val_main_v360 (F := Ideal) a0 (ix2 n (1 : Fin 2)) = wrapw 7 (Ideal.fptosi 32 (hi (pos (val_main_v20 (F := Ideal) a0 (ix1 n)) (lit 0x42000000#32)) (lit 0x40C00000#32))) := by
  unfold val_main_v360
  refine (concat_cols_apply_one _ _ _ n).trans ?_
  refine (val_main_v359_apply a0 _).trans ?_
  refine (congrArg (val_main_v357 (F := Ideal) a0) (idx1_eq (idx_main_v359 (ix2 n (0 : Fin 1))) n rfl)).trans ?_
  exact L4_wd60 a0 n
/-- The gathered corner entry. -/
theorem L4_g64 (c : Fin 512) : val_main_v361 (F := Ideal) a0 a4 (ix2 n c)
    = a4 (ix3 (gpos 7 (by norm_num) (Ideal.fptosi 32 (lo (pos (val_main_v19 (F := Ideal) a0 (ix1 n)) (lit 0x42000000#32))))) (gpos 7 (by norm_num) (Ideal.fptosi 32 (hi (pos (val_main_v20 (F := Ideal) a0 (ix1 n)) (lit 0x42000000#32)) (lit 0x40C00000#32)))) c) := by
  unfold val_main_v361
  exact gather_pair_read (H := 7) (W := 7) (C := 512) (N := 100000) (by norm_num) (by norm_num)
    Facts₀.gather_S7x7x512_S100000x2_S100000x512_1_01_n_n_01_1_11512_wf a4 (val_main_v360 (F := Ideal) a0) n c _ _
    (by rw [L4_i63_0]; rfl) (by rw [L4_i63_1]; rfl)
/-- The row component of the gather's index pair. -/
theorem L4_i77_0 : val_main_v374 (F := Ideal) a0 (ix2 n (0 : Fin 2)) = wrapw 7 (Ideal.fptosi 32 (hi (pos (val_main_v19 (F := Ideal) a0 (ix1 n)) (lit 0x42000000#32)) (lit 0x40C00000#32))) := by
  unfold val_main_v374
  refine (concat_cols_apply_zero _ _ _ n).trans ?_
  refine (val_main_v372_apply a0 _).trans ?_
  refine (congrArg (val_main_v366 (F := Ideal) a0) (idx1_eq (idx_main_v372 (ix2 n (0 : Fin 1))) n rfl)).trans ?_
  exact L4_wd69 a0 n
/-- The column component of the gather's index pair. -/
theorem L4_i77_1 : val_main_v374 (F := Ideal) a0 (ix2 n (1 : Fin 2)) = wrapw 7 (Ideal.fptosi 32 (lo (pos (val_main_v20 (F := Ideal) a0 (ix1 n)) (lit 0x42000000#32)))) := by
  unfold val_main_v374
  refine (concat_cols_apply_one _ _ _ n).trans ?_
  refine (val_main_v373_apply a0 _).trans ?_
  refine (congrArg (val_main_v371 (F := Ideal) a0) (idx1_eq (idx_main_v373 (ix2 n (0 : Fin 1))) n rfl)).trans ?_
  exact L4_wd74 a0 n
/-- The gathered corner entry. -/
theorem L4_g78 (c : Fin 512) : val_main_v375 (F := Ideal) a0 a4 (ix2 n c)
    = a4 (ix3 (gpos 7 (by norm_num) (Ideal.fptosi 32 (hi (pos (val_main_v19 (F := Ideal) a0 (ix1 n)) (lit 0x42000000#32)) (lit 0x40C00000#32)))) (gpos 7 (by norm_num) (Ideal.fptosi 32 (lo (pos (val_main_v20 (F := Ideal) a0 (ix1 n)) (lit 0x42000000#32))))) c) := by
  unfold val_main_v375
  exact gather_pair_read (H := 7) (W := 7) (C := 512) (N := 100000) (by norm_num) (by norm_num)
    Facts₀.gather_S7x7x512_S100000x2_S100000x512_1_01_n_n_01_1_11512_wf a4 (val_main_v374 (F := Ideal) a0) n c _ _
    (by rw [L4_i77_0]; rfl) (by rw [L4_i77_1]; rfl)
/-- The row component of the gather's index pair. -/
theorem L4_i91_0 : val_main_v388 (F := Ideal) a0 (ix2 n (0 : Fin 2)) = wrapw 7 (Ideal.fptosi 32 (hi (pos (val_main_v19 (F := Ideal) a0 (ix1 n)) (lit 0x42000000#32)) (lit 0x40C00000#32))) := by
  unfold val_main_v388
  refine (concat_cols_apply_zero _ _ _ n).trans ?_
  refine (val_main_v386_apply a0 _).trans ?_
  refine (congrArg (val_main_v380 (F := Ideal) a0) (idx1_eq (idx_main_v386 (ix2 n (0 : Fin 1))) n rfl)).trans ?_
  exact L4_wd83 a0 n
/-- The column component of the gather's index pair. -/
theorem L4_i91_1 : val_main_v388 (F := Ideal) a0 (ix2 n (1 : Fin 2)) = wrapw 7 (Ideal.fptosi 32 (hi (pos (val_main_v20 (F := Ideal) a0 (ix1 n)) (lit 0x42000000#32)) (lit 0x40C00000#32))) := by
  unfold val_main_v388
  refine (concat_cols_apply_one _ _ _ n).trans ?_
  refine (val_main_v387_apply a0 _).trans ?_
  refine (congrArg (val_main_v385 (F := Ideal) a0) (idx1_eq (idx_main_v387 (ix2 n (0 : Fin 1))) n rfl)).trans ?_
  exact L4_wd88 a0 n
/-- The gathered corner entry. -/
theorem L4_g92 (c : Fin 512) : val_main_v389 (F := Ideal) a0 a4 (ix2 n c)
    = a4 (ix3 (gpos 7 (by norm_num) (Ideal.fptosi 32 (hi (pos (val_main_v19 (F := Ideal) a0 (ix1 n)) (lit 0x42000000#32)) (lit 0x40C00000#32)))) (gpos 7 (by norm_num) (Ideal.fptosi 32 (hi (pos (val_main_v20 (F := Ideal) a0 (ix1 n)) (lit 0x42000000#32)) (lit 0x40C00000#32)))) c) := by
  unfold val_main_v389
  exact gather_pair_read (H := 7) (W := 7) (C := 512) (N := 100000) (by norm_num) (by norm_num)
    Facts₀.gather_S7x7x512_S100000x2_S100000x512_1_01_n_n_01_1_11512_wf a4 (val_main_v388 (F := Ideal) a0) n c _ _
    (by rw [L4_i91_0]; rfl) (by rw [L4_i91_1]; rfl)
/-- A product of one row weight and one column weight. -/
theorem L4_w96 : val_main_v393 (F := Ideal) a0 (ix2 n (0 : Fin 1)) = (hi (pos (val_main_v19 (F := Ideal) a0 (ix1 n)) (lit 0x42000000#32)) (lit 0x40C00000#32) - pos (val_main_v19 (F := Ideal) a0 (ix1 n)) (lit 0x42000000#32)) * (hi (pos (val_main_v20 (F := Ideal) a0 (ix1 n)) (lit 0x42000000#32)) (lit 0x40C00000#32) - pos (val_main_v20 (F := Ideal) a0 (ix1 n)) (lit 0x42000000#32)) := by
  refine (val_main_v393_apply a0 _).trans ?_
  refine (congrArg (val_main_v392 (F := Ideal) a0) (idx1_eq (idx_main_v393 (ix2 n (0 : Fin 1))) n rfl)).trans ?_
  simp only [val_main_v392_apply, val_main_v390_apply, val_main_v391_apply, L4_px, L4_py, L4_lox, L4_hix, L4_loy, L4_hiy]
  rfl
/-- A product of one row weight and one column weight. -/
theorem L4_w100 : val_main_v397 (F := Ideal) a0 (ix2 n (0 : Fin 1)) = (pos (val_main_v19 (F := Ideal) a0 (ix1 n)) (lit 0x42000000#32) - lo (pos (val_main_v19 (F := Ideal) a0 (ix1 n)) (lit 0x42000000#32))) * (hi (pos (val_main_v20 (F := Ideal) a0 (ix1 n)) (lit 0x42000000#32)) (lit 0x40C00000#32) - pos (val_main_v20 (F := Ideal) a0 (ix1 n)) (lit 0x42000000#32)) := by
  refine (val_main_v397_apply a0 _).trans ?_
  refine (congrArg (val_main_v396 (F := Ideal) a0) (idx1_eq (idx_main_v397 (ix2 n (0 : Fin 1))) n rfl)).trans ?_
  simp only [val_main_v396_apply, val_main_v394_apply, val_main_v395_apply, L4_px, L4_py, L4_lox, L4_hix, L4_loy, L4_hiy]
  rfl
/-- A product of one row weight and one column weight. -/
theorem L4_w104 : val_main_v401 (F := Ideal) a0 (ix2 n (0 : Fin 1)) = (hi (pos (val_main_v19 (F := Ideal) a0 (ix1 n)) (lit 0x42000000#32)) (lit 0x40C00000#32) - pos (val_main_v19 (F := Ideal) a0 (ix1 n)) (lit 0x42000000#32)) * (pos (val_main_v20 (F := Ideal) a0 (ix1 n)) (lit 0x42000000#32) - lo (pos (val_main_v20 (F := Ideal) a0 (ix1 n)) (lit 0x42000000#32))) := by
  refine (val_main_v401_apply a0 _).trans ?_
  refine (congrArg (val_main_v400 (F := Ideal) a0) (idx1_eq (idx_main_v401 (ix2 n (0 : Fin 1))) n rfl)).trans ?_
  simp only [val_main_v400_apply, val_main_v398_apply, val_main_v399_apply, L4_px, L4_py, L4_lox, L4_hix, L4_loy, L4_hiy]
  rfl
/-- A product of one row weight and one column weight. -/
theorem L4_w108 : val_main_v405 (F := Ideal) a0 (ix2 n (0 : Fin 1)) = (pos (val_main_v19 (F := Ideal) a0 (ix1 n)) (lit 0x42000000#32) - lo (pos (val_main_v19 (F := Ideal) a0 (ix1 n)) (lit 0x42000000#32))) * (pos (val_main_v20 (F := Ideal) a0 (ix1 n)) (lit 0x42000000#32) - lo (pos (val_main_v20 (F := Ideal) a0 (ix1 n)) (lit 0x42000000#32))) := by
  refine (val_main_v405_apply a0 _).trans ?_
  refine (congrArg (val_main_v404 (F := Ideal) a0) (idx1_eq (idx_main_v405 (ix2 n (0 : Fin 1))) n rfl)).trans ?_
  simp only [val_main_v404_apply, val_main_v402_apply, val_main_v403_apply, L4_px, L4_py, L4_lox, L4_hix, L4_loy, L4_hiy]
  rfl
/-- The level's sample at row `n`, channel `c`: the four weighted corner entries, summed in the program's order. -/
theorem L4_read (c : Fin 512) : val_main_v416 (F := Ideal) a0 a4 (ix2 n c)
    = rform 7 7 (by norm_num) (by norm_num) (lit 0x42000000#32) (lit 0x40C00000#32) (lit 0x40C00000#32) (val_main_v19 (F := Ideal) a0 (ix1 n)) (val_main_v20 (F := Ideal) a0 (ix1 n)) (fun i j => a4 (ix3 i j c)) := by
  have b109 : val_main_v406 (F := Ideal) a0 (ix2 n c) = _ :=
    (val_main_v406_apply a0 _).trans ((congrArg (val_main_v393 (F := Ideal) a0)
      (idx2_eq (idx_main_v406 (ix2 n c)) n (0 : Fin 1) rfl rfl)).trans (L4_w96 a0 n))
  have b111 : val_main_v408 (F := Ideal) a0 (ix2 n c) = _ :=
    (val_main_v408_apply a0 _).trans ((congrArg (val_main_v397 (F := Ideal) a0)
      (idx2_eq (idx_main_v408 (ix2 n c)) n (0 : Fin 1) rfl rfl)).trans (L4_w100 a0 n))
  have b114 : val_main_v411 (F := Ideal) a0 (ix2 n c) = _ :=
    (val_main_v411_apply a0 _).trans ((congrArg (val_main_v401 (F := Ideal) a0)
      (idx2_eq (idx_main_v411 (ix2 n c)) n (0 : Fin 1) rfl rfl)).trans (L4_w104 a0 n))
  have b117 : val_main_v414 (F := Ideal) a0 (ix2 n c) = _ :=
    (val_main_v414_apply a0 _).trans ((congrArg (val_main_v405 (F := Ideal) a0)
      (idx2_eq (idx_main_v414 (ix2 n c)) n (0 : Fin 1) rfl rfl)).trans (L4_w108 a0 n))
  simp only [val_main_v416_apply, val_main_v413_apply, val_main_v410_apply, val_main_v407_apply, val_main_v409_apply, val_main_v412_apply, val_main_v415_apply, b109, b111, b114, b117,
    L4_g50, L4_g64, L4_g78, L4_g92]
  rfl

end Level4

/-! ### The result, column by column -/

section Result
variable (a0 : (⟨S100000x3, .f32⟩ : BufTy).Contents (Elt Ideal)) (a1 : (⟨S56x56x64, .f32⟩ : BufTy).Contents (Elt Ideal))
  (a2 : (⟨S28x28x128, .f32⟩ : BufTy).Contents (Elt Ideal)) (a3 : (⟨S14x14x256, .f32⟩ : BufTy).Contents (Elt Ideal))
  (a4 : (⟨S7x7x512, .f32⟩ : BufTy).Contents (Elt Ideal)) (n : Fin 100000)

/-- The result's first three columns are the point's coordinates. -/
theorem ref_coords (c : Fin 3) (hc : c.val < 963) :
    val_main_v417 (F := Ideal) a0 a1 a2 a3 a4 (ix2 n (⟨c.val, hc⟩ : Fin 963)) = a0 (ix2 n c) := by
  unfold val_main_v417
  exact concat5_apply_0 _ _ _ _ _ _ n _ c rfl
/-- The result at row `n`, column `3 + c`: level 1's sample of channel `c`. -/
theorem ref_level1 (c : Fin 64) (hc : 3 + c.val < 963) :
    val_main_v417 (F := Ideal) a0 a1 a2 a3 a4 (ix2 n (⟨3 + c.val, hc⟩ : Fin 963))
      = rform 56 56 (by norm_num) (by norm_num) (lit 0x40800000#32) (lit 0x425C0000#32) (lit 0x425C0000#32)
          (pix (-(a0 (ix2 n (1 : Fin 3)))) (a0 (ix2 n (2 : Fin 3)))) (pix (a0 (ix2 n (0 : Fin 3))) (a0 (ix2 n (2 : Fin 3))))
          (fun i j => a1 (ix3 i j c)) := by
  unfold val_main_v417
  refine (concat5_apply_1 _ _ _ _ _ _ n _ c rfl).trans ?_
  rw [L1_read, h_at, w_at]
/-- The result at row `n`, column `67 + c`: level 2's sample of channel `c`. -/
theorem ref_level2 (c : Fin 128) (hc : 67 + c.val < 963) :
    val_main_v417 (F := Ideal) a0 a1 a2 a3 a4 (ix2 n (⟨67 + c.val, hc⟩ : Fin 963))
      = rform 28 28 (by norm_num) (by norm_num) (lit 0x41000000#32) (lit 0x41D80000#32) (lit 0x41D80000#32)
          (pix (-(a0 (ix2 n (1 : Fin 3)))) (a0 (ix2 n (2 : Fin 3)))) (pix (a0 (ix2 n (0 : Fin 3))) (a0 (ix2 n (2 : Fin 3))))
          (fun i j => a2 (ix3 i j c)) := by
  unfold val_main_v417
  refine (concat5_apply_2 _ _ _ _ _ _ n _ c rfl).trans ?_
  rw [L2_read, h_at, w_at]
/-- The result at row `n`, column `195 + c`: level 3's sample of channel `c`. -/
theorem ref_level3 (c : Fin 256) (hc : 195 + c.val < 963) :
    val_main_v417 (F := Ideal) a0 a1 a2 a3 a4 (ix2 n (⟨195 + c.val, hc⟩ : Fin 963))
      = rform 14 14 (by norm_num) (by norm_num) (lit 0x41800000#32) (lit 0x41500000#32) (lit 0x41500000#32)
          (pix (-(a0 (ix2 n (1 : Fin 3)))) (a0 (ix2 n (2 : Fin 3)))) (pix (a0 (ix2 n (0 : Fin 3))) (a0 (ix2 n (2 : Fin 3))))
          (fun i j => a3 (ix3 i j c)) := by
  unfold val_main_v417
  refine (concat5_apply_3 _ _ _ _ _ _ n _ c rfl).trans ?_
  rw [L3_read, h_at, w_at]
/-- The result at row `n`, column `451 + c`: level 4's sample of channel `c`. -/
theorem ref_level4 (c : Fin 512) (hc : 451 + c.val < 963) :
    val_main_v417 (F := Ideal) a0 a1 a2 a3 a4 (ix2 n (⟨451 + c.val, hc⟩ : Fin 963))
      = rform 7 7 (by norm_num) (by norm_num) (lit 0x42000000#32) (lit 0x40C00000#32) (lit 0x40C00000#32)
          (pix (-(a0 (ix2 n (1 : Fin 3)))) (a0 (ix2 n (2 : Fin 3)))) (pix (a0 (ix2 n (0 : Fin 3))) (a0 (ix2 n (2 : Fin 3))))
          (fun i j => a4 (ix3 i j c)) := by
  unfold val_main_v417
  refine (concat5_apply_4 _ _ _ _ _ _ n _ c rfl).trans ?_
  rw [L4_read, h_at, w_at]

end Result

end Cert.RefRead

end
-- ==== Proof.Finite.lean ====
/-
  The precondition read at an entry: every entry of the four feature maps is a real number.

  The precondition is the conjunction, over the five argument arrays, of "every entry's absolute value is below +∞".
  On the extended reals an absolute value max x (−x) is below +∞ exactly when x is neither +∞ nor −∞, that is, when x is a
  real number. Only the feature maps' entries are needed downstream: the coordinates enter the result through a clip.
-/
import proofs.«178287_j74071005986926_2_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value is below the +∞ word's value is a real number. -/
theorem real_of_abs_lt (x : EReal)
    (h : FloatOps.cmpf (F := Ideal) .olt (FloatOps.hostAbsf (F := Ideal) x) (FloatOps.ofBits (F := Ideal) .f32 0x7F800000#32) = 1#1) :
    ∃ v : ℝ, x = (v : EReal) := by
  induction x using EReal.rec with
  | bot => exact absurd h (by simp [Ideal.ofBits, Ideal.ieee, Ideal.cmpf_def, Ideal.absf_def, Ideal.cmp])
  | coe v => exact ⟨v, rfl⟩
  | top => exact absurd h (by simp [Ideal.ofBits, Ideal.ieee, Ideal.cmpf_def, Ideal.absf_def, Ideal.cmp])

variable [Facts]

/-- Under the precondition every entry of each feature map is a real number. -/
theorem maps_real (a0 : FVec Ideal S100000x3 .f32) (a1 : FVec Ideal S56x56x64 .f32) (a2 : FVec Ideal S28x28x128 .f32)
    (a3 : FVec Ideal S14x14x256 .f32) (a4 : FVec Ideal S7x7x512 .f32)
    (h : fn (F := Ideal) a0 a1 a2 a3 a4 = fun _ => 1#1) :
    (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) := by
  have h0 := congrFun h ValueIdx.ix0
  dsimp only [fn, fn_part1] at h0
  have e0 : IntOp.andi _ _ = 1#1 := h0
  obtain ⟨e1, h4⟩ := IntOp.andi_eq_one.mp e0
  have e1' : IntOp.andi _ _ = 1#1 := e1
  obtain ⟨e2, h3⟩ := IntOp.andi_eq_one.mp e1'
  have e2' : IntOp.andi _ _ = 1#1 := e2
  obtain ⟨e3, h2⟩ := IntOp.andi_eq_one.mp e2'
  have e3' : IntOp.andi _ _ = 1#1 := e3
  obtain ⟨-, h1⟩ := IntOp.andi_eq_one.mp e3'
  exact ⟨fun i => real_of_abs_lt _ (Host.reduce_andi_all _ _ _ _ ValueIdx.ix0 h1 i),
    fun i => real_of_abs_lt _ (Host.reduce_andi_all _ _ _ _ ValueIdx.ix0 h2 i),
    fun i => real_of_abs_lt _ (Host.reduce_andi_all _ _ _ _ ValueIdx.ix0 h3 i),
    fun i => real_of_abs_lt _ (Host.reduce_andi_all _ _ _ _ ValueIdx.ix0 h4 i)⟩

end Cert.Finite

end
-- ==== Proof.KernelArray.lean ====
/-
  The kernel's result array, entry by entry, is the reference's.

  Point t of the grid writes rows 1000·t … 1000·t + 999 of the result. In such a row the first three columns are the
  row's coordinates, as in the reference. Each later stretch of columns is one pyramid level's sample: the kernel forms
  it as a weight row times the flattened map (the matrix form), the reference as four looked-up corners (the corner form).
  The two forms are the same number because the weight row is the outer product of two one-axis weight vectors, each
  supported on that axis's two corner positions, the flattened map's row i·W + j is position (i, j) of the map, and the
  map's entries are real numbers, so the sum distributes. The 100 blocks tile the result, so the whole array is the
  reference's function of the arguments.
-/
import proofs.«178287_j74071005986926_2_alg».proof.Proof.Gen.KernelIdeal.Value
import proofs.«178287_j74071005986926_2_alg».proof.Proof.KernelBlocks
import proofs.«178287_j74071005986926_2_alg».proof.Proof.KernelRead
import proofs.«178287_j74071005986926_2_alg».proof.Proof.LibBilinear
import proofs.«178287_j74071005986926_2_alg».proof.Proof.RefRead
import proofs.«178287_j74071005986926_2_alg».proof.Proof.Finite

set_option maxRecDepth 16384

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.KernelBlocks Cert.KernelRead Cert.RefRead Cert.Bilin

variable (m : (ℓ : Loc nD τ sig) → Buf (Elt Ideal) ℓ)

/-- The result as the reference computes it from the kernel's argument arrays. -/
abbrev G (c : Dev nD) : S100000x963.Idx → EReal :=
  Cert.ReferenceIdeal.ReadQ.val_main_v417 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4))

/-- Every entry of each feature map is a real number. -/
def MapsReal (c : Dev nD) : Prop :=
  (∀ i, ∃ v : ℝ, m ((c : Thread nD τ).loc main_arg1) i = (v : EReal)) ∧ (∀ i, ∃ v : ℝ, m ((c : Thread nD τ).loc main_arg2) i = (v : EReal))
    ∧ (∀ i, ∃ v : ℝ, m ((c : Thread nD τ).loc main_arg3) i = (v : EReal)) ∧ (∀ i, ∃ v : ℝ, m ((c : Thread nD τ).loc main_arg4) i = (v : EReal))

/-- What point t writes back is block t of the reference's result. -/
theorem flushed5_eq (c : Dev nD) (hr : MapsReal m c) (t : Fin cfg0.N) :
    (dats m 0 c).flushed 5 t = ((cfg0.win 5).blk t).view.read (Elt Ideal) (G m c) := by
  rw [Cert.KernelIdeal.Value.flushed5]
  refine funext fun (j : S1000x963.Idx) => ?_
  obtain ⟨r, q, rfl⟩ : ∃ (r : Fin 1000) (q : Fin 963), j = ix2 r q := ⟨j 0, j 1, eq_ix2 j⟩
  have ht : t.val < 100 := lt_of_lt_of_eq t.isLt N_eq
  have hn : t.val * 1000 + r.val < 100000 := by omega
  show out0_5 (iblk m c 0 t) (iblk m c 1 t) (iblk m c 2 t) (iblk m c 3 t) (iblk m c 4 t) (ix2 r q)
    = G m c (((cfg0.win 5).blk t).view.emb (ix2 r q))
  rw [emb5 t r q hn]
  obtain ⟨hr1, hr2, hr3, hr4⟩ := hr
  have hq := q.isLt
  by_cases h0 : q.val < 3
  · obtain ⟨k, hk, rfl⟩ : ∃ (k : Fin 3) (hk : k.val < 963), q = ⟨k.val, hk⟩ := ⟨⟨q.val, h0⟩, hq, rfl⟩
    refine (out_coords (iblk m c 0 t) (iblk m c 1 t) (iblk m c 2 t) (iblk m c 3 t) (iblk m c 4 t) r k hk).trans ?_
    refine Eq.trans ?_ (ref_coords _ _ _ _ _ ⟨t.val * 1000 + r.val, hn⟩ k hk).symm
    rw [iblk0_apply m c t r k hn, V_main_arg0]
  by_cases h1 : q.val < 67
  · obtain ⟨k, hk, rfl⟩ : ∃ (k : Fin 64) (hk : 3 + k.val < 963), q = ⟨3 + k.val, hk⟩ :=
      ⟨⟨q.val - 3, by omega⟩, by show 3 + (q.val - 3) < 963; omega, Fin.ext (by show q.val = 3 + (q.val - 3); omega)⟩
    refine (out_level1 (iblk m c 0 t) (iblk m c 1 t) (iblk m c 2 t) (iblk m c 3 t) (iblk m c 4 t) r k hk).trans ?_
    refine Eq.trans ?_ (ref_level1 _ _ _ _ _ ⟨t.val * 1000 + r.val, hn⟩ k hk).symm
    unfold rowH rowW
    rw [iblk0_apply m c t r 0 hn, iblk0_apply m c t r 1 hn, iblk0_apply m c t r 2 hn, V_main_arg0]
    exact sample56 _ _ _ _ _ (fun i j => hr1 _)
      (fun i j p hp => (iblk1_apply m c t p k).trans (V_main_v0_apply m c i j k p hp))
  by_cases h2 : q.val < 195
  · obtain ⟨k, hk, rfl⟩ : ∃ (k : Fin 128) (hk : 67 + k.val < 963), q = ⟨67 + k.val, hk⟩ :=
      ⟨⟨q.val - 67, by omega⟩, by show 67 + (q.val - 67) < 963; omega, Fin.ext (by show q.val = 67 + (q.val - 67); omega)⟩
    refine (out_level2 (iblk m c 0 t) (iblk m c 1 t) (iblk m c 2 t) (iblk m c 3 t) (iblk m c 4 t) r k hk).trans ?_
    refine Eq.trans ?_ (ref_level2 _ _ _ _ _ ⟨t.val * 1000 + r.val, hn⟩ k hk).symm
    unfold rowH rowW
    rw [iblk0_apply m c t r 0 hn, iblk0_apply m c t r 1 hn, iblk0_apply m c t r 2 hn, V_main_arg0]
    exact sample28 _ _ _ _ _ (fun i j => hr2 _)
      (fun i j p hp => (iblk2_apply m c t p k).trans (V_main_v1_apply m c i j k p hp))
  by_cases h3 : q.val < 451
  · obtain ⟨k, hk, rfl⟩ : ∃ (k : Fin 256) (hk : 195 + k.val < 963), q = ⟨195 + k.val, hk⟩ :=
      ⟨⟨q.val - 195, by omega⟩, by show 195 + (q.val - 195) < 963; omega, Fin.ext (by show q.val = 195 + (q.val - 195); omega)⟩
    refine (out_level3 (iblk m c 0 t) (iblk m c 1 t) (iblk m c 2 t) (iblk m c 3 t) (iblk m c 4 t) r k hk).trans ?_
    refine Eq.trans ?_ (ref_level3 _ _ _ _ _ ⟨t.val * 1000 + r.val, hn⟩ k hk).symm
    unfold rowH rowW
    rw [iblk0_apply m c t r 0 hn, iblk0_apply m c t r 1 hn, iblk0_apply m c t r 2 hn, V_main_arg0]
    exact sample14 _ _ _ _ _ (fun i j => hr3 _)
      (fun i j p hp => (iblk3_apply m c t p k).trans (V_main_v2_apply m c i j k p hp))
  · obtain ⟨k, hk, rfl⟩ : ∃ (k : Fin 512) (hk : 451 + k.val < 963), q = ⟨451 + k.val, hk⟩ :=
      ⟨⟨q.val - 451, by omega⟩, by show 451 + (q.val - 451) < 963; omega, Fin.ext (by show q.val = 451 + (q.val - 451); omega)⟩
    refine (out_level4 (iblk m c 0 t) (iblk m c 1 t) (iblk m c 2 t) (iblk m c 3 t) (iblk m c 4 t) r k hk).trans ?_
    refine Eq.trans ?_ (ref_level4 _ _ _ _ _ ⟨t.val * 1000 + r.val, hn⟩ k hk).symm
    unfold rowH rowW
    rw [iblk0_apply m c t r 0 hn, iblk0_apply m c t r 1 hn, iblk0_apply m c t r 2 hn, V_main_arg0]
    exact sample7 _ _ _ _ _ (fun i j => hr4 _)
      (fun i j p hp => (iblk4_apply m c t p k).trans (V_main_v3_apply m c i j k p hp))

/-- The result array after the run is the reference's function of the argument arrays. -/
theorem final5 (c : Dev nD) (hr : MapsReal m c) : (dats m 0 c).arrAt 5 cfg0.N = G m c :=
  (dats m 0 c).arrAt_eq_of_cover 5 (G m c) (fun t _ => flushed5_eq m c hr t) cover5

end Cert.KernelArray

end
-- ==== Proof.lean ====
/-
  Multi-scale bilinear sampling of four feature maps at projected points: the kernel and its reference agree on the
  extended reals.

  For each of 100000 points (X, Y, Z) both programs form the pixel coordinates h = 250·(−Y)/(−Z) + 112 and
  w = 250·X/(−Z) + 112, clip them to [0, 223], and for each of four feature maps (56², 28², 14², 7² positions; strides 4, 8,
  16, 32) sample the map bilinearly at (h/stride, w/stride); a result row is the point followed by the four samples,
  963 numbers. The reference looks up the four corners around the position and adds them with weights
  (upper − p)·(upper' − q), …; the kernel builds, per axis, a weight vector that holds the lower corner's weight at the
  lower corner's index and the upper corner's at the upper's, multiplies the two vectors' outer product, flattened, with
  the flattened map on the matrix unit, and so never gathers. Because the clip keeps every position inside its map,
  every corner index is a valid position, the weight vectors select exactly the reference's corners, and, the map's
  entries being real numbers by the precondition, the matrix product distributes into the reference's four terms.

  The proof in outline: the kernel's stored block read at an entry is the matrix form of a sample; the reference's result
  read at an entry is the corner form; the two forms are equal for real map entries and clipped coordinates; row
  1000·t + r of the result is row r of the block grid point t writes, and the 100 blocks tile the result.
-/
import proofs.«178287_j74071005986926_2_alg».proof.Defs
import proofs.«178287_j74071005986926_2_alg».proof.Proof.Gen.Kernel
import proofs.«178287_j74071005986926_2_alg».proof.Proof.Gen.Kernel.Skeleton
import proofs.«178287_j74071005986926_2_alg».proof.Proof.Gen.Kernel.Launch
import proofs.«178287_j74071005986926_2_alg».proof.Proof.Gen.Kernel.Points
import proofs.«178287_j74071005986926_2_alg».proof.Proof.Gen.Kernel.Frame
import proofs.«178287_j74071005986926_2_alg».proof.Proof.Gen.KernelIdeal
import proofs.«178287_j74071005986926_2_alg».proof.Proof.Gen.KernelIdeal.Skeleton
import proofs.«178287_j74071005986926_2_alg».proof.Proof.Gen.KernelIdeal.Launch
import proofs.«178287_j74071005986926_2_alg».proof.Proof.Gen.KernelIdeal.Points
import proofs.«178287_j74071005986926_2_alg».proof.Proof.Gen.KernelIdeal.Frame
import proofs.«178287_j74071005986926_2_alg».proof.Proof.Gen.KernelIdeal.Value
import proofs.«178287_j74071005986926_2_alg».proof.Proof.Gen.ReferenceIdeal
import proofs.«178287_j74071005986926_2_alg».proof.Proof.Gen.Pre_finite_inputs
import proofs.«178287_j74071005986926_2_alg».proof.Proof.RunQ
import proofs.«178287_j74071005986926_2_alg».proof.Proof.ReadQ
import proofs.«178287_j74071005986926_2_alg».proof.Proof.RefRun
import proofs.«178287_j74071005986926_2_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- Both programs end with the same result: the kernel's array is the reference's function of the arguments
    (`KernelArray.final5`, which uses that the feature maps' entries are real numbers), and the reference's run ends at that
    function of arguments that agree with the kernel's. -/
theorem algebraic : Cert.algebraic_KernelIdeal_ReferenceIdeal := by
  intro m ρ m' ρ' hpre hagree
  have hr : ∀ c, Cert.KernelArray.MapsReal m c := fun c => Cert.Finite.maps_real _ _ _ _ _ (hpre c)
  refine ⟨fun c => Cert.KernelArray.G m c, ?_, ?_⟩
  · exact (θ_run Cert.KernelIdeal.defs _ _).mono
      (fun r h c => ⟨(h c).1.trans (Cert.KernelArray.final5 m c (hr c)), (h c).2⟩)
      (Cert.KernelIdeal.Value.run_blocks m ρ)
  · refine (θ_run Cert.ReferenceIdeal.defs _ _).mono (fun _ h c => ⟨?_, (h c).2⟩)
      (Cert.ReferenceIdeal.RefRun.run m' ρ')
    rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
